-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v19)) (v1 : (c : Dev Cert.KernelIdeal.nD) → Buf (Elt Ideal) ((c.tc : Thread Cert.KernelIdeal.nD Cert.KernelIdeal.τ).loc Cert.KernelIdeal.main_v20)) (v2 : (c : Dev Cert.KernelIdeal.nD) → Buf (Elt Ideal) ((c.tc : Thread Cert.KernelIdeal.nD Cert.KernelIdeal.τ).loc Cert.KernelIdeal.main_v21)) (v3 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_v20) = v1 c
          ∧ r.2.mem ((c.tc : Thread Cert.KernelIdeal.nD Cert.KernelIdeal.τ).loc Cert.KernelIdeal.main_v21) = v2 c
          ∧ r.2.mem ((c.tc : Thread Cert.KernelIdeal.nD Cert.KernelIdeal.τ).loc Cert.KernelIdeal.main_v22) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_v79) = v1 c
          ∧ r.2.mem ((c.tc : Thread Cert.ReferenceIdeal.nD Cert.ReferenceIdeal.τ).loc Cert.ReferenceIdeal.main_v81) = v2 c
          ∧ r.2.mem ((c.tc : Thread Cert.ReferenceIdeal.nD Cert.ReferenceIdeal.τ).loc Cert.ReferenceIdeal.main_v165) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x1024 : Shape := ⟨2, ![32768, 1024]⟩
abbrev S1024x1024 : Shape := ⟨2, ![1024, 1024]⟩
abbrev S1024 : Shape := ⟨1, ![1024]⟩
abbrev S1024x40 : Shape := ⟨2, ![1024, 40]⟩
abbrev S40 : Shape := ⟨1, ![40]⟩
abbrev S2048x2048 : Shape := ⟨2, ![2048, 2048]⟩
abbrev S2048 : Shape := ⟨1, ![2048]⟩
abbrev S2048x40 : Shape := ⟨2, ![2048, 40]⟩
abbrev S_ : Shape := ⟨0, ![]⟩

class Facts : Prop where
  bcast_S_S32768x1024 : S_.BroadcastsInDim S32768x1024 (![] : Fin 0 → Fin S32768x1024.rank)
  reducesTo_S32768x1024_S_d0_1 : S32768x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S1024x40 : S_.BroadcastsInDim S1024x40 (![] : Fin 0 → Fin S1024x40.rank)
  reducesTo_S1024x40_S_d0_1 : S1024x40.ReducesTo [0, 1] S_
  bcast_S_S40 : S_.BroadcastsInDim S40 (![] : Fin 0 → Fin S40.rank)
  reducesTo_S40_S_d0 : S40.ReducesTo [0] S_
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_
  bcast_S_S2048x40 : S_.BroadcastsInDim S2048x40 (![] : Fin 0 → Fin S2048x40.rank)
  reducesTo_S2048x40_S_d0_1 : S2048x40.ReducesTo [0, 1] S_

variable [Facts]

def fn_part5 {F : FTy → Type} [FloatOps F] (main_v83 : IVec S_ 1) (main_v84 : FVec F S40 .f32) (main_cst_32 : FVec F S_ .f32) : IVec S_ 1 :=
  let main_v85 : FVec F S40 .f32 := broadcastInDim S40 ![] bcast_S_S40 main_cst_32
  let main_v86 : IVec S40 1 := cmpf .olt main_v84 main_v85
  let main_c_33 : IVec S_ 1 := constantI S_ 1 1#1
  let main_v87 : IVec S_ 1 := (fun x v => Host.reduce IntOp.andi x v reducesTo_S40_S_d0 h_S_) main_v86 main_c_33
  let main_v88 : IVec S_ 1 := andi main_v83 main_v87
  main_v88

def fn_part4 {F : FTy → Type} [FloatOps F] (main_arg14 : FVec F S2048 .f32) (main_arg15 : FVec F S2048 .f32) (main_arg16 : FVec F S2048x40 .f32) (main_arg17 : FVec F S40 .f32) (main_v63 : IVec S_ 1) (main_v67 : IVec S_ 1) : IVec S_ 1 :=
  let main_v68 : IVec S_ 1 := andi main_v63 main_v67
  let main_v69 : FVec F S2048 .f32 := Host.absf main_arg14
  let main_cst_26 : FVec F S_ .f32 := constant S_ .f32 0x7F800000#32
  let main_v70 : FVec F S2048 .f32 := broadcastInDim S2048 ![] bcast_S_S2048 main_cst_26
  let main_v71 : IVec S2048 1 := cmpf .olt main_v69 main_v70
  let main_c_27 : IVec S_ 1 := constantI S_ 1 1#1
  let main_v72 : IVec S_ 1 := (fun x v => Host.reduce IntOp.andi x v reducesTo_S2048_S_d0 h_S_) main_v71 main_c_27
  let main_v73 : IVec S_ 1 := andi main_v68 main_v72
  let main_v74 : FVec F S2048 .f32 := Host.absf main_arg15
  let main_cst_28 : FVec F S_ .f32 := constant S_ .f32 0x7F800000#32
  let main_v75 : FVec F S2048 .f32 := broadcastInDim S2048 ![] bcast_S_S2048 main_cst_28
  let main_v76 : IVec S2048 1 := cmpf .olt main_v74 main_v75
  let main_c_29 : IVec S_ 1 := constantI S_ 1 1#1
  let main_v77 : IVec S_ 1 := (fun x v => Host.reduce IntOp.andi x v reducesTo_S2048_S_d0 h_S_) main_v76 main_c_29
  let main_v78 : IVec S_ 1 := andi main_v73 main_v77
  let main_v79 : FVec F S2048x40 .f32 := Host.absf main_arg16
  let main_cst_30 : FVec F S_ .f32 := constant S_ .f32 0x7F800000#32
  let main_v80 : FVec F S2048x40 .f32 := broadcastInDim S2048x40 ![] bcast_S_S2048x40 main_cst_30
  let main_v81 : IVec S2048x40 1 := cmpf .olt main_v79 main_v80
  let main_c_31 : IVec S_ 1 := constantI S_ 1 1#1
  let main_v82 : IVec S_ 1 := (fun x v => Host.reduce IntOp.andi x v reducesTo_S2048x40_S_d0_1 h_S_) main_v81 main_c_31
  let main_v83 : IVec S_ 1 := andi main_v78 main_v82
  let main_v84 : FVec F S40 .f32 := Host.absf main_arg17
  let main_cst_32 : FVec F S_ .f32 := constant S_ .f32 0x7F800000#32
  fn_part5 (F := F) main_v83 main_v84 main_cst_32

def fn_part3 {F : FTy → Type} [FloatOps F] (main_arg11 : FVec F S2048 .f32) (main_arg12 : FVec F S2048 .f32) (main_arg13 : FVec F S2048 .f32) (main_arg14 : FVec F S2048 .f32) (main_arg15 : FVec F S2048 .f32) (main_arg16 : FVec F S2048x40 .f32) (main_arg17 : FVec F S40 .f32) (main_v48 : IVec S_ 1) (main_v49 : FVec F S2048x2048 .f32) (main_v50 : FVec F S2048x2048 .f32) : IVec S_ 1 :=
  let main_v51 : IVec S2048x2048 1 := cmpf .olt main_v49 main_v50
  let main_c_19 : IVec S_ 1 := constantI S_ 1 1#1
  let main_v52 : IVec S_ 1 := (fun x v => Host.reduce IntOp.andi x v reducesTo_S2048x2048_S_d0_1 h_S_) main_v51 main_c_19
  let main_v53 : IVec S_ 1 := andi main_v48 main_v52
  let main_v54 : FVec F S2048 .f32 := Host.absf main_arg11
  let main_cst_20 : FVec F S_ .f32 := constant S_ .f32 0x7F800000#32
  let main_v55 : FVec F S2048 .f32 := broadcastInDim S2048 ![] bcast_S_S2048 main_cst_20
  let main_v56 : IVec S2048 1 := cmpf .olt main_v54 main_v55
  let main_c_21 : IVec S_ 1 := constantI S_ 1 1#1
  let main_v57 : IVec S_ 1 := (fun x v => Host.reduce IntOp.andi x v reducesTo_S2048_S_d0 h_S_) main_v56 main_c_21
  let main_v58 : IVec S_ 1 := andi main_v53 main_v57
  let main_v59 : FVec F S2048 .f32 := Host.absf main_arg12
  let main_cst_22 : FVec F S_ .f32 := constant S_ .f32 0x7F800000#32
  let main_v60 : FVec F S2048 .f32 := broadcastInDim S2048 ![] bcast_S_S2048 main_cst_22
  let main_v61 : IVec S2048 1 := cmpf .olt main_v59 main_v60
  let main_c_23 : IVec S_ 1 := constantI S_ 1 1#1
  let main_v62 : IVec S_ 1 := (fun x v => Host.reduce IntOp.andi x v reducesTo_S2048_S_d0 h_S_) main_v61 main_c_23
  let main_v63 : IVec S_ 1 := andi main_v58 main_v62
  let main_v64 : FVec F S2048 .f32 := Host.absf main_arg13
  let main_cst_24 : FVec F S_ .f32 := constant S_ .f32 0x7F800000#32
  let main_v65 : FVec F S2048 .f32 := broadcastInDim S2048 ![] bcast_S_S2048 main_cst_24
  let main_v66 : IVec S2048 1 := cmpf .olt main_v64 main_v65
  let main_c_25 : IVec S_ 1 := constantI S_ 1 1#1
  let main_v67 : IVec S_ 1 := (fun x v => Host.reduce IntOp.andi x v reducesTo_S2048_S_d0 h_S_) main_v66 main_c_25
  fn_part4 (F := F) main_arg14 main_arg15 main_arg16 main_arg17 main_v63 main_v67

def fn_part2 {F : FTy → Type} [FloatOps F] (main_arg7 : FVec F S1024 .f32) (main_arg8 : FVec F S1024x40 .f32) (main_arg9 : FVec F S40 .f32) (main_arg10 : FVec F S2048x2048 .f32) (main_arg11 : FVec F S2048 .f32) (main_arg12 : FVec F S2048 .f32) (main_arg13 : FVec F S2048 .f32) (main_arg14 : FVec F S2048 .f32) (main_arg15 : FVec F S2048 .f32) (main_arg16 : FVec F S2048x40 .f32) (main_arg17 : FVec F S40 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024x40 .f32 := Host.absf main_arg8
  let main_cst_14 : FVec F S_ .f32 := constant S_ .f32 0x7F800000#32
  let main_v40 : FVec F S1024x40 .f32 := broadcastInDim S1024x40 ![] bcast_S_S1024x40 main_cst_14
  let main_v41 : IVec S1024x40 1 := cmpf .olt main_v39 main_v40
  let main_c_15 : IVec S_ 1 := constantI S_ 1 1#1
  let main_v42 : IVec S_ 1 := (fun x v => Host.reduce IntOp.andi x v reducesTo_S1024x40_S_d0_1 h_S_) main_v41 main_c_15
  let main_v43 : IVec S_ 1 := andi main_v38 main_v42
  let main_v44 : FVec F S40 .f32 := Host.absf main_arg9
  let main_cst_16 : FVec F S_ .f32 := constant S_ .f32 0x7F800000#32
  let main_v45 : FVec F S40 .f32 := broadcastInDim S40 ![] bcast_S_S40 main_cst_16
  let main_v46 : IVec S40 1 := cmpf .olt main_v44 main_v45
  let main_c_17 : IVec S_ 1 := constantI S_ 1 1#1
  let main_v47 : IVec S_ 1 := (fun x v => Host.reduce IntOp.andi x v reducesTo_S40_S_d0 h_S_) main_v46 main_c_17
  let main_v48 : IVec S_ 1 := andi main_v43 main_v47
  let main_v49 : FVec F S2048x2048 .f32 := Host.absf main_arg10
  let main_cst_18 : FVec F S_ .f32 := constant S_ .f32 0x7F800000#32
  let main_v50 : FVec F S2048x2048 .f32 := broadcastInDim S2048x2048 ![] bcast_S_S2048x2048 main_cst_18
  fn_part3 (F := F) main_arg11 main_arg12 main_arg13 main_arg14 main_arg15 main_arg16 main_arg17 main_v48 main_v49 main_v50

def fn_part1 {F : FTy → Type} [FloatOps F] (main_arg4 : FVec F S1024 .f32) (main_arg5 : FVec F S1024 .f32) (main_arg6 : FVec F S1024 .f32) (main_arg7 : FVec F S1024 .f32) (main_arg8 : FVec F S1024x40 .f32) (main_arg9 : FVec F S40 .f32) (main_arg10 : FVec F S2048x2048 .f32) (main_arg11 : FVec F S2048 .f32) (main_arg12 : FVec F S2048 .f32) (main_arg13 : FVec F S2048 .f32) (main_arg14 : FVec F S2048 .f32) (main_arg15 : FVec F S2048 .f32) (main_arg16 : FVec F S2048x40 .f32) (main_arg17 : FVec F S40 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_v33

def fn {F : FTy → Type} [FloatOps F] (main_arg0 : FVec F S32768x1024 .f32) (main_arg1 : FVec F S32768x1024 .f32) (main_arg2 : FVec F S1024x1024 .f32) (main_arg3 : FVec F S1024 .f32) (main_arg4 : FVec F S1024 .f32) (main_arg5 : FVec F S1024 .f32) (main_arg6 : FVec F S1024 .f32) (main_arg7 : FVec F S1024 .f32) (main_arg8 : FVec F S1024x40 .f32) (main_arg9 : FVec F S40 .f32) (main_arg10 : FVec F S2048x2048 .f32) (main_arg11 : FVec F S2048 .f32) (main_arg12 : FVec F S2048 .f32) (main_arg13 : FVec F S2048 .f32) (main_arg14 : FVec F S2048 .f32) (main_arg15 : FVec F S2048 .f32) (main_arg16 : FVec F S2048x40 .f32) (main_arg17 : FVec F S40 .f32) : IVec S_ 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_c : IVec S_ 1 := constantI S_ 1 1#1
  let main_v3 : IVec S_ 1 := (fun x v => Host.reduce IntOp.andi x v reducesTo_S32768x1024_S_d0_1 h_S_) main_v2 main_c
  let main_v4 : FVec F S32768x1024 .f32 := Host.absf main_arg1
  let main_cst_0 : FVec F S_ .f32 := constant S_ .f32 0x7F800000#32
  let main_v5 : FVec F S32768x1024 .f32 := broadcastInDim S32768x1024 ![] bcast_S_S32768x1024 main_cst_0
  let main_v6 : IVec S32768x1024 1 := cmpf .olt main_v4 main_v5
  let main_c_1 : IVec S_ 1 := constantI S_ 1 1#1
  let main_v7 : IVec S_ 1 := (fun x v => Host.reduce IntOp.andi x v reducesTo_S32768x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_arg8 main_arg9 main_arg10 main_arg11 main_arg12 main_arg13 main_arg14 main_arg15 main_arg16 main_arg17 main_v13 main_v16
-- ==== Kernel.lean ====
abbrev S32768x1024 : Shape := ⟨2, ![32768, 1024]⟩
abbrev S1024x1024 : Shape := ⟨2, ![1024, 1024]⟩
abbrev S1024 : Shape := ⟨1, ![1024]⟩
abbrev S1024x40 : Shape := ⟨2, ![1024, 40]⟩
abbrev S40 : Shape := ⟨1, ![40]⟩
abbrev S2048x2048 : Shape := ⟨2, ![2048, 2048]⟩
abbrev S2048 : Shape := ⟨1, ![2048]⟩
abbrev S2048x40 : Shape := ⟨2, ![2048, 40]⟩
abbrev S1x1024 : Shape := ⟨2, ![1, 1024]⟩
abbrev S1x40 : Shape := ⟨2, ![1, 40]⟩
abbrev S1024x2048 : Shape := ⟨2, ![1024, 2048]⟩
abbrev S1x2048 : Shape := ⟨2, ![1, 2048]⟩
abbrev S32768x40 : Shape := ⟨2, ![32768, 40]⟩
abbrev S512x1024 : Shape := ⟨2, ![512, 1024]⟩
abbrev S512x40 : Shape := ⟨2, ![512, 40]⟩
abbrev S256x1024 : Shape := ⟨2, ![256, 1024]⟩
abbrev S256x40 : Shape := ⟨2, ![256, 40]⟩
abbrev S256x2048 : Shape := ⟨2, ![256, 2048]⟩
abbrev S1024x1 : Shape := ⟨2, ![1024, 1]⟩

abbrev nBuf : Space → Nat
  | .hbm => 41
  | .vmem => 47
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S1024x40, .f32⟩
  | .hbm, ⟨9, _⟩ => ⟨S40, .f32⟩
  | .hbm, ⟨10, _⟩ => ⟨S2048x2048, .f32⟩
  | .hbm, ⟨11, _⟩ => ⟨S2048, .f32⟩
  | .hbm, ⟨12, _⟩ => ⟨S2048, .f32⟩
  | .hbm, ⟨13, _⟩ => ⟨S2048, .f32⟩
  | .hbm, ⟨14, _⟩ => ⟨S2048, .f32⟩
  | .hbm, ⟨15, _⟩ => ⟨S2048, .f32⟩
  | .hbm, ⟨16, _⟩ => ⟨S2048x40, .f32⟩
  | .hbm, ⟨17, _⟩ => ⟨S40, .f32⟩
  | .hbm, ⟨18, _⟩ => ⟨S1024x1024, .bf16⟩
  | .hbm, ⟨19, _⟩ => ⟨S1024x40, .bf16⟩
  | .hbm, ⟨20, _⟩ => ⟨S1x1024, .f32⟩
  | .hbm, ⟨21, _⟩ => ⟨S1x1024, .f32⟩
  | .hbm, ⟨22, _⟩ => ⟨S1x1024, .f32⟩
  | .hbm, ⟨23, _⟩ => ⟨S1x1024, .f32⟩
  | .hbm, ⟨24, _⟩ => ⟨S1x1024, .f32⟩
  | .hbm, ⟨25, _⟩ => ⟨S1x40, .f32⟩
  | .hbm, ⟨26, _⟩ => ⟨S1024x2048, .f32⟩
  | .hbm, ⟨27, _⟩ => ⟨S1024x2048, .bf16⟩
  | .hbm, ⟨28, _⟩ => ⟨S1024x2048, .f32⟩
  | .hbm, ⟨29, _⟩ => ⟨S1024x2048, .bf16⟩
  | .hbm, ⟨30, _⟩ => ⟨S2048x40, .bf16⟩
  | .hbm, ⟨31, _⟩ => ⟨S1x2048, .f32⟩
  | .hbm, ⟨32, _⟩ => ⟨S1x2048, .f32⟩
  | .hbm, ⟨33, _⟩ => ⟨S1x2048, .f32⟩
  | .hbm, ⟨34, _⟩ => ⟨S1x2048, .f32⟩
  | .hbm, ⟨35, _⟩ => ⟨S1x2048, .f32⟩
  | .hbm, ⟨36, _⟩ => ⟨S1x40, .f32⟩
  | .hbm, ⟨37, _⟩ => ⟨S32768x40, .f32⟩
  | .hbm, ⟨38, _⟩ => ⟨S32768x40, .f32⟩
  | .hbm, ⟨39, _⟩ => ⟨S32768x40, .f32⟩
  | .hbm, ⟨40, _⟩ => ⟨S32768x40, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1024x40, .bf16⟩
  | .local _ .vmem, ⟨9, _⟩ => ⟨S1x40, .f32⟩
  | .local _ .vmem, ⟨10, _⟩ => ⟨S512x40, .f32⟩
  | .local _ .vmem, ⟨11, _⟩ => ⟨S512x40, .f32⟩
  | .local _ .vmem, ⟨12, _⟩ => ⟨S512x1024, .f32⟩
  | .local _ .vmem, ⟨13, _⟩ => ⟨S512x1024, .f32⟩
  | .local _ .vmem, ⟨14, _⟩ => ⟨S1024x1024, .bf16⟩
  | .local _ .vmem, ⟨15, _⟩ => ⟨S1x1024, .f32⟩
  | .local _ .vmem, ⟨16, _⟩ => ⟨S1x1024, .f32⟩
  | .local _ .vmem, ⟨17, _⟩ => ⟨S1x1024, .f32⟩
  | .local _ .vmem, ⟨18, _⟩ => ⟨S1x1024, .f32⟩
  | .local _ .vmem, ⟨19, _⟩ => ⟨S1x1024, .f32⟩
  | .local _ .vmem, ⟨20, _⟩ => ⟨S1024x40, .bf16⟩
  | .local _ .vmem, ⟨21, _⟩ => ⟨S1x40, .f32⟩
  | .local _ .vmem, ⟨22, _⟩ => ⟨S512x40, .f32⟩
  | .local _ .vmem, ⟨23, _⟩ => ⟨S512x40, .f32⟩
  | .local _ .vmem, ⟨24, _⟩ => ⟨S256x1024, .f32⟩
  | .local _ .vmem, ⟨25, _⟩ => ⟨S256x1024, .f32⟩
  | .local _ .vmem, ⟨26, _⟩ => ⟨S256x1024, .f32⟩
  | .local _ .vmem, ⟨27, _⟩ => ⟨S256x1024, .f32⟩
  | .local _ .vmem, ⟨28, _⟩ => ⟨S1024x2048, .bf16⟩
  | .local _ .vmem, ⟨29, _⟩ => ⟨S1024x2048, .bf16⟩
  | .local _ .vmem, ⟨30, _⟩ => ⟨S1x2048, .f32⟩
  | .local _ .vmem, ⟨31, _⟩ => ⟨S1x2048, .f32⟩
  | .local _ .vmem, ⟨32, _⟩ => ⟨S1x2048, .f32⟩
  | .local _ .vmem, ⟨33, _⟩ => ⟨S1x2048, .f32⟩
  | .local _ .vmem, ⟨34, _⟩ => ⟨S1x2048, .f32⟩
  | .local _ .vmem, ⟨35, _⟩ => ⟨S2048x40, .bf16⟩
  | .local _ .vmem, ⟨36, _⟩ => ⟨S1x40, .f32⟩
  | .local _ .vmem, ⟨37, _⟩ => ⟨S256x40, .f32⟩
  | .local _ .vmem, ⟨38, _⟩ => ⟨S256x40, .f32⟩
  | .local _ .vmem, ⟨39, _⟩ => ⟨S1024x40, .f32⟩
  | .local _ .vmem, ⟨40, _⟩ => ⟨S1024x40, .f32⟩
  | .local _ .vmem, ⟨41, _⟩ => ⟨S1024x40, .f32⟩
  | .local _ .vmem, ⟨42, _⟩ => ⟨S1024x40, .f32⟩
  | .local _ .vmem, ⟨43, _⟩ => ⟨S1024x40, .f32⟩
  | .local _ .vmem, ⟨44, _⟩ => ⟨S1024x40, .f32⟩
  | .local _ .vmem, ⟨45, _⟩ => ⟨S1024x40, .f32⟩
  | .local _ .vmem, ⟨46, _⟩ => ⟨S1024x40, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | _, _ => false

abbrev semScoped : Fin 0 → Bool
  | ⟨_, h⟩ => absurd h (Nat.not_lt_zero _)

abbrev dmaSemScoped : Fin 47 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | _ => false

abbrev sig : RefSig :=
  ofTc nBuf bufTy 0 47 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg8_0 : Ref sig .tc := ⟨.vmem, 21, rfl⟩
abbrev cc1_stg9_0 : Ref sig .tc := ⟨.vmem, 22, rfl⟩
abbrev cc1_stg9_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg3_0 : Ref sig .tc := ⟨.vmem, 29, rfl⟩
abbrev cc2_stg4_0 : Ref sig .tc := ⟨.vmem, 30, rfl⟩
abbrev cc2_stg5_0 : Ref sig .tc := ⟨.vmem, 31, rfl⟩
abbrev cc2_stg6_0 : Ref sig .tc := ⟨.vmem, 32, rfl⟩
abbrev cc2_stg7_0 : Ref sig .tc := ⟨.vmem, 33, rfl⟩
abbrev cc2_stg8_0 : Ref sig .tc := ⟨.vmem, 34, rfl⟩
abbrev cc2_stg9_0 : Ref sig .tc := ⟨.vmem, 35, rfl⟩
abbrev cc2_stg10_0 : Ref sig .tc := ⟨.vmem, 36, rfl⟩
abbrev cc2_stg11_0 : Ref sig .tc := ⟨.vmem, 37, rfl⟩
abbrev cc2_stg11_1 : Ref sig .tc := ⟨.vmem, 38, rfl⟩
abbrev cc3_stg0_0 : Ref sig .tc := ⟨.vmem, 39, rfl⟩
abbrev cc3_stg0_1 : Ref sig .tc := ⟨.vmem, 40, rfl⟩
abbrev cc3_stg1_0 : Ref sig .tc := ⟨.vmem, 41, rfl⟩
abbrev cc3_stg1_1 : Ref sig .tc := ⟨.vmem, 42, rfl⟩
abbrev cc3_stg2_0 : Ref sig .tc := ⟨.vmem, 43, rfl⟩
abbrev cc3_stg2_1 : Ref sig .tc := ⟨.vmem, 44, rfl⟩
abbrev cc3_stg3_0 : Ref sig .tc := ⟨.vmem, 45, rfl⟩
abbrev cc3_stg3_1 : Ref sig .tc := ⟨.vmem, 46, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem8_0 : DmaSem sig := 21
abbrev cc1_sem9_0 : DmaSem sig := 22
abbrev cc1_sem9_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem3_0 : DmaSem sig := 29
abbrev cc2_sem4_0 : DmaSem sig := 30
abbrev cc2_sem5_0 : DmaSem sig := 31
abbrev cc2_sem6_0 : DmaSem sig := 32
abbrev cc2_sem7_0 : DmaSem sig := 33
abbrev cc2_sem8_0 : DmaSem sig := 34
abbrev cc2_sem9_0 : DmaSem sig := 35
abbrev cc2_sem10_0 : DmaSem sig := 36
abbrev cc2_sem11_0 : DmaSem sig := 37
abbrev cc2_sem11_1 : DmaSem sig := 38
abbrev cc3_sem0_0 : DmaSem sig := 39
abbrev cc3_sem0_1 : DmaSem sig := 40
abbrev cc3_sem1_0 : DmaSem sig := 41
abbrev cc3_sem1_1 : DmaSem sig := 42
abbrev cc3_sem2_0 : DmaSem sig := 43
abbrev cc3_sem2_1 : DmaSem sig := 44
abbrev cc3_sem3_0 : DmaSem sig := 45
abbrev cc3_sem3_1 : DmaSem sig := 46

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x40 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x40 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x40 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1024x40 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x40 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S512x40 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![128], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S256x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1024x2048 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1024x2048 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x2048 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x2048 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x2048 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x2048 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x2048 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S2048x40 .bf16 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S1x40 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 2 → Memref sig .tc .vmem S256x40 .f32 := fun | 0 => Memref.whole cc2_stg11_0 | 1 => Memref.whole cc2_stg11_1 | ⟨_ + 2, h⟩ => absurd h (Nat.not_lt.2 (Nat.le_add_left _ _))
abbrev sem2_11 : Fin 2 → DmaSem sig := fun | 0 => cc2_sem11_0 | 1 => cc2_sem11_1 | ⟨_ + 2, h⟩ => absurd h (Nat.not_lt.2 (Nat.le_add_left _ _))
abbrev reads2_11 : Fin grid2.rank → Bool := ![true]

abbrev grid3 : Pipeline.Grid := ⟨1, ![32], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1024x40 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S1024x40 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S1024x40 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S1024x40 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  bitsLt_bf16_f32 : FTy.bits .bf16 < FTy.bits .f32
  shapeCasts_S1024_S1x1024 : S1024.ShapeCasts S1x1024
  shapeCasts_S40_S1x40 : S40.ShapeCasts S1x40
  slices_S2048x2048_S1024x2048_0_0 : S2048x2048.Slices ![0, 0] S1024x2048
  slices_S2048x2048_S1024x2048_1024_0 : S2048x2048.Slices ![1024, 0] S1024x2048
  shapeCasts_S2048_S1x2048 : S2048.ShapeCasts S1x2048
  inb_S512x1024_S512x1024_0_0 : ∀ a, (![0, 0] : Fin 2 → Nat) a + S512x1024.size a ≤ S512x1024.size a
  h_S512x1024 : 0 < S512x1024.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S1024x40_S1024x40_0_0 : ∀ a, (![0, 0] : Fin 2 → Nat) a + S1024x40.size a ≤ S1024x40.size a
  h_S1024x40 : 0 < S1024x40.numel
  shapeCasts_S1024x40_S1024x40 : S1024x40.ShapeCasts S1024x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S512x40 : S1x40.Broadcasts S512x40
  inb_S512x40_S512x40_0_0 : ∀ a, (![0, 0] : Fin 2 → Nat) a + S512x40.size a ≤ S512x40.size a
  h_S512x40 : 0 < S512x40.numel
  inb_S256x1024_S256x1024_0_0 : ∀ a, (![0, 0] : Fin 2 → Nat) a + S256x1024.size a ≤ S256x1024.size a
  h_S256x1024 : 0 < S256x1024.numel
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S256x2048 : S1x2048.Broadcasts S256x2048
  inb_S2048x40_S2048x40_0_0 : ∀ a, (![0, 0] : Fin 2 → Nat) a + S2048x40.size a ≤ S2048x40.size a
  h_S2048x40 : 0 < S2048x40.numel
  shapeCasts_S2048x40_S2048x40 : S2048x40.ShapeCasts S2048x40
  broadcasts_S1x40_S256x40 : S1x40.Broadcasts S256x40
  inb_S256x40_S256x40_0_0 : ∀ a, (![0, 0] : Fin 2 → Nat) a + S256x40.size a ≤ S256x40.size a
  h_S256x40 : 0 < S256x40.numel
  reduces_S1024x40_S1024 : S1024x40.Reduces [1] S1024
  shapeCasts_S1024_S1024x1 : S1024.ShapeCasts S1024x1
  broadcasts_S1024x1_S1024x40 : S1024x1.Broadcasts S1024x40
  dot_S512x1024_S1024x1024_S512x1024_1_0_0_1_n_n_wf : DotDims.WF S512x1024 S1024x1024 S512x1024 [1] [0] [0] [1] [] []
  dot_S512x1024_S1024x40_S512x40_1_0_0_1_n_n_wf : DotDims.WF S512x1024 S1024x40 S512x40 [1] [0] [0] [1] [] []
  dot_S256x1024_S1024x2048_S256x2048_1_0_0_1_n_n_wf : DotDims.WF S256x1024 S1024x2048 S256x2048 [1] [0] [0] [1] [] []
  dot_S256x2048_S2048x40_S256x40_1_0_0_1_n_n_wf : DotDims.WF S256x2048 S2048x40 S256x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S32768x1024.size a
  hwx0_0 : ∀ i : grid0.Coords, EltTy.bits .f32 = 32 ∨ (Rect.block (s := S32768x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x40.size a ≤ S1024x40.size a
  hwx0_7 : ∀ i : grid0.Coords, EltTy.bits .bf16 = 32 ∨ (Rect.block (s := S1024x40) S1024x40.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x40.size a ≤ S1x40.size a
  hwx0_8 : ∀ i : grid0.Coords, EltTy.bits .f32 = 32 ∨ (Rect.block (s := S1x40) S1x40.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S512x40.size a ≤ S32768x40.size a
  hwx0_9 : ∀ i : grid0.Coords, EltTy.bits .f32 = 32 ∨ (Rect.block (s := S32768x40) S512x40.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S32768x1024.size a
  hwx1_0 : ∀ i : grid1.Coords, EltTy.bits .f32 = 32 ∨ (Rect.block (s := S32768x1024) S512x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .bf16 = 32 ∨ (Rect.block (s := S1024x1024) S1024x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .f32 = 32 ∨ (Rect.block (s := S1x1024) S1x1024.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1024.size a ≤ S1x1024.size a
  hwx1_3 : ∀ i : grid1.Coords, EltTy.bits .f32 = 32 ∨ (Rect.block (s := S1x1024) S1x1024.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1024.size a ≤ S1x1024.size a
  hwx1_4 : ∀ i : grid1.Coords, EltTy.bits .f32 = 32 ∨ (Rect.block (s := S1x1024) S1x1024.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x1024.size a ≤ S1x1024.size a
  hwx1_5 : ∀ i : grid1.Coords, EltTy.bits .f32 = 32 ∨ (Rect.block (s := S1x1024) S1x1024.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x1024.size a ≤ S1x1024.size a
  hwx1_6 : ∀ i : grid1.Coords, EltTy.bits .f32 = 32 ∨ (Rect.block (s := S1x1024) S1x1024.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1024x40.size a ≤ S1024x40.size a
  hwx1_7 : ∀ i : grid1.Coords, EltTy.bits .bf16 = 32 ∨ (Rect.block (s := S1024x40) S1024x40.size (cc1_transform_7 i) (hinb1_7 i)).WholeWords (EltTy.packing .bf16)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x40.size a ≤ S1x40.size a
  hwx1_8 : ∀ i : grid1.Coords, EltTy.bits .f32 = 32 ∨ (Rect.block (s := S1x40) S1x40.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S512x40.size a ≤ S32768x40.size a
  hwx1_9 : ∀ i : grid1.Coords, EltTy.bits .f32 = 32 ∨ (Rect.block (s := S32768x40) S512x40.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x1024.size a ≤ S32768x1024.size a
  hwx2_0 : ∀ i : grid2.Coords, EltTy.bits .f32 = 32 ∨ (Rect.block (s := S32768x1024) S256x1024.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S256x1024.size a ≤ S32768x1024.size a
  hwx2_1 : ∀ i : grid2.Coords, EltTy.bits .f32 = 32 ∨ (Rect.block (s := S32768x1024) S256x1024.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1024x2048.size a ≤ S1024x2048.size a
  hwx2_2 : ∀ i : grid2.Coords, EltTy.bits .bf16 = 32 ∨ (Rect.block (s := S1024x2048) S1024x2048.size (cc2_transform_2 i) (hinb2_2 i)).WholeWords (EltTy.packing .bf16)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1024x2048.size a ≤ S1024x2048.size a
  hwx2_3 : ∀ i : grid2.Coords, EltTy.bits .bf16 = 32 ∨ (Rect.block (s := S1024x2048) S1024x2048.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x2048.size a ≤ S1x2048.size a
  hwx2_4 : ∀ i : grid2.Coords, EltTy.bits .f32 = 32 ∨ (Rect.block (s := S1x2048) S1x2048.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x2048.size a ≤ S1x2048.size a
  hwx2_5 : ∀ i : grid2.Coords, EltTy.bits .f32 = 32 ∨ (Rect.block (s := S1x2048) S1x2048.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x2048.size a ≤ S1x2048.size a
  hwx2_6 : ∀ i : grid2.Coords, EltTy.bits .f32 = 32 ∨ (Rect.block (s := S1x2048) S1x2048.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x2048.size a ≤ S1x2048.size a
  hwx2_7 : ∀ i : grid2.Coords, EltTy.bits .f32 = 32 ∨ (Rect.block (s := S1x2048) S1x2048.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x2048.size a ≤ S1x2048.size a
  hwx2_8 : ∀ i : grid2.Coords, EltTy.bits .f32 = 32 ∨ (Rect.block (s := S1x2048) S1x2048.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S2048x40.size a ≤ S2048x40.size a
  hwx2_9 : ∀ i : grid2.Coords, EltTy.bits .bf16 = 32 ∨ (Rect.block (s := S2048x40) S2048x40.size (cc2_transform_9 i) (hinb2_9 i)).WholeWords (EltTy.packing .bf16)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S1x40.size a ≤ S1x40.size a
  hwx2_10 : ∀ i : grid2.Coords, EltTy.bits .f32 = 32 ∨ (Rect.block (s := S1x40) S1x40.size (cc2_transform_10 i) (hinb2_10 i)).WholeWords (EltTy.packing .f32)
  hstage2_11 : ∀ j, (stage2_11 j).IsWhole
  nbuf2_11 : grid2.bufCount reads2_11 false = 2
  hreads2_11 : ∀ i i' : grid2.Coords, (∀ a, reads2_11 a = true → i a = i' a) → cc2_transform_11 i = cc2_transform_11 i'
  hinb2_11 : ∀ (i : grid2.Coords) a, (cc2_transform_11 i a + 1) * S256x40.size a ≤ S32768x40.size a
  hwx2_11 : ∀ i : grid2.Coords, EltTy.bits .f32 = 32 ∨ (Rect.block (s := S32768x40) S256x40.size (cc2_transform_11 i) (hinb2_11 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x40.size a ≤ S32768x40.size a
  hwx3_0 : ∀ i : grid3.Coords, EltTy.bits .f32 = 32 ∨ (Rect.block (s := S32768x40) S1024x40.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024x40.size a ≤ S32768x40.size a
  hwx3_1 : ∀ i : grid3.Coords, EltTy.bits .f32 = 32 ∨ (Rect.block (s := S32768x40) S1024x40.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1024x40.size a ≤ S32768x40.size a
  hwx3_2 : ∀ i : grid3.Coords, EltTy.bits .f32 = 32 ∨ (Rect.block (s := S32768x40) S1024x40.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1024x40.size a ≤ S32768x40.size a
  hwx3_3 : ∀ i : grid3.Coords, EltTy.bits .f32 = 32 ∨ (Rect.block (s := S32768x40) S1024x40.size (cc3_transform_3 i) (hinb3_3 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x1024_S1024x40_S512x40_1_0_0_1_n_n : DotDims S512x1024 S1024x40 S512x40 where
  lhsContracting := [1]
  rhsContracting := [0]
  lhsNonContracting := [0]
  rhsNonContracting := [1]
  lhsBatch := []
  rhsBatch := []
  wf := dot_S512x1024_S1024x40_S512x40_1_0_0_1_n_n_wf
def dot_S256x1024_S1024x2048_S256x2048_1_0_0_1_n_n : DotDims S256x1024 S1024x2048 S256x2048 where
  lhsContracting := [1]
  rhsContracting := [0]
  lhsNonContracting := [0]
  rhsNonContracting := [1]
  lhsBatch := []
  rhsBatch := []
  wf := dot_S256x1024_S1024x2048_S256x2048_1_0_0_1_n_n_wf
def dot_S256x2048_S2048x40_S256x40_1_0_0_1_n_n : DotDims S256x2048 S2048x40 S256x40 where
  lhsContracting := [1]
  rhsContracting := [0]
  lhsNonContracting := [0]
  rhsNonContracting := [1]
  lhsBatch := []
  rhsBatch := []
  wf := dot_S256x2048_S2048x40_S256x40_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v1) S1024x40.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v7) S1x40.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v19) S512x40.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_arg1) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v4) S1x1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v5) S1x1024.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v6) S1x1024.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v1) S1024x40.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v7) S1x40.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v20) S512x40.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_arg0) S256x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg1) S256x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v9) S1024x2048.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v11) S1024x2048.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v13) S1x2048.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v14) S1x2048.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v15) S1x2048.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v16) S1x2048.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v17) S1x2048.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v12) S2048x40.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v18) S1x40.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v21) S256x40.size cc2_transform_11 reads2_11 true false 2 stage2_11 sem2_11
    hrank2 hreads2_11 hinb2_11 nbuf2_11 (Memref.isWhole_whole _) hwx2_11 hstage2_11

abbrev win2 : Fin 12 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | ⟨_ + 12, h⟩ => absurd h (Nat.not_lt.2 (Nat.le_add_left _ _))
abbrev spec2 : Fin 12 → Pipeline.WinSpec sig grid2.rank := fun w => (win2 w).toWinSpec

abbrev win3_0 : Pipeline.Window sig grid3 :=
  Pipeline.Window.ofSpec (Memref.whole main_v19) S1024x40.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v20) S1024x40.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v21) S1024x40.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v22) S1024x40.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S32768x1024 : Shape := ⟨2, ![32768, 1024]⟩
abbrev S1024x1024 : Shape := ⟨2, ![1024, 1024]⟩
abbrev S1024 : Shape := ⟨1, ![1024]⟩
abbrev S1024x40 : Shape := ⟨2, ![1024, 40]⟩
abbrev S40 : Shape := ⟨1, ![40]⟩
abbrev S2048x2048 : Shape := ⟨2, ![2048, 2048]⟩
abbrev S2048 : Shape := ⟨1, ![2048]⟩
abbrev S2048x40 : Shape := ⟨2, ![2048, 40]⟩
abbrev S1x1024 : Shape := ⟨2, ![1, 1024]⟩
abbrev S_ : Shape := ⟨0, ![]⟩
abbrev S32768x40 : Shape := ⟨2, ![32768, 40]⟩
abbrev S1x40 : Shape := ⟨2, ![1, 40]⟩
abbrev S32768x2048 : Shape := ⟨2, ![32768, 2048]⟩
abbrev S1x2048 : Shape := ⟨2, ![1, 2048]⟩
abbrev S32768 : Shape := ⟨1, ![32768]⟩
abbrev S32768x1 : Shape := ⟨2, ![32768, 1]⟩

abbrev nBuf : Space → Nat
  | .hbm => 259
  | .vmem => 0
  | .smem => 0
  | _ => 0

abbrev hbmTy0_0 (i : Nat) : BufTy := match i % 128 with
  | 0 => ⟨S32768x1024, .f32⟩
  | 1 => ⟨S32768x1024, .f32⟩
  | 2 => ⟨S1024x1024, .f32⟩
  | 3 => ⟨S1024, .f32⟩
  | 4 => ⟨S1024, .f32⟩
  | 5 => ⟨S1024, .f32⟩
  | 6 => ⟨S1024, .f32⟩
  | 7 => ⟨S1024, .f32⟩
  | 8 => ⟨S1024x40, .f32⟩
  | 9 => ⟨S40, .f32⟩
  | 10 => ⟨S2048x2048, .f32⟩
  | 11 => ⟨S2048, .f32⟩
  | 12 => ⟨S2048, .f32⟩
  | 13 => ⟨S2048, .f32⟩
  | 14 => ⟨S2048, .f32⟩
  | 15 => ⟨S2048, .f32⟩
  | 16 => ⟨S2048x40, .f32⟩
  | 17 => ⟨S40, .f32⟩
  | 18 => ⟨S32768x1024, .f32⟩
  | 19 => ⟨S1x1024, .f32⟩
  | 20 => ⟨S32768x1024, .f32⟩
  | 21 => ⟨S32768x1024, .f32⟩
  | 22 => ⟨S1x1024, .f32⟩
  | 23 => ⟨S32768x1024, .f32⟩
  | 24 => ⟨S32768x1024, .f32⟩
  | 25 => ⟨S_, .f32⟩
  | 26 => ⟨S1024, .f32⟩
  | 27 => ⟨S1024, .f32⟩
  | 28 => ⟨S1024, .f32⟩
  | 29 => ⟨S1x1024, .f32⟩
  | 30 => ⟨S32768x1024, .f32⟩
  | 31 => ⟨S32768x1024, .f32⟩
  | 32 => ⟨S1x1024, .f32⟩
  | 33 => ⟨S32768x1024, .f32⟩
  | 34 => ⟨S32768x1024, .f32⟩
  | 35 => ⟨S1x1024, .f32⟩
  | 36 => ⟨S32768x1024, .f32⟩
  | 37 => ⟨S32768x1024, .f32⟩
  | 38 => ⟨S_, .f32⟩
  | 39 => ⟨S32768x1024, .f32⟩
  | 40 => ⟨S32768x1024, .f32⟩
  | 41 => ⟨S32768x40, .f32⟩
  | 42 => ⟨S1x40, .f32⟩
  | 43 => ⟨S32768x40, .f32⟩
  | 44 => ⟨S32768x40, .f32⟩
  | 45 => ⟨S_, .f32⟩
  | 46 => ⟨S32768x40, .f32⟩
  | 47 => ⟨S32768x40, .f32⟩
  | 48 => ⟨S32768x40, .f32⟩
  | 49 => ⟨S32768x40, .f32⟩
  | 50 => ⟨S32768x40, .i1⟩
  | 51 => ⟨S32768x40, .f32⟩
  | 52 => ⟨S32768x40, .f32⟩
  | 53 => ⟨S32768x40, .f32⟩
  | 54 => ⟨S32768x40, .f32⟩
  | 55 => ⟨S32768x40, .f32⟩
  | 56 => ⟨S32768x40, .f32⟩
  | 57 => ⟨S32768x40, .f32⟩
  | 58 => ⟨S32768x40, .f32⟩
  | 59 => ⟨S32768x1024, .f32⟩
  | 60 => ⟨S1x1024, .f32⟩
  | 61 => ⟨S32768x1024, .f32⟩
  | 62 => ⟨S32768x1024, .f32⟩
  | 63 => ⟨S1x1024, .f32⟩
  | 64 => ⟨S32768x1024, .f32⟩
  | 65 => ⟨S32768x1024, .f32⟩
  | 66 => ⟨S_, .f32⟩
  | 67 => ⟨S1024, .f32⟩
  | 68 => ⟨S1024, .f32⟩
  | 69 => ⟨S1024, .f32⟩
  | 70 => ⟨S1x1024, .f32⟩
  | 71 => ⟨S32768x1024, .f32⟩
  | 72 => ⟨S32768x1024, .f32⟩
  | 73 => ⟨S1x1024, .f32⟩
  | 74 => ⟨S32768x1024, .f32⟩
  | 75 => ⟨S32768x1024, .f32⟩
  | 76 => ⟨S1x1024, .f32⟩
  | 77 => ⟨S32768x1024, .f32⟩
  | 78 => ⟨S32768x1024, .f32⟩
  | 79 => ⟨S_, .f32⟩
  | 80 => ⟨S32768x1024, .f32⟩
  | 81 => ⟨S32768x1024, .f32⟩
  | 82 => ⟨S32768x40, .f32⟩
  | 83 => ⟨S1x40, .f32⟩
  | 84 => ⟨S32768x40, .f32⟩
  | 85 => ⟨S32768x40, .f32⟩
  | 86 => ⟨S_, .f32⟩
  | 87 => ⟨S32768x40, .f32⟩
  | 88 => ⟨S32768x40, .f32⟩
  | 89 => ⟨S32768x40, .f32⟩
  | 90 => ⟨S32768x40, .f32⟩
  | 91 => ⟨S32768x40, .i1⟩
  | 92 => ⟨S32768x40, .f32⟩
  | 93 => ⟨S32768x40, .f32⟩
  | 94 => ⟨S32768x40, .f32⟩
  | 95 => ⟨S32768x40, .f32⟩
  | 96 => ⟨S32768x40, .f32⟩
  | 97 => ⟨S32768x40, .f32⟩
  | 98 => ⟨S32768x40, .f32⟩
  | 99 => ⟨S32768x40, .f32⟩
  | 100 => ⟨S32768x2048, .f32⟩
  | 101 => ⟨S32768x2048, .f32⟩
  | 102 => ⟨S1x2048, .f32⟩
  | 103 => ⟨S32768x2048, .f32⟩
  | 104 => ⟨S32768x2048, .f32⟩
  | 105 => ⟨S1x2048, .f32⟩
  | 106 => ⟨S32768x2048, .f32⟩
  | 107 => ⟨S32768x2048, .f32⟩
  | 108 => ⟨S_, .f32⟩
  | 109 => ⟨S2048, .f32⟩
  | 110 => ⟨S2048, .f32⟩
  | 111 => ⟨S2048, .f32⟩
  | 112 => ⟨S1x2048, .f32⟩
  | 113 => ⟨S32768x2048, .f32⟩
  | 114 => ⟨S32768x2048, .f32⟩
  | 115 => ⟨S1x2048, .f32⟩
  | 116 => ⟨S32768x2048, .f32⟩
  | 117 => ⟨S32768x2048, .f32⟩
  | 118 => ⟨S1x2048, .f32⟩
  | 119 => ⟨S32768x2048, .f32⟩
  | 120 => ⟨S32768x2048, .f32⟩
  | 121 => ⟨S_, .f32⟩
  | 122 => ⟨S32768x2048, .f32⟩
  | 123 => ⟨S32768x2048, .f32⟩
  | 124 => ⟨S32768x40, .f32⟩
  | 125 => ⟨S1x40, .f32⟩
  | 126 => ⟨S32768x40, .f32⟩
  | 127 => ⟨S32768x40, .f32⟩
  | _ => ⟨S32768x1024, .f32⟩

abbrev hbmTy0_1 (i : Nat) : BufTy := match i % 128 with
  | 0 => ⟨S_, .f32⟩
  | 1 => ⟨S32768x40, .f32⟩
  | 2 => ⟨S32768x40, .f32⟩
  | 3 => ⟨S32768x40, .f32⟩
  | 4 => ⟨S32768x40, .f32⟩
  | 5 => ⟨S32768x40, .i1⟩
  | 6 => ⟨S32768x40, .f32⟩
  | 7 => ⟨S32768x40, .f32⟩
  | 8 => ⟨S32768x40, .f32⟩
  | 9 => ⟨S32768x40, .f32⟩
  | 10 => ⟨S32768x40, .f32⟩
  | 11 => ⟨S32768x40, .f32⟩
  | 12 => ⟨S32768x40, .f32⟩
  | 13 => ⟨S32768x40, .f32⟩
  | 14 => ⟨S_, .f32⟩
  | 15 => ⟨S32768x40, .f32⟩
  | 16 => ⟨S32768x40, .f32⟩
  | 17 => ⟨S_, .f32⟩
  | 18 => ⟨S32768x40, .f32⟩
  | 19 => ⟨S32768x40, .f32⟩
  | 20 => ⟨S_, .f32⟩
  | 21 => ⟨S32768x40, .f32⟩
  | 22 => ⟨S32768x40, .f32⟩
  | 23 => ⟨S_, .f32⟩
  | 24 => ⟨S32768, .f32⟩
  | 25 => ⟨S32768x1, .f32⟩
  | 26 => ⟨S_, .f32⟩
  | 27 => ⟨S32768, .f32⟩
  | 28 => ⟨S32768x1, .f32⟩
  | 29 => ⟨S_, .f32⟩
  | 30 => ⟨S32768x40, .f32⟩
  | 31 => ⟨S32768x40, .f32⟩
  | 32 => ⟨S32768x40, .f32⟩
  | 33 => ⟨S32768x40, .f32⟩
  | 34 => ⟨S_, .f32⟩
  | 35 => ⟨S32768x40, .f32⟩
  | 36 => ⟨S32768x40, .f32⟩
  | 37 => ⟨S32768x40, .f32⟩
  | 38 => ⟨S32768x40, .f32⟩
  | 39 => ⟨S_, .f32⟩
  | 40 => ⟨S32768x1, .f32⟩
  | 41 => ⟨S32768x1, .f32⟩
  | 42 => ⟨S_, .f32⟩
  | 43 => ⟨S32768x1, .f32⟩
  | 44 => ⟨S32768x1, .f32⟩
  | 45 => ⟨S_, .f32⟩
  | 46 => ⟨S32768, .f32⟩
  | 47 => ⟨S_, .f32⟩
  | 48 => ⟨S32768, .f32⟩
  | 49 => ⟨S32768, .f32⟩
  | 50 => ⟨S32768x40, .f32⟩
  | 51 => ⟨S_, .f32⟩
  | 52 => ⟨S32768, .f32⟩
  | 53 => ⟨S32768, .f32⟩
  | 54 => ⟨S_, .f32⟩
  | 55 => ⟨S32768, .f32⟩
  | 56 => ⟨S32768, .f32⟩
  | 57 => ⟨S32768x1, .f32⟩
  | 58 => ⟨S32768x40, .f32⟩
  | 59 => ⟨S32768x40, .f32⟩
  | 60 => ⟨S32768x40, .f32⟩
  | 61 => ⟨S32768x40, .f32⟩
  | 62 => ⟨S32768x40, .f32⟩
  | 63 => ⟨S32768x40, .f32⟩
  | 64 => ⟨S32768x40, .f32⟩
  | 65 => ⟨S32768x40, .f32⟩
  | 66 => ⟨S32768x40, .f32⟩
  | 67 => ⟨S32768x1, .f32⟩
  | 68 => ⟨S32768x1, .f32⟩
  | 69 => ⟨S_, .f32⟩
  | 70 => ⟨S32768x1, .f32⟩
  | 71 => ⟨S32768x1, .f32⟩
  | 72 => ⟨S32768x40, .f32⟩
  | 73 => ⟨S32768x40, .f32⟩
  | 74 => ⟨S_, .f32⟩
  | 75 => ⟨S32768x40, .f32⟩
  | 76 => ⟨S32768x40, .f32⟩
  | 77 => ⟨S_, .f32⟩
  | 78 => ⟨S32768, .f32⟩
  | 79 => ⟨S32768x1, .f32⟩
  | 80 => ⟨S_, .f32⟩
  | 81 => ⟨S32768, .f32⟩
  | 82 => ⟨S32768x1, .f32⟩
  | 83 => ⟨S_, .f32⟩
  | 84 => ⟨S32768x40, .f32⟩
  | 85 => ⟨S32768x40, .f32⟩
  | 86 => ⟨S32768x40, .f32⟩
  | 87 => ⟨S32768x40, .f32⟩
  | 88 => ⟨S_, .f32⟩
  | 89 => ⟨S32768x40, .f32⟩
  | 90 => ⟨S32768x40, .f32⟩
  | 91 => ⟨S32768x40, .f32⟩
  | 92 => ⟨S32768x40, .f32⟩
  | 93 => ⟨S_, .f32⟩
  | 94 => ⟨S32768x1, .f32⟩
  | 95 => ⟨S32768x1, .f32⟩
  | 96 => ⟨S_, .f32⟩
  | 97 => ⟨S32768x1, .f32⟩
  | 98 => ⟨S32768x1, .f32⟩
  | 99 => ⟨S_, .f32⟩
  | 100 => ⟨S32768, .f32⟩
  | 101 => ⟨S_, .f32⟩
  | 102 => ⟨S32768, .f32⟩
  | 103 => ⟨S32768, .f32⟩
  | 104 => ⟨S32768x40, .f32⟩
  | 105 => ⟨S_, .f32⟩
  | 106 => ⟨S32768, .f32⟩
  | 107 => ⟨S32768, .f32⟩
  | 108 => ⟨S_, .f32⟩
  | 109 => ⟨S32768, .f32⟩
  | 110 => ⟨S32768, .f32⟩
  | 111 => ⟨S32768x1, .f32⟩
  | 112 => ⟨S32768x40, .f32⟩
  | 113 => ⟨S32768x40, .f32⟩
  | 114 => ⟨S32768x40, .f32⟩
  | 115 => ⟨S32768x40, .f32⟩
  | 116 => ⟨S32768x40, .f32⟩
  | 117 => ⟨S32768x40, .f32⟩
  | 118 => ⟨S32768x40, .f32⟩
  | 119 => ⟨S32768x40, .f32⟩
  | 120 => ⟨S32768x40, .f32⟩
  | 121 => ⟨S32768x1, .f32⟩
  | 122 => ⟨S32768x1, .f32⟩
  | 123 => ⟨S_, .f32⟩
  | 124 => ⟨S32768x1, .f32⟩
  | 125 => ⟨S32768x1, .f32⟩
  | 126 => ⟨S32768x40, .f32⟩
  | 127 => ⟨S32768x40, .f32⟩
  | _ => ⟨S32768x1024, .f32⟩

abbrev hbmTy0_2 (i : Nat) : BufTy := match i % 128 with
  | 0 => ⟨S_, .f32⟩
  | 1 => ⟨S32768x40, .f32⟩
  | 2 => ⟨S32768x40, .f32⟩
  | _ => ⟨S32768x1024, .f32⟩

abbrev hbmTy (i : Nat) : BufTy := match i / 128 with
  | 0 => hbmTy0_0 i
  | 1 => hbmTy0_1 i
  | 2 => hbmTy0_2 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_call0_cst : Ref sig .tc := ⟨.hbm, 38, rfl⟩
abbrev main_call0_v0 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_call1_cst : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_call1_v5 : Ref sig .tc := ⟨.hbm, 51, rfl⟩
abbrev main_call1_v6 : Ref sig .tc := ⟨.hbm, 52, rfl⟩
abbrev main_call1_v7 : Ref sig .tc := ⟨.hbm, 53, rfl⟩
abbrev main_call1_v8 : Ref sig .tc := ⟨.hbm, 54, rfl⟩
abbrev main_call1_v9 : Ref sig .tc := ⟨.hbm, 55, rfl⟩
abbrev main_call1_v10 : Ref sig .tc := ⟨.hbm, 56, rfl⟩
abbrev main_call1_v11 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_cst_0 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_call2_cst : Ref sig .tc := ⟨.hbm, 79, rfl⟩
abbrev main_call2_v0 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_call3_cst : Ref sig .tc := ⟨.hbm, 86, rfl⟩
abbrev main_call3_v0 : Ref sig .tc := ⟨.hbm, 87, rfl⟩
abbrev main_call3_v1 : Ref sig .tc := ⟨.hbm, 88, rfl⟩
abbrev main_call3_v2 : Ref sig .tc := ⟨.hbm, 89, rfl⟩
abbrev main_call3_v3 : Ref sig .tc := ⟨.hbm, 90, rfl⟩
abbrev main_call3_v4 : Ref sig .tc := ⟨.hbm, 91, rfl⟩
abbrev main_call3_v5 : Ref sig .tc := ⟨.hbm, 92, rfl⟩
abbrev main_call3_v6 : Ref sig .tc := ⟨.hbm, 93, rfl⟩
abbrev main_call3_v7 : Ref sig .tc := ⟨.hbm, 94, rfl⟩
abbrev main_call3_v8 : Ref sig .tc := ⟨.hbm, 95, rfl⟩
abbrev main_call3_v9 : Ref sig .tc := ⟨.hbm, 96, rfl⟩
abbrev main_call3_v10 : Ref sig .tc := ⟨.hbm, 97, rfl⟩
abbrev main_call3_v11 : Ref sig .tc := ⟨.hbm, 98, rfl⟩
abbrev main_v49 : Ref sig .tc := ⟨.hbm, 99, rfl⟩
abbrev main_v50 : Ref sig .tc := ⟨.hbm, 100, rfl⟩
abbrev main_v51 : Ref sig .tc := ⟨.hbm, 101, rfl⟩
abbrev main_v52 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_v56 : Ref sig .tc := ⟨.hbm, 106, rfl⟩
abbrev main_v57 : Ref sig .tc := ⟨.hbm, 107, rfl⟩
abbrev main_cst_1 : Ref sig .tc := ⟨.hbm, 108, rfl⟩
abbrev main_v58 : Ref sig .tc := ⟨.hbm, 109, rfl⟩
abbrev main_v59 : Ref sig .tc := ⟨.hbm, 110, rfl⟩
abbrev main_v60 : Ref sig .tc := ⟨.hbm, 111, rfl⟩
abbrev main_v61 : Ref sig .tc := ⟨.hbm, 112, rfl⟩
abbrev main_v62 : Ref sig .tc := ⟨.hbm, 113, rfl⟩
abbrev main_v63 : Ref sig .tc := ⟨.hbm, 114, rfl⟩
abbrev main_v64 : Ref sig .tc := ⟨.hbm, 115, rfl⟩
abbrev main_v65 : Ref sig .tc := ⟨.hbm, 116, rfl⟩
abbrev main_v66 : Ref sig .tc := ⟨.hbm, 117, rfl⟩
abbrev main_v67 : Ref sig .tc := ⟨.hbm, 118, rfl⟩
abbrev main_v68 : Ref sig .tc := ⟨.hbm, 119, rfl⟩
abbrev main_v69 : Ref sig .tc := ⟨.hbm, 120, rfl⟩
abbrev main_call4_cst : Ref sig .tc := ⟨.hbm, 121, rfl⟩
abbrev main_call4_v0 : Ref sig .tc := ⟨.hbm, 122, rfl⟩
abbrev main_v70 : Ref sig .tc := ⟨.hbm, 123, rfl⟩
abbrev main_v71 : Ref sig .tc := ⟨.hbm, 124, rfl⟩
abbrev main_v72 : Ref sig .tc := ⟨.hbm, 125, rfl⟩
abbrev main_v73 : Ref sig .tc := ⟨.hbm, 126, rfl⟩
abbrev main_v74 : Ref sig .tc := ⟨.hbm, 127, rfl⟩
abbrev main_call5_cst : Ref sig .tc := ⟨.hbm, 128, rfl⟩
abbrev main_call5_v0 : Ref sig .tc := ⟨.hbm, 129, rfl⟩
abbrev main_call5_v1 : Ref sig .tc := ⟨.hbm, 130, rfl⟩
abbrev main_call5_v2 : Ref sig .tc := ⟨.hbm, 131, rfl⟩
abbrev main_call5_v3 : Ref sig .tc := ⟨.hbm, 132, rfl⟩
abbrev main_call5_v4 : Ref sig .tc := ⟨.hbm, 133, rfl⟩
abbrev main_call5_v5 : Ref sig .tc := ⟨.hbm, 134, rfl⟩
abbrev main_call5_v6 : Ref sig .tc := ⟨.hbm, 135, rfl⟩
abbrev main_call5_v7 : Ref sig .tc := ⟨.hbm, 136, rfl⟩
abbrev main_call5_v8 : Ref sig .tc := ⟨.hbm, 137, rfl⟩
abbrev main_call5_v9 : Ref sig .tc := ⟨.hbm, 138, rfl⟩
abbrev main_call5_v10 : Ref sig .tc := ⟨.hbm, 139, rfl⟩
abbrev main_call5_v11 : Ref sig .tc := ⟨.hbm, 140, rfl⟩
abbrev main_v75 : Ref sig .tc := ⟨.hbm, 141, rfl⟩
abbrev main_cst_2 : Ref sig .tc := ⟨.hbm, 142, rfl⟩
abbrev main_v76 : Ref sig .tc := ⟨.hbm, 143, rfl⟩
abbrev main_v77 : Ref sig .tc := ⟨.hbm, 144, rfl⟩
abbrev main_cst_3 : Ref sig .tc := ⟨.hbm, 145, rfl⟩
abbrev main_v78 : Ref sig .tc := ⟨.hbm, 146, rfl⟩
abbrev main_v79 : Ref sig .tc := ⟨.hbm, 147, rfl⟩
abbrev main_cst_4 : Ref sig .tc := ⟨.hbm, 148, rfl⟩
abbrev main_v80 : Ref sig .tc := ⟨.hbm, 149, rfl⟩
abbrev main_v81 : Ref sig .tc := ⟨.hbm, 150, rfl⟩
abbrev main_cst_5 : Ref sig .tc := ⟨.hbm, 151, rfl⟩
abbrev main_v82 : Ref sig .tc := ⟨.hbm, 152, rfl⟩
abbrev main_v83 : Ref sig .tc := ⟨.hbm, 153, rfl⟩
abbrev main_cst_6 : Ref sig .tc := ⟨.hbm, 154, rfl⟩
abbrev main_v84 : Ref sig .tc := ⟨.hbm, 155, rfl⟩
abbrev main_v85 : Ref sig .tc := ⟨.hbm, 156, rfl⟩
abbrev main_cst_7 : Ref sig .tc := ⟨.hbm, 157, rfl⟩
abbrev main_v86 : Ref sig .tc := ⟨.hbm, 158, rfl⟩
abbrev main_v87 : Ref sig .tc := ⟨.hbm, 159, rfl⟩
abbrev main_v88 : Ref sig .tc := ⟨.hbm, 160, rfl⟩
abbrev main_v89 : Ref sig .tc := ⟨.hbm, 161, rfl⟩
abbrev main_cst_8 : Ref sig .tc := ⟨.hbm, 162, rfl⟩
abbrev main_v90 : Ref sig .tc := ⟨.hbm, 163, rfl⟩
abbrev main_v91 : Ref sig .tc := ⟨.hbm, 164, rfl⟩
abbrev main_v92 : Ref sig .tc := ⟨.hbm, 165, rfl⟩
abbrev main_v93 : Ref sig .tc := ⟨.hbm, 166, rfl⟩
abbrev main_cst_9 : Ref sig .tc := ⟨.hbm, 167, rfl⟩
abbrev main_v94 : Ref sig .tc := ⟨.hbm, 168, rfl⟩
abbrev main_v95 : Ref sig .tc := ⟨.hbm, 169, rfl⟩
abbrev main_cst_10 : Ref sig .tc := ⟨.hbm, 170, rfl⟩
abbrev main_v96 : Ref sig .tc := ⟨.hbm, 171, rfl⟩
abbrev main_v97 : Ref sig .tc := ⟨.hbm, 172, rfl⟩
abbrev main_cst_11 : Ref sig .tc := ⟨.hbm, 173, rfl⟩
abbrev main_v98 : Ref sig .tc := ⟨.hbm, 174, rfl⟩
abbrev main_cst_12 : Ref sig .tc := ⟨.hbm, 175, rfl⟩
abbrev main_v99 : Ref sig .tc := ⟨.hbm, 176, rfl⟩
abbrev main_v100 : Ref sig .tc := ⟨.hbm, 177, rfl⟩
abbrev main_v101 : Ref sig .tc := ⟨.hbm, 178, rfl⟩
abbrev main_cst_13 : Ref sig .tc := ⟨.hbm, 179, rfl⟩
abbrev main_v102 : Ref sig .tc := ⟨.hbm, 180, rfl⟩
abbrev main_v103 : Ref sig .tc := ⟨.hbm, 181, rfl⟩
abbrev main_cst_14 : Ref sig .tc := ⟨.hbm, 182, rfl⟩
abbrev main_v104 : Ref sig .tc := ⟨.hbm, 183, rfl⟩
abbrev main_v105 : Ref sig .tc := ⟨.hbm, 184, rfl⟩
abbrev main_v106 : Ref sig .tc := ⟨.hbm, 185, rfl⟩
abbrev main_v107 : Ref sig .tc := ⟨.hbm, 186, rfl⟩
abbrev main_v108 : Ref sig .tc := ⟨.hbm, 187, rfl⟩
abbrev main_v109 : Ref sig .tc := ⟨.hbm, 188, rfl⟩
abbrev main_v110 : Ref sig .tc := ⟨.hbm, 189, rfl⟩
abbrev main_v111 : Ref sig .tc := ⟨.hbm, 190, rfl⟩
abbrev main_v112 : Ref sig .tc := ⟨.hbm, 191, rfl⟩
abbrev main_v113 : Ref sig .tc := ⟨.hbm, 192, rfl⟩
abbrev main_v114 : Ref sig .tc := ⟨.hbm, 193, rfl⟩
abbrev main_v115 : Ref sig .tc := ⟨.hbm, 194, rfl⟩
abbrev main_v116 : Ref sig .tc := ⟨.hbm, 195, rfl⟩
abbrev main_v117 : Ref sig .tc := ⟨.hbm, 196, rfl⟩
abbrev main_cst_15 : Ref sig .tc := ⟨.hbm, 197, rfl⟩
abbrev main_v118 : Ref sig .tc := ⟨.hbm, 198, rfl⟩
abbrev main_v119 : Ref sig .tc := ⟨.hbm, 199, rfl⟩
abbrev main_v120 : Ref sig .tc := ⟨.hbm, 200, rfl⟩
abbrev main_v121 : Ref sig .tc := ⟨.hbm, 201, rfl⟩
abbrev main_cst_16 : Ref sig .tc := ⟨.hbm, 202, rfl⟩
abbrev main_v122 : Ref sig .tc := ⟨.hbm, 203, rfl⟩
abbrev main_v123 : Ref sig .tc := ⟨.hbm, 204, rfl⟩
abbrev main_cst_17 : Ref sig .tc := ⟨.hbm, 205, rfl⟩
abbrev main_v124 : Ref sig .tc := ⟨.hbm, 206, rfl⟩
abbrev main_v125 : Ref sig .tc := ⟨.hbm, 207, rfl⟩
abbrev main_cst_18 : Ref sig .tc := ⟨.hbm, 208, rfl⟩
abbrev main_v126 : Ref sig .tc := ⟨.hbm, 209, rfl⟩
abbrev main_v127 : Ref sig .tc := ⟨.hbm, 210, rfl⟩
abbrev main_cst_19 : Ref sig .tc := ⟨.hbm, 211, rfl⟩
abbrev main_v128 : Ref sig .tc := ⟨.hbm, 212, rfl⟩
abbrev main_v129 : Ref sig .tc := ⟨.hbm, 213, rfl⟩
abbrev main_v130 : Ref sig .tc := ⟨.hbm, 214, rfl⟩
abbrev main_v131 : Ref sig .tc := ⟨.hbm, 215, rfl⟩
abbrev main_cst_20 : Ref sig .tc := ⟨.hbm, 216, rfl⟩
abbrev main_v132 : Ref sig .tc := ⟨.hbm, 217, rfl⟩
abbrev main_v133 : Ref sig .tc := ⟨.hbm, 218, rfl⟩
abbrev main_v134 : Ref sig .tc := ⟨.hbm, 219, rfl⟩
abbrev main_v135 : Ref sig .tc := ⟨.hbm, 220, rfl⟩
abbrev main_cst_21 : Ref sig .tc := ⟨.hbm, 221, rfl⟩
abbrev main_v136 : Ref sig .tc := ⟨.hbm, 222, rfl⟩
abbrev main_v137 : Ref sig .tc := ⟨.hbm, 223, rfl⟩
abbrev main_cst_22 : Ref sig .tc := ⟨.hbm, 224, rfl⟩
abbrev main_v138 : Ref sig .tc := ⟨.hbm, 225, rfl⟩
abbrev main_v139 : Ref sig .tc := ⟨.hbm, 226, rfl⟩
abbrev main_cst_23 : Ref sig .tc := ⟨.hbm, 227, rfl⟩
abbrev main_v140 : Ref sig .tc := ⟨.hbm, 228, rfl⟩
abbrev main_cst_24 : Ref sig .tc := ⟨.hbm, 229, rfl⟩
abbrev main_v141 : Ref sig .tc := ⟨.hbm, 230, rfl⟩
abbrev main_v142 : Ref sig .tc := ⟨.hbm, 231, rfl⟩
abbrev main_v143 : Ref sig .tc := ⟨.hbm, 232, rfl⟩
abbrev main_cst_25 : Ref sig .tc := ⟨.hbm, 233, rfl⟩
abbrev main_v144 : Ref sig .tc := ⟨.hbm, 234, rfl⟩
abbrev main_v145 : Ref sig .tc := ⟨.hbm, 235, rfl⟩
abbrev main_cst_26 : Ref sig .tc := ⟨.hbm, 236, rfl⟩
abbrev main_v146 : Ref sig .tc := ⟨.hbm, 237, rfl⟩
abbrev main_v147 : Ref sig .tc := ⟨.hbm, 238, rfl⟩
abbrev main_v148 : Ref sig .tc := ⟨.hbm, 239, rfl⟩
abbrev main_v149 : Ref sig .tc := ⟨.hbm, 240, rfl⟩
abbrev main_v150 : Ref sig .tc := ⟨.hbm, 241, rfl⟩
abbrev main_v151 : Ref sig .tc := ⟨.hbm, 242, rfl⟩
abbrev main_v152 : Ref sig .tc := ⟨.hbm, 243, rfl⟩
abbrev main_v153 : Ref sig .tc := ⟨.hbm, 244, rfl⟩
abbrev main_v154 : Ref sig .tc := ⟨.hbm, 245, rfl⟩
abbrev main_v155 : Ref sig .tc := ⟨.hbm, 246, rfl⟩
abbrev main_v156 : Ref sig .tc := ⟨.hbm, 247, rfl⟩
abbrev main_v157 : Ref sig .tc := ⟨.hbm, 248, rfl⟩
abbrev main_v158 : Ref sig .tc := ⟨.hbm, 249, rfl⟩
abbrev main_v159 : Ref sig .tc := ⟨.hbm, 250, rfl⟩
abbrev main_cst_27 : Ref sig .tc := ⟨.hbm, 251, rfl⟩
abbrev main_v160 : Ref sig .tc := ⟨.hbm, 252, rfl⟩
abbrev main_v161 : Ref sig .tc := ⟨.hbm, 253, rfl⟩
abbrev main_v162 : Ref sig .tc := ⟨.hbm, 254, rfl⟩
abbrev main_v163 : Ref sig .tc := ⟨.hbm, 255, rfl⟩
abbrev main_cst_28 : Ref sig .tc := ⟨.hbm, 256, rfl⟩
abbrev main_v164 : Ref sig .tc := ⟨.hbm, 257, rfl⟩
abbrev main_v165 : Ref sig .tc := ⟨.hbm, 258, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S32768x1024_0_1 : S1x1024.BroadcastsInDim S32768x1024 (![0, 1] : Fin 2 → Fin S32768x1024.rank)
  bcast_S_S1024 : S_.BroadcastsInDim S1024 (![] : Fin 0 → Fin S1024.rank)
  bcast_S_S32768x1024 : S_.BroadcastsInDim S32768x1024 (![] : Fin 0 → Fin S32768x1024.rank)
  bcast_S40_S1x40_1 : S40.BroadcastsInDim S1x40 (![1] : Fin 1 → Fin S1x40.rank)
  bcast_S1x40_S32768x40_0_1 : S1x40.BroadcastsInDim S32768x40 (![0, 1] : Fin 2 → Fin S32768x40.rank)
  bcast_S_S32768x40 : S_.BroadcastsInDim S32768x40 (![] : Fin 0 → Fin S32768x40.rank)
  concatenates_S32768x1024_S32768x1024_S32768x2048_d1 : Shape.Concatenates [S32768x1024, S32768x1024] S32768x2048 1
  bcast_S2048_S1x2048_1 : S2048.BroadcastsInDim S1x2048 (![1] : Fin 1 → Fin S1x2048.rank)
  bcast_S1x2048_S32768x2048_0_1 : S1x2048.BroadcastsInDim S32768x2048 (![0, 1] : Fin 2 → Fin S32768x2048.rank)
  bcast_S_S2048 : S_.BroadcastsInDim S2048 (![] : Fin 0 → Fin S2048.rank)
  bcast_S_S32768x2048 : S_.BroadcastsInDim S32768x2048 (![] : Fin 0 → Fin S32768x2048.rank)
  reducesTo_S32768x40_S32768_d1 : S32768x40.ReducesTo [1] S32768
  h_S_ : 0 < S_.numel
  bcast_S32768_S32768x1_0 : S32768.BroadcastsInDim S32768x1 (![0] : Fin 1 → Fin S32768x1.rank)
  bcast_S32768x1_S32768x40_0_1 : S32768x1.BroadcastsInDim S32768x40 (![0, 1] : Fin 2 → Fin S32768x40.rank)
  bcast_S_S32768x1 : S_.BroadcastsInDim S32768x1 (![] : Fin 0 → Fin S32768x1.rank)
  bcast_S_S32768 : S_.BroadcastsInDim S32768 (![] : Fin 0 → Fin S32768.rank)
  dot_S32768x1024_S1024x1024_S32768x1024_1_0_0_1_n_n_wf : DotDims.WF S32768x1024 S1024x1024 S32768x1024 [1] [0] [0] [1] [] []
  dot_S32768x1024_S1024x40_S32768x40_1_0_0_1_n_n_wf : DotDims.WF S32768x1024 S1024x40 S32768x40 [1] [0] [0] [1] [] []
  dot_S32768x2048_S2048x2048_S32768x2048_1_0_0_1_n_n_wf : DotDims.WF S32768x2048 S2048x2048 S32768x2048 [1] [0] [0] [1] [] []
  dot_S32768x2048_S2048x40_S32768x40_1_0_0_1_n_n_wf : DotDims.WF S32768x2048 S2048x40 S32768x40 [1] [0] [0] [1] [] []

variable [Facts₀]

def dot_S32768x1024_S1024x1024_S32768x1024_1_0_0_1_n_n : DotDims S32768x1024 S1024x1024 S32768x1024 where
  lhsContracting := [1]
  rhsContracting := [0]
  lhsNonContracting := [0]
  rhsNonContracting := [1]
  lhsBatch := []
  rhsBatch := []
  wf := dot_S32768x1024_S1024x1024_S32768x1024_1_0_0_1_n_n_wf
def dot_S32768x1024_S1024x40_S32768x40_1_0_0_1_n_n : DotDims S32768x1024 S1024x40 S32768x40 where
  lhsContracting := [1]
  rhsContracting := [0]
  lhsNonContracting := [0]
  rhsNonContracting := [1]
  lhsBatch := []
  rhsBatch := []
  wf := dot_S32768x1024_S1024x40_S32768x40_1_0_0_1_n_n_wf
def dot_S32768x2048_S2048x2048_S32768x2048_1_0_0_1_n_n : DotDims S32768x2048 S2048x2048 S32768x2048 where
  lhsContracting := [1]
  rhsContracting := [0]
  lhsNonContracting := [0]
  rhsNonContracting := [1]
  lhsBatch := []
  rhsBatch := []
  wf := dot_S32768x2048_S2048x2048_S32768x2048_1_0_0_1_n_n_wf
def dot_S32768x2048_S2048x40_S32768x40_1_0_0_1_n_n : DotDims S32768x2048 S2048x40 S32768x40 where
  lhsContracting := [1]
  rhsContracting := [0]
  lhsNonContracting := [0]
  rhsNonContracting := [1]
  lhsBatch := []
  rhsBatch := []
  wf := dot_S32768x2048_S2048x40_S32768x40_1_0_0_1_n_n_wf

class Facts : Prop extends Facts₀ where

variable [Facts]
-- ==== Proof.Fold.lean ====
/-
  The buffers between the regions.

  The program's memory after each segment is a fold: the host stretch's results, then each region's arrays at what its
  write-backs leave and every other buffer as the region found it.  A region changes only the array of its output
  window: an input window's array leaves the region as it entered it, and a buffer that is no window's array is not
  touched.  So every buffer can be followed back from the last region to the segment that wrote it.
-/
import proofs.«106370_j5145370821142_2_alg».proof.Proof.Gen.KernelIdeal.Frame

noncomputable section

namespace Cert.KernelIdeal.Fold

open Cert.KernelIdeal Cert.KernelIdeal.Gen
open Idealize.ShloMosaic Idealize.ShloMosaic.TcCoe Idealize.SL.Sem
open Idealize.ShloMosaic.Pipeline (Dat Cfg Window)

variable {F : FTy → Type} [FloatOps F]
variable (m : (ℓ : Loc nD τ sig) → Buf (Elt F) ℓ) (ρ : Dev nD → PrngReg)

/-- The first region leaves the array of each of its input windows as it found it. -/
theorem W2_in (c : Dev nD) (w : Fin cfg0.W) (hin : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hin _).trans (A_eq0 (V1 m ρ) c w))

/-- The second region leaves the array of each of its input windows as it found it. -/
theorem W3_in (c : Dev nD) (w : Fin cfg1.W) (hin : (cfg1.win w).isOut = false) :
    W3 m ρ c (Proc.devRef .tc (Pipeline.arrRef spec1 w)) = W2 m ρ c (Proc.devRef .tc (Pipeline.arrRef spec1 w)) :=
  (W3_arr m ρ c w).trans (((dat1 (V2 m ρ) c).arrAt_in w hin _).trans (A_eq1 (V2 m ρ) c w))

/-- The third region leaves the array of each of its input windows as it found it. -/
theorem W4_in (c : Dev nD) (w : Fin cfg2.W) (hin : (cfg2.win w).isOut = false) :
    W4 m ρ c (Proc.devRef .tc (Pipeline.arrRef spec2 w)) = W3 m ρ c (Proc.devRef .tc (Pipeline.arrRef spec2 w)) :=
  (W4_arr m ρ c w).trans (((dat2 (V3 m ρ) c).arrAt_in w hin _).trans (A_eq2 (V3 m ρ) c w))

/-- The fourth region leaves the array of each of its input windows as it found it. -/
theorem W5_in (c : Dev nD) (w : Fin cfg3.W) (hin : (cfg3.win w).isOut = false) :
    W5 m ρ c (Proc.devRef .tc (Pipeline.arrRef spec3 w)) = W4 m ρ c (Proc.devRef .tc (Pipeline.arrRef spec3 w)) :=
  (W5_arr m ρ c w).trans (((dat3 (V4 m ρ) c).arrAt_in w hin _).trans (A_eq3 (V4 m ρ) c w))

end Cert.KernelIdeal.Fold

end
-- ==== Proof.LibMatmul.lean ====
/-
  A matrix product read at an entry.

  At the exact instance a matrix-unit product into a zero accumulator is, entry by entry, the textbook contraction:
  for an M x K left operand and a K x N right operand, entry (p, q) is the sum over k of lhs(p, k) * rhs(k, q)
  (`matmul_zero_plain_apply`); when the right operand is given as N x K and contracted along its second axis
  (a product with the transpose), entry (p, q) is the sum over k of lhs(p, k) * rhs(q, k) (`matmul_zero_nt_apply`).
  The dimension records are the ones with exactly those contracting and free axes and no batch axis.
-/
import Idealize.ShloMosaic.PureOps.Ideal.Laws
import Idealize.ShloMosaic.Lib.ValueIdx

noncomputable section

namespace Cert.MatmulAt

open Idealize.ShloMosaic Idealize.ShloMosaic.ValueIdx

/-- Rows times columns: contract the left operand's second axis with the right operand's first. -/
abbrev plainDims {M K N : ℕ} (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

/-- Rows times rows: contract the second axis of both operands. -/
abbrev ntDims {M K N : ℕ} (wf : DotDims.WF ⟨2, ![M, K]⟩ ⟨2, ![N, K]⟩ ⟨2, ![M, N]⟩ [1] [1] [0] [0] [] []) :
    DotDims ⟨2, ![M, K]⟩ ⟨2, ![N, K]⟩ ⟨2, ![M, N]⟩ where
  lhsContracting := [1]
  rhsContracting := [1]
  lhsNonContracting := [0]
  rhsNonContracting := [0]
  lhsBatch := []
  rhsBatch := []
  wf := wf

theorem matmul_zero_plain_apply {M K N : ℕ} {φ₁ φ₂ : FTy}
    (wf : DotDims.WF ⟨2, ![M, K]⟩ ⟨2, ![K, N]⟩ ⟨2, ![M, N]⟩ [1] [0] [0] [1] [] [])
    (prec : Option ContractPrecision)
    (lhs : FVec Ideal ⟨2, ![M, K]⟩ φ₁) (rhs : FVec Ideal ⟨2, ![K, N]⟩ φ₂) (p : Fin M) (q : Fin N) :
    matmul (plainDims wf) prec lhs rhs (constant (F := Ideal) ⟨2, ![M, N]⟩ .f32 0x00000000#32) (ix2 p q)
      = ∑ k : Fin K, lhs (ix2 p k) * rhs (ix2 k q) := by
  simp only [matmul]
  rw [Ideal.matmul_constant_zero_apply, ← Equiv.sum_comp (contrEquiv1 (plainDims wf) K rfl rfl).symm]
  refine Finset.sum_congr rfl fun k _ => ?_
  have hk := contrEquiv1_symm_val (plainDims wf) K rfl rfl k
  have el : (plainDims wf).lhsIdx (ix2 p q) ((contrEquiv1 (plainDims wf) K rfl rfl).symm k) = ix2 p k :=
    funext fun a => Fin.ext (by
      match a with
      | ⟨0, _⟩ =>
        unfold DotDims.lhsIdx
        split
        · rename_i hb; exact absurd hb List.not_mem_nil
        · split
          · rfl
          · rename_i hn; exact absurd (List.mem_singleton_self _) hn
      | ⟨1, _⟩ => exact ((plainDims wf).lhsIdx_val_of_single rfl _ _).trans hk)
  have er : (plainDims wf).rhsIdx (ix2 p q) ((contrEquiv1 (plainDims wf) K rfl rfl).symm k) = ix2 k q :=
    funext fun a => Fin.ext (by
      match a with
      | ⟨0, _⟩ => exact ((plainDims wf).rhsIdx_val_of_single rfl _ _).trans hk
      | ⟨1, _⟩ =>
        unfold DotDims.rhsIdx
        split
        · rename_i hb; exact absurd hb List.not_mem_nil
        · split
          · rfl
          · rename_i hn; exact absurd (List.mem_singleton_self _) hn)
  rw [el, er]

theorem matmul_zero_nt_apply {M K N : ℕ} {φ₁ φ₂ : FTy}
    (wf : DotDims.WF ⟨2, ![M, K]⟩ ⟨2, ![N, K]⟩ ⟨2, ![M, N]⟩ [1] [1] [0] [0] [] [])
    (prec : Option ContractPrecision)
    (lhs : FVec Ideal ⟨2, ![M, K]⟩ φ₁) (rhs : FVec Ideal ⟨2, ![N, K]⟩ φ₂) (p : Fin M) (q : Fin N) :
    matmul (ntDims wf) prec lhs rhs (constant (F := Ideal) ⟨2, ![M, N]⟩ .f32 0x00000000#32) (ix2 p q)
      = ∑ k : Fin K, lhs (ix2 p k) * rhs (ix2 q k) := by
  simp only [matmul]
  rw [Ideal.matmul_constant_zero_apply, ← Equiv.sum_comp (contrEquiv1 (ntDims wf) K rfl rfl).symm]
  refine Finset.sum_congr rfl fun k _ => ?_
  have hk := contrEquiv1_symm_val (ntDims wf) K rfl rfl k
  have el : (ntDims wf).lhsIdx (ix2 p q) ((contrEquiv1 (ntDims wf) K rfl rfl).symm k) = ix2 p k :=
    funext fun a => Fin.ext (by
      match a with
      | ⟨0, _⟩ =>
        unfold DotDims.lhsIdx
        split
        · rename_i hb; exact absurd hb List.not_mem_nil
        · split
          · rfl
          · rename_i hn; exact absurd (List.mem_singleton_self _) hn
      | ⟨1, _⟩ => exact ((ntDims wf).lhsIdx_val_of_single rfl _ _).trans hk)
  have er : (ntDims wf).rhsIdx (ix2 p q) ((contrEquiv1 (ntDims wf) K rfl rfl).symm k) = ix2 q k :=
    funext fun a => Fin.ext (by
      match a with
      | ⟨0, _⟩ =>
        unfold DotDims.rhsIdx
        split
        · rename_i hb; exact absurd hb List.not_mem_nil
        · split
          · rfl
          · rename_i hn; exact absurd (List.mem_singleton_self _) hn
      | ⟨1, _⟩ => exact ((ntDims wf).rhsIdx_val_of_single rfl _ _).trans hk)
  rw [el, er]

end Cert.MatmulAt

end
-- ==== Proof.LibRank2.lean ====
/-
  Rank-two arrays read at an entry (p, q), for any sizes.

  * the host's matrix product of an M x K by a K x N matrix, at the exact instance, is at entry (p, q) the sum over k
    of lhs(p, k) * rhs(k, q) (`dotGeneral_plain_apply`);
  * two matrices laid side by side (joined along the columns) read at (p, q): the left one at (p, q) when q is one of
    its columns, the right one at (p, q - N₁) otherwise (`concat_cols_left`, `concat_cols_right`); stacked one above the
    other (joined along the rows): the upper one at (p, q), the lower one at (p - M₁, q) (`concat_rows_left`,
    `concat_rows_right`);
  * a length-n vector made a 1 x n row and repeated down M rows reads at (p, q) as the vector's entry q, in the host's
    two-step form (`rowBias_apply`) and in the vector unit's cast-then-broadcast form (`rowBias_vec_apply`);
  * the entrywise sum of two length-n vectors reshaped to a 1 x n row reads at (0, q) as the sum of the two entries q
    (`biasSumRow_apply`).
-/
import Idealize.ShloMosaic.Lib.KernelVsHost
import Idealize.ShloMosaic.Lib.ValueLayout
import proofs.«106370_j5145370821142_2_alg».proof.Proof.LibMatmul

noncomputable section

namespace Cert.Rank2

open Idealize.ShloMosaic Idealize.ShloMosaic.ValueIdx

variable {α : Type}

/-- The host's rows-times-columns product at entry (p, q): the plain contraction over k. -/
theorem dotGeneral_plain_apply {M K N : ℕ} {φ₁ φ₂ : FTy}
    (wf : DotDims.WF ⟨2, ![M, K]⟩ ⟨2, ![K, N]⟩ ⟨2, ![M, N]⟩ [1] [0] [0] [1] [] [])
    (prec : Option ContractPrecision)
    (lhs : FVec Ideal ⟨2, ![M, K]⟩ φ₁) (rhs : FVec Ideal ⟨2, ![K, N]⟩ φ₂) (p : Fin M) (q : Fin N) :
    Host.dotGeneral (Cert.MatmulAt.plainDims wf) prec lhs rhs (ix2 p q) = ∑ k : Fin K, lhs (ix2 p k) * rhs (ix2 k q) := by
  rw [← matmul_zero_eq_dotGeneral]
  exact Cert.MatmulAt.matmul_zero_plain_apply wf prec lhs rhs p q

/-- Side by side, a column of the left matrix. -/
theorem concat_cols_left {M N₁ N₂ N : ℕ} (x₁ : (⟨2, ![M, N₁]⟩ : Shape).Idx → α) (x₂ : (⟨2, ![M, N₂]⟩ : Shape).Idx → α)
    (h : Shape.Concatenates [(⟨2, ![M, N₁]⟩ : Shape), ⟨2, ![M, N₂]⟩] ⟨2, ![M, N]⟩ 1)
    (p : Fin M) (q : Fin N) (q₁ : Fin N₁) (hq : q₁.val = q.val) :
    concatenate ⟨2, ![M, N]⟩ 1 [⟨⟨2, ![M, N₁]⟩, x₁⟩, ⟨⟨2, ![M, N₂]⟩, x₂⟩] h (ix2 p q) = x₁ (ix2 p q₁) :=
  concatenate_pair_apply_left 1 x₁ x₂ h (ix2 p q) rfl (ix2 p q₁) fun b => match b with
    | ⟨0, _⟩ => rfl
    | ⟨1, _⟩ => hq

/-- Side by side, a column of the right matrix. -/
theorem concat_cols_right {M N₁ N₂ N : ℕ} (x₁ : (⟨2, ![M, N₁]⟩ : Shape).Idx → α) (x₂ : (⟨2, ![M, N₂]⟩ : Shape).Idx → α)
    (h : Shape.Concatenates [(⟨2, ![M, N₁]⟩ : Shape), ⟨2, ![M, N₂]⟩] ⟨2, ![M, N]⟩ 1)
    (p : Fin M) (q : Fin N) (q₂ : Fin N₂) (hq : q₂.val + N₁ = q.val) :
    concatenate ⟨2, ![M, N]⟩ 1 [⟨⟨2, ![M, N₁]⟩, x₁⟩, ⟨⟨2, ![M, N₂]⟩, x₂⟩] h (ix2 p q) = x₂ (ix2 p q₂) :=
  concatenate_pair_apply_right 1 x₁ x₂ h (ix2 p q) rfl rfl (ix2 p q₂)
    (fun b hb => match b, hb with
      | ⟨0, _⟩, _ => rfl
      | ⟨1, _⟩, hb => (hb (Fin.ext rfl)).elim)
    hq

/-- One above the other, a row of the upper matrix. -/
theorem concat_rows_left {M₁ M₂ M N : ℕ} (x₁ : (⟨2, ![M₁, N]⟩ : Shape).Idx → α) (x₂ : (⟨2, ![M₂, N]⟩ : Shape).Idx → α)
    (h : Shape.Concatenates [(⟨2, ![M₁, N]⟩ : Shape), ⟨2, ![M₂, N]⟩] ⟨2, ![M, N]⟩ 0)
    (p : Fin M) (q : Fin N) (p₁ : Fin M₁) (hp : p₁.val = p.val) :
    concatenate ⟨2, ![M, N]⟩ 0 [⟨⟨2, ![M₁, N]⟩, x₁⟩, ⟨⟨2, ![M₂, N]⟩, x₂⟩] h (ix2 p q) = x₁ (ix2 p₁ q) :=
  concatenate_pair_apply_left 0 x₁ x₂ h (ix2 p q) rfl (ix2 p₁ q) fun b => match b with
    | ⟨0, _⟩ => hp
    | ⟨1, _⟩ => rfl

/-- One above the other, a row of the lower matrix. -/
theorem concat_rows_right {M₁ M₂ M N : ℕ} (x₁ : (⟨2, ![M₁, N]⟩ : Shape).Idx → α) (x₂ : (⟨2, ![M₂, N]⟩ : Shape).Idx → α)
    (h : Shape.Concatenates [(⟨2, ![M₁, N]⟩ : Shape), ⟨2, ![M₂, N]⟩] ⟨2, ![M, N]⟩ 0)
    (p : Fin M) (q : Fin N) (p₂ : Fin M₂) (hp : p₂.val + M₁ = p.val) :
    concatenate ⟨2, ![M, N]⟩ 0 [⟨⟨2, ![M₁, N]⟩, x₁⟩, ⟨⟨2, ![M₂, N]⟩, x₂⟩] h (ix2 p q) = x₂ (ix2 p₂ q) :=
  concatenate_pair_apply_right 0 x₁ x₂ h (ix2 p q) rfl rfl (ix2 p₂ q)
    (fun b hb => match b, hb with
      | ⟨0, _⟩, hb => (hb (Fin.ext rfl)).elim
      | ⟨1, _⟩, _ => rfl)
    hp

/-- A vector as a 1 x n row, repeated down M rows (the host's two broadcasts): entry (p, q) is the vector's entry q. -/
theorem rowBias_apply {M n : ℕ} (b : (⟨1, ![n]⟩ : Shape).Idx → α)
    (h₁ : (⟨1, ![n]⟩ : Shape).BroadcastsInDim ⟨2, ![1, n]⟩ (![1] : Fin 1 → Fin 2))
    (h₂ : (⟨2, ![1, n]⟩ : Shape).BroadcastsInDim ⟨2, ![M, n]⟩ (![0, 1] : Fin 2 → Fin 2)) (p : Fin M) (q : Fin n) :
    broadcastInDim ⟨2, ![M, n]⟩ ![0, 1] h₂ (broadcastInDim ⟨2, ![1, n]⟩ ![1] h₁ b) (ix2 p q) = b (ix1 q) := by
  refine (broadcastInDim_apply ![0, 1] h₂ _ (ix2 p q) (ix2 (0 : Fin 1) q) fun a => ?_).trans
    (broadcastInDim_apply ![1] h₁ b (ix2 (0 : Fin 1) q) (ix1 q) fun a => ?_)
  · match a with
    | ⟨0, _⟩ => show (0 : ℕ) = if (1 : ℕ) = 1 then 0 else _; rw [if_pos rfl]
    | ⟨1, _⟩ =>
      show q.val = if n = 1 then 0 else q.val
      split
      · have := q.isLt; omega
      · rfl
  · match a with
    | ⟨0, _⟩ =>
      show q.val = if n = 1 then 0 else q.val
      split
      · have := q.isLt; omega
      · rfl

/-- A 1 x n row cast to its own shape and broadcast down M rows (the vector unit's form): entry (p, q) is the row's
    entry (0, q). -/
theorem rowBias_vec_apply {M n : ℕ} (v : (⟨2, ![1, n]⟩ : Shape).Idx → α)
    (hc : (⟨2, ![1, n]⟩ : Shape).ShapeCasts ⟨2, ![1, n]⟩) (hb : (⟨2, ![1, n]⟩ : Shape).Broadcasts ⟨2, ![M, n]⟩)
    (p : Fin M) (q : Fin n) :
    broadcastTo ⟨2, ![M, n]⟩ (shapeCast ⟨2, ![1, n]⟩ v hc) hb (ix2 p q) = v (ix2 (0 : Fin 1) q) := by
  rw [shapeCast_self]
  refine broadcastTo_apply v hb (ix2 p q) (ix2 (0 : Fin 1) q) fun a => ?_
  match a with
  | ⟨0, _⟩ => show (0 : ℕ) = if (1 : ℕ) = 1 then 0 else _; rw [if_pos rfl]
  | ⟨1, _⟩ =>
    show q.val = if n = 1 then 0 else q.val
    split
    · have := q.isLt; omega
    · rfl

/-- The entrywise sum of two vectors, reshaped to a 1 x n row, at (0, q). -/
theorem biasSumRow_apply {n : ℕ} {φ : FTy} (b₁ b₂ : FVec Ideal ⟨1, ![n]⟩ φ)
    (h : (⟨1, ![n]⟩ : Shape).ShapeCasts ⟨2, ![1, n]⟩) (u : Fin 1) (q : Fin n) :
    shapeCast ⟨2, ![1, n]⟩ (addf b₁ b₂) h (ix2 u q) = b₁ (ix1 q) + b₂ (ix1 q) :=
  shapeCast_a_1a_apply (addf b₁ b₂) h u q

end Cert.Rank2

end
-- ==== Proof.LibPallasLinear.lean ====
/-
  A dense layer x W + b computed by a tile's body and by host operations, at the ideal instance.

  The body casts its block of x to a narrower format (the identity here), multiplies it into a zero accumulator by the
  weight block, and adds the bias, which it first views as a 1 x N row and repeats down the rows. The host contracts x
  with W and adds the bias broadcast in two steps. Entry (p, q) of either is  ∑ k, x (p, k) · W (k, q)  +  b q,
  whatever the formats of the operands: `affine`. So the two are one array.
-/
import proofs.«106370_j5145370821142_2_alg».proof.Proof.LibRank2

namespace Cert.PallasLinear

open Idealize.ShloMosaic Idealize.ShloMosaic.ValueIdx

/-- Entry (p, q) of x W + b. -/
noncomputable def affine {M K N : ℕ} (x : (⟨2, ![M, K]⟩ : Shape).Idx → EReal) (w : (⟨2, ![K, N]⟩ : Shape).Idx → EReal)
    (b : (⟨1, ![N]⟩ : Shape).Idx → EReal) : (⟨2, ![M, N]⟩ : Shape).Idx → EReal :=
  fun i => (∑ k : Fin K, x (ix2 (i 0) k) * w (ix2 k (i 1))) + b (ix1 (i 1))

theorem affine_apply {M K N : ℕ} (x : (⟨2, ![M, K]⟩ : Shape).Idx → EReal) (w : (⟨2, ![K, N]⟩ : Shape).Idx → EReal)
    (b : (⟨1, ![N]⟩ : Shape).Idx → EReal) (p : Fin M) (q : Fin N) :
    affine x w b (ix2 p q) = (∑ k : Fin K, x (ix2 p k) * w (ix2 k q)) + b (ix1 q) := rfl

/-- The tile body's value at an entry. -/
theorem body_apply {M K N : ℕ} {φw : FTy}
    (wf : DotDims.WF ⟨2, ![M, K]⟩ ⟨2, ![K, N]⟩ ⟨2, ![M, N]⟩ [1] [0] [0] [1] [] [])
    (x : FVec Ideal ⟨2, ![M, K]⟩ .f32) (w : FVec Ideal ⟨2, ![K, N]⟩ φw) (b : FVec Ideal ⟨1, ![N]⟩ .f32)
    (hlt : FTy.bf16.bits < FTy.f32.bits)
    (hc1 : (⟨2, ![K, N]⟩ : Shape).ShapeCasts ⟨2, ![K, N]⟩) (hc2 : (⟨1, ![N]⟩ : Shape).ShapeCasts ⟨1, ![N]⟩)
    (hc3 : (⟨1, ![N]⟩ : Shape).ShapeCasts ⟨2, ![1, N]⟩) (hb : (⟨2, ![1, N]⟩ : Shape).Broadcasts ⟨2, ![M, N]⟩)
    (p : Fin M) (q : Fin N) :
    addf (matmul (Cert.MatmulAt.plainDims wf) none (truncf .bf16 x hlt) (shapeCast ⟨2, ![K, N]⟩ w hc1)
          (constant (F := Ideal) ⟨2, ![M, N]⟩ .f32 0x00000000#32))
        (broadcastTo ⟨2, ![M, N]⟩ (shapeCast ⟨2, ![1, N]⟩ (shapeCast ⟨1, ![N]⟩ b hc2) hc3) hb) (ix2 p q)
      = affine x w b (ix2 p q) := by
  rw [affine_apply]
  show matmul _ _ _ _ _ (ix2 p q) + broadcastTo _ _ _ (ix2 p q) = _
  rw [Cert.MatmulAt.matmul_zero_plain_apply wf none _ _ p q, shapeCast_self, shapeCast_self]
  congr 1
  refine (broadcastTo_apply _ hb (ix2 p q) (ix2 (0 : Fin 1) q) fun a => ?_).trans (shapeCast_a_1a_apply b hc3 0 q)
  match a with
  | ⟨0, _⟩ => show (0 : ℕ) = if (1 : ℕ) = 1 then 0 else _; rw [if_pos rfl]
  | ⟨1, _⟩ =>
    show q.val = if N = 1 then 0 else q.val
    split
    · have := q.isLt; omega
    · rfl

/-- The host's dense layer at an entry. -/
theorem host_apply {M K N : ℕ} {φw : FTy}
    (wf : DotDims.WF ⟨2, ![M, K]⟩ ⟨2, ![K, N]⟩ ⟨2, ![M, N]⟩ [1] [0] [0] [1] [] [])
    (x : FVec Ideal ⟨2, ![M, K]⟩ .f32) (w : FVec Ideal ⟨2, ![K, N]⟩ φw) (b : FVec Ideal ⟨1, ![N]⟩ .f32)
    (h₁ : (⟨1, ![N]⟩ : Shape).BroadcastsInDim ⟨2, ![1, N]⟩ (![1] : Fin 1 → Fin 2))
    (h₂ : (⟨2, ![1, N]⟩ : Shape).BroadcastsInDim ⟨2, ![M, N]⟩ (![0, 1] : Fin 2 → Fin 2)) (p : Fin M) (q : Fin N) :
    addf (Host.dotGeneral (Cert.MatmulAt.plainDims wf) none x w)
        (broadcastInDim ⟨2, ![M, N]⟩ ![0, 1] h₂ (broadcastInDim ⟨2, ![1, N]⟩ ![1] h₁ b)) (ix2 p q)
      = affine x w b (ix2 p q) := by
  rw [affine_apply]
  show Host.dotGeneral _ _ _ _ (ix2 p q) + broadcastInDim _ _ _ _ (ix2 p q) = _
  rw [Cert.Rank2.dotGeneral_plain_apply wf none x w p q, Cert.Rank2.rowBias_apply b h₁ h₂ p q]

/-- The host's dense layer is the array `affine`. -/
theorem host_eq {M K N : ℕ} {φw : FTy}
    (wf : DotDims.WF ⟨2, ![M, K]⟩ ⟨2, ![K, N]⟩ ⟨2, ![M, N]⟩ [1] [0] [0] [1] [] [])
    (x : FVec Ideal ⟨2, ![M, K]⟩ .f32) (w : FVec Ideal ⟨2, ![K, N]⟩ φw) (b : FVec Ideal ⟨1, ![N]⟩ .f32)
    (h₁ : (⟨1, ![N]⟩ : Shape).BroadcastsInDim ⟨2, ![1, N]⟩ (![1] : Fin 1 → Fin 2))
    (h₂ : (⟨2, ![1, N]⟩ : Shape).BroadcastsInDim ⟨2, ![M, N]⟩ (![0, 1] : Fin 2 → Fin 2)) :
    addf (Host.dotGeneral (Cert.MatmulAt.plainDims wf) none x w)
        (broadcastInDim ⟨2, ![M, N]⟩ ![0, 1] h₂ (broadcastInDim ⟨2, ![1, N]⟩ ![1] h₁ b))
      = affine x w b := by
  funext j
  obtain ⟨p, q, rfl⟩ : ∃ (p : Fin M) (q : Fin N), j = ix2 p q := ⟨j 0, j 1, eq_ix2 j⟩
  exact host_apply wf x w b h₁ h₂ p q

end Cert.PallasLinear
-- ==== Proof.LibAffineRows.lean ====
/-
  A dense layer x W + b depends, row by row, on the same row of x.

  Entry (p, q) of `Cert.PallasLinear.affine x w b` is  ∑ k, x (p, k) · w (k, q)  +  b q : it reads row p of x and
  nothing else of x. So two inputs — of possibly different heights, such as a whole array and one row block of it — that
  agree along row p of one and row p' of the other give equal entries (p, q) and (p', q) (`affine_row`); the same with
  the two entries given as arbitrary indices whose column coordinates agree (`affine_congr`). This is what lets a
  row-tiled region's blocks be read as the blocks of the whole-array layer.
-/
import proofs.«106370_j5145370821142_2_alg».proof.Proof.LibPallasLinear

noncomputable section

namespace Cert.PallasLinear

open Idealize.ShloMosaic Idealize.ShloMosaic.ValueIdx

/-- Entry (p, q) of x W + b reads row p of x only: two inputs that agree on that row, at row p of one and row p' of
    the other, give the same entry. -/
theorem affine_row {M M' K N : ℕ} (x : (⟨2, ![M, K]⟩ : Shape).Idx → EReal) (x' : (⟨2, ![M', K]⟩ : Shape).Idx → EReal)
    (w : (⟨2, ![K, N]⟩ : Shape).Idx → EReal) (b : (⟨1, ![N]⟩ : Shape).Idx → EReal) (p : Fin M) (p' : Fin M') (q : Fin N)
    (hx : ∀ k : Fin K, x (ix2 p k) = x' (ix2 p' k)) :
    affine x w b (ix2 p q) = affine x' w b (ix2 p' q) := by
  rw [affine_apply, affine_apply]
  congr 1
  exact Finset.sum_congr rfl fun k _ => by rw [hx k]

/-- The same at any two indices: equal column coordinates, and inputs that agree along the two rows. -/
theorem affine_congr {M M' K N : ℕ} (x : (⟨2, ![M, K]⟩ : Shape).Idx → EReal) (x' : (⟨2, ![M', K]⟩ : Shape).Idx → EReal)
    (w : (⟨2, ![K, N]⟩ : Shape).Idx → EReal) (b : (⟨1, ![N]⟩ : Shape).Idx → EReal)
    (i : (⟨2, ![M, N]⟩ : Shape).Idx) (i' : (⟨2, ![M', N]⟩ : Shape).Idx) (hq : (i 1).val = (i' 1).val)
    (hx : ∀ (p : Fin M) (p' : Fin M'), p.val = (i 0).val → p'.val = (i' 0).val → ∀ k : Fin K, x (ix2 p k) = x' (ix2 p' k)) :
    affine x w b i = affine x' w b i' := by
  obtain ⟨p, q, rfl⟩ : ∃ (p : Fin M) (q : Fin N), i = ix2 p q := ⟨i 0, i 1, eq_ix2 i⟩
  obtain ⟨p', q', rfl⟩ : ∃ (p' : Fin M') (q' : Fin N), i' = ix2 p' q' := ⟨i' 0, i' 1, eq_ix2 i'⟩
  have e : q = q' := Fin.ext hq
  subst e
  exact affine_row x x' w b p p' q (hx p p' rfl rfl)

end Cert.PallasLinear

end
-- ==== Proof.Spec.lean ====
/-
  What the three evidence encoders and the belief combination compute, entry by entry, on the extended reals.

  An encoder is a dense layer, a normalisation by running statistics followed by a rectifier, a second dense
  layer, and then softplus plus one.  Entry (p, q) of the result reads row p of the input and nothing else of it.
  The third encoder's first layer contracts the two inputs laid side by side against one tall weight matrix, which is
  the sum of the two contractions against the upper and the lower half of that matrix.
  The combination of two rows of Dirichlet parameters is a function of those two rows alone.
-/
import proofs.«106370_j5145370821142_2_alg».proof.Proof.LibAffineRows
import Idealize.ShloMosaic.PureOps.Ideal

noncomputable section

namespace Cert.Evidence

open Idealize.ShloMosaic Idealize.ShloMosaic.ValueIdx Cert.PallasLinear

/-- The words the programs spell: 0, 1, the variance offset and the number of classes. -/
abbrev zeroW : EReal := Ideal.ofBits .f32 0x00000000#32
abbrev oneW : EReal := Ideal.ofBits .f32 0x3F800000#32
abbrev epsW : EReal := Ideal.ofBits .f32 0x3727C5AC#32
abbrev fortyW : EReal := Ideal.ofBits .f32 0x42200000#32

/-- Normalise column k by its running mean and variance, scale, shift, and rectify. -/
def normRelu {M H : ℕ} (h : (⟨2, ![M, H]⟩ : Shape).Idx → EReal) (rm rv g beta : (⟨1, ![H]⟩ : Shape).Idx → EReal) :
    (⟨2, ![M, H]⟩ : Shape).Idx → EReal :=
  fun i => max ((((h i - rm (ix1 (i 1))) * Ideal.rsqrt (rv (ix1 (i 1)) + epsW)) * g (ix1 (i 1))) + beta (ix1 (i 1))) zeroW

theorem normRelu_apply {M H : ℕ} (h : (⟨2, ![M, H]⟩ : Shape).Idx → EReal) (rm rv g beta : (⟨1, ![H]⟩ : Shape).Idx → EReal)
    (p : Fin M) (k : Fin H) :
    normRelu h rm rv g beta (ix2 p k)
      = max ((((h (ix2 p k) - rm (ix1 k)) * Ideal.rsqrt (rv (ix1 k) + epsW)) * g (ix1 k)) + beta (ix1 k)) zeroW := rfl

/-- softplus(o) + 1 in the stable form max(o, 0) + log(1 + exp(-|o|)). -/
def softplusOne (o : EReal) : EReal :=
  (max o zeroW + Ideal.log1p (Ideal.exp (-(max (o - zeroW) (-(o - zeroW)))))) + oneW

/-- One encoder: entry (p, q) of softplus(relu(norm(x W1 + b1)) W2 + b2) + 1. -/
def alpha {M K H N : ℕ} (x : (⟨2, ![M, K]⟩ : Shape).Idx → EReal) (w1 : (⟨2, ![K, H]⟩ : Shape).Idx → EReal)
    (b1 g beta rm rv : (⟨1, ![H]⟩ : Shape).Idx → EReal) (w2 : (⟨2, ![H, N]⟩ : Shape).Idx → EReal)
    (b2 : (⟨1, ![N]⟩ : Shape).Idx → EReal) : (⟨2, ![M, N]⟩ : Shape).Idx → EReal :=
  fun i => softplusOne (affine (normRelu (affine x w1 b1) rm rv g beta) w2 b2 i)

/-- Entry (p, q) of an encoder reads row p of its input only. -/
theorem alpha_row {M M' K H N : ℕ} (x : (⟨2, ![M, K]⟩ : Shape).Idx → EReal) (x' : (⟨2, ![M', K]⟩ : Shape).Idx → EReal)
    (w1 : (⟨2, ![K, H]⟩ : Shape).Idx → EReal) (b1 g beta rm rv : (⟨1, ![H]⟩ : Shape).Idx → EReal)
    (w2 : (⟨2, ![H, N]⟩ : Shape).Idx → EReal) (b2 : (⟨1, ![N]⟩ : Shape).Idx → EReal) (p : Fin M) (p' : Fin M') (q : Fin N)
    (hx : ∀ k : Fin K, x (ix2 p k) = x' (ix2 p' k)) :
    alpha x w1 b1 g beta rm rv w2 b2 (ix2 p q) = alpha x' w1 b1 g beta rm rv w2 b2 (ix2 p' q) := by
  unfold alpha
  refine congrArg softplusOne (affine_row _ _ w2 b2 p p' q fun k => ?_)
  rw [normRelu_apply, normRelu_apply, affine_row x x' w1 b1 p p' k hx]

/-- A dense layer on two inputs laid side by side: the two contractions summed, then the bias. -/
def affine2 {M K H : ℕ} (x : (⟨2, ![M, K]⟩ : Shape).Idx → EReal) (wa : (⟨2, ![K, H]⟩ : Shape).Idx → EReal)
    (xg : (⟨2, ![M, K]⟩ : Shape).Idx → EReal) (wb : (⟨2, ![K, H]⟩ : Shape).Idx → EReal)
    (b : (⟨1, ![H]⟩ : Shape).Idx → EReal) : (⟨2, ![M, H]⟩ : Shape).Idx → EReal :=
  fun i => ((∑ k : Fin K, x (ix2 (i 0) k) * wa (ix2 k (i 1))) + ∑ k : Fin K, xg (ix2 (i 0) k) * wb (ix2 k (i 1)))
    + b (ix1 (i 1))

theorem affine2_apply {M K H : ℕ} (x : (⟨2, ![M, K]⟩ : Shape).Idx → EReal) (wa : (⟨2, ![K, H]⟩ : Shape).Idx → EReal)
    (xg : (⟨2, ![M, K]⟩ : Shape).Idx → EReal) (wb : (⟨2, ![K, H]⟩ : Shape).Idx → EReal)
    (b : (⟨1, ![H]⟩ : Shape).Idx → EReal) (p : Fin M) (q : Fin H) :
    affine2 x wa xg wb b (ix2 p q)
      = ((∑ k : Fin K, x (ix2 p k) * wa (ix2 k q)) + ∑ k : Fin K, xg (ix2 p k) * wb (ix2 k q)) + b (ix1 q) := rfl

/-- The upper and the lower 1024 rows of a matrix of 2048 rows. -/
def upperRows {H : ℕ} (w : (⟨2, ![2048, H]⟩ : Shape).Idx → EReal) : (⟨2, ![1024, H]⟩ : Shape).Idx → EReal :=
  fun i => w (ix2 (⟨(i 0).val, Nat.lt_of_lt_of_le (i 0).isLt (show (1024 : ℕ) ≤ 2048 by decide)⟩ : Fin 2048) (i 1))
def lowerRows {H : ℕ} (w : (⟨2, ![2048, H]⟩ : Shape).Idx → EReal) : (⟨2, ![1024, H]⟩ : Shape).Idx → EReal :=
  fun i => w (ix2 (⟨(i 0).val + 1024, Nat.add_lt_add_right (i 0).isLt 1024⟩ : Fin 2048) (i 1))

/-- The third encoder, on the two inputs side by side. -/
def alphaPair {M H N : ℕ} (x xg : (⟨2, ![M, 1024]⟩ : Shape).Idx → EReal) (wp1 : (⟨2, ![2048, H]⟩ : Shape).Idx → EReal)
    (bp1 gp betap rmp rvp : (⟨1, ![H]⟩ : Shape).Idx → EReal) (wp2 : (⟨2, ![H, N]⟩ : Shape).Idx → EReal)
    (bp2 : (⟨1, ![N]⟩ : Shape).Idx → EReal) : (⟨2, ![M, N]⟩ : Shape).Idx → EReal :=
  fun i => softplusOne (affine (normRelu (affine2 x (upperRows wp1) xg (lowerRows wp1) bp1) rmp rvp gp betap) wp2 bp2 i)

/-- Entry (p, q) of the third encoder reads row p of each of its two inputs only. -/
theorem alphaPair_row {M M' H N : ℕ} (x xg : (⟨2, ![M, 1024]⟩ : Shape).Idx → EReal) (x' xg' : (⟨2, ![M', 1024]⟩ : Shape).Idx → EReal)
    (wp1 : (⟨2, ![2048, H]⟩ : Shape).Idx → EReal) (bp1 gp betap rmp rvp : (⟨1, ![H]⟩ : Shape).Idx → EReal)
    (wp2 : (⟨2, ![H, N]⟩ : Shape).Idx → EReal) (bp2 : (⟨1, ![N]⟩ : Shape).Idx → EReal) (p : Fin M) (p' : Fin M') (q : Fin N)
    (hx : ∀ k : Fin 1024, x (ix2 p k) = x' (ix2 p' k)) (hxg : ∀ k : Fin 1024, xg (ix2 p k) = xg' (ix2 p' k)) :
    alphaPair x xg wp1 bp1 gp betap rmp rvp wp2 bp2 (ix2 p q) = alphaPair x' xg' wp1 bp1 gp betap rmp rvp wp2 bp2 (ix2 p' q) := by
  unfold alphaPair
  refine congrArg softplusOne (affine_row _ _ wp2 bp2 p p' q fun k => ?_)
  rw [normRelu_apply, normRelu_apply, affine2_apply, affine2_apply]
  simp only [hx, hxg]

/-- The sum of row p. -/
def rowSum {M N : ℕ} (a : (⟨2, ![M, N]⟩ : Shape).Idx → EReal) (p : Fin M) : EReal := ∑ k : Fin N, a (ix2 p k)

/-- Belief mass q of row p: (a(p, q) - 1) / S(p). -/
def belief {M N : ℕ} (a : (⟨2, ![M, N]⟩ : Shape).Idx → EReal) (p : Fin M) (q : Fin N) : EReal :=
  Ideal.div (a (ix2 p q) - oneW) (rowSum a p)

/-- Uncertainty of row p: K / S(p). -/
def unc {M N : ℕ} (a : (⟨2, ![M, N]⟩ : Shape).Idx → EReal) (p : Fin M) : EReal := Ideal.div fortyW (rowSum a p)

/-- One minus the conflict of the two rows p. -/
def agree {M N : ℕ} (a1 a2 : (⟨2, ![M, N]⟩ : Shape).Idx → EReal) (p : Fin M) : EReal :=
  oneW - ((∑ k : Fin N, belief a1 p k) * (∑ k : Fin N, belief a2 p k) - ∑ k : Fin N, belief a1 p k * belief a2 p k)

/-- The combined Dirichlet parameters of two rows of parameters. -/
def combine {M N : ℕ} (a1 a2 : (⟨2, ![M, N]⟩ : Shape).Idx → EReal) : (⟨2, ![M, N]⟩ : Shape).Idx → EReal :=
  fun i => Ideal.div ((belief a1 (i 0) (i 1) * belief a2 (i 0) (i 1) + belief a1 (i 0) (i 1) * unc a2 (i 0))
        + belief a2 (i 0) (i 1) * unc a1 (i 0)) (agree a1 a2 (i 0))
      * Ideal.div fortyW (Ideal.div (unc a1 (i 0) * unc a2 (i 0)) (agree a1 a2 (i 0)))
    + oneW

theorem combine_apply {M N : ℕ} (a1 a2 : (⟨2, ![M, N]⟩ : Shape).Idx → EReal) (p : Fin M) (q : Fin N) :
    combine a1 a2 (ix2 p q)
      = Ideal.div ((belief a1 p q * belief a2 p q + belief a1 p q * unc a2 p) + belief a2 p q * unc a1 p) (agree a1 a2 p)
          * Ideal.div fortyW (Ideal.div (unc a1 p * unc a2 p) (agree a1 a2 p))
        + oneW := rfl

/-- Entry (p, q) of the combination reads row p of each operand only. -/
theorem combine_row {M M' N : ℕ} (a1 a2 : (⟨2, ![M, N]⟩ : Shape).Idx → EReal) (a1' a2' : (⟨2, ![M', N]⟩ : Shape).Idx → EReal)
    (p : Fin M) (p' : Fin M') (q : Fin N) (h1 : ∀ k : Fin N, a1 (ix2 p k) = a1' (ix2 p' k))
    (h2 : ∀ k : Fin N, a2 (ix2 p k) = a2' (ix2 p' k)) :
    combine a1 a2 (ix2 p q) = combine a1' a2' (ix2 p' q) := by
  have r1 : rowSum a1 p = rowSum a1' p' := Finset.sum_congr rfl fun k _ => h1 k
  have r2 : rowSum a2 p = rowSum a2' p' := Finset.sum_congr rfl fun k _ => h2 k
  have b1 : ∀ k, belief a1 p k = belief a1' p' k := fun k => by unfold belief; rw [h1 k, r1]
  have b2 : ∀ k, belief a2 p k = belief a2' p' k := fun k => by unfold belief; rw [h2 k, r2]
  have u1 : unc a1 p = unc a1' p' := by unfold unc; rw [r1]
  have u2 : unc a2 p = unc a2' p' := by unfold unc; rw [r2]
  have ag : agree a1 a2 p = agree a1' a2' p' := by unfold agree; simp only [b1, b2]
  rw [combine_apply, combine_apply, b1, b2, u1, u2, ag]

end Cert.Evidence

end
-- ==== Proof.RowVectors.lean ====
/-
  A 1 x n row read as the vector of its entries.
-/
import Idealize.ShloMosaic.Lib.ValueIdx

namespace Cert.Evidence

open Idealize.ShloMosaic Idealize.ShloMosaic.ValueIdx

variable {α : Type}

/-- The vector whose entry k is the row's entry (0, k). -/
def vecOfRow {n : ℕ} (r : (⟨2, ![1, n]⟩ : Shape).Idx → α) : (⟨1, ![n]⟩ : Shape).Idx → α :=
  fun i => r (ix2 (0 : Fin 1) (i 0))

theorem vecOfRow_apply {n : ℕ} (r : (⟨2, ![1, n]⟩ : Shape).Idx → α) (k : Fin n) :
    vecOfRow r (ix1 k) = r (ix2 (0 : Fin 1) k) := rfl

end Cert.Evidence
-- ==== Proof.HostPrep.lean ====
/-
  The host operations that run before the first kernel, read at the kernel's operands, at the exact instance.

  Before the four kernels the host prepares their operands from the program's arguments: it narrows the weight matrices
  to the matrix unit's format, which at the exact instance changes nothing; it views each parameter vector of length n
  as a 1 x n row, whose entry (0, k) is the vector's entry k; and it cuts the tall 2048-row weight matrix of the third
  encoder into its upper and its lower 1024 rows, narrowing each.  The two inputs are not touched.  So, after those
  operations, each operand buffer holds the corresponding argument as launched, read through that view.
-/
import proofs.«106370_j5145370821142_2_alg».proof.Proof.Gen.KernelIdeal.Frame
import proofs.«106370_j5145370821142_2_alg».proof.Proof.Spec
import proofs.«106370_j5145370821142_2_alg».proof.Proof.RowVectors
import Idealize.ShloMosaic.Lib.StableHlo.Run
import Idealize.ShloMosaic.Lib.ValueLayout

set_option maxRecDepth 16384

noncomputable section

namespace Cert.KernelIdeal.Prep

open Cert.KernelIdeal Cert.KernelIdeal.Gen Cert.Evidence Idealize.ShloMosaic Idealize.ShloMosaic.TcCoe Idealize.ShloMosaic.ValueIdx
open Idealize.SL.Sem

/-- A vector viewed as a 1 x n row and read back as the vector of the row's entries is the vector. -/
theorem vecOfRow_reshape {n : ℕ} (x : (⟨1, ![n]⟩ : Shape).Idx → EReal) (h : (⟨1, ![n]⟩ : Shape).ShapeCasts ⟨2, ![1, n]⟩) :
    vecOfRow (shapeCast ⟨2, ![1, n]⟩ x h) = x := by
  funext i
  obtain ⟨k, rfl⟩ : ∃ k : Fin n, i = ix1 k := ⟨i 0, eq_ix1 i⟩
  exact shapeCast_a_1a_apply x h 0 k

/-- The first 1024 rows cut out of a matrix of 2048 rows are its upper rows. -/
theorem slice_upperRows {H : ℕ} (w : (⟨2, ![2048, H]⟩ : Shape).Idx → EReal)
    (h : (⟨2, ![2048, H]⟩ : Shape).Slices ![0, 0] ⟨2, ![1024, H]⟩) :
    extractStridedSlice ⟨2, ![1024, H]⟩ ![0, 0] w h = upperRows w := by
  funext j
  obtain ⟨p, q, rfl⟩ : ∃ (p : Fin 1024) (q : Fin H), j = ix2 p q := ⟨j 0, j 1, eq_ix2 j⟩
  exact slice2_axis0_apply 0 w h p q _ (Nat.zero_add _).symm

/-- The 1024 rows cut out of a matrix of 2048 rows from row 1024 on are its lower rows. -/
theorem slice_lowerRows {H : ℕ} (w : (⟨2, ![2048, H]⟩ : Shape).Idx → EReal)
    (h : (⟨2, ![2048, H]⟩ : Shape).Slices ![1024, 0] ⟨2, ![1024, H]⟩) :
    extractStridedSlice ⟨2, ![1024, H]⟩ ![1024, 0] w h = lowerRows w := by
  funext j
  obtain ⟨p, q, rfl⟩ : ∃ (p : Fin 1024) (q : Fin H), j = ix2 p q := ⟨j 0, j 1, eq_ix2 j⟩
  exact slice2_axis0_apply 1024 w h p q _ (Nat.add_comm _ _)

variable (m : (ℓ : Loc nD τ sig) → Buf (Elt Ideal) ℓ) (ρ : Dev nD → PrngReg) (c : Dev nD)

/-! ## The two inputs: no host operation writes them -/

/-- The first input is as launched. -/
theorem prep_arg0 : V1 m ρ c main_arg0 = m ((c : Thread nD τ).loc main_arg0) := by
  show StableHlo.after hostOps0 (W0 m ρ c) (Proc.devRef .tc main_arg0) = _
  after_results

/-- The second input is as launched. -/
theorem prep_arg1 : V1 m ρ c main_arg1 = m ((c : Thread nD τ).loc main_arg1) := by
  show StableHlo.after hostOps0 (W0 m ρ c) (Proc.devRef .tc main_arg1) = _
  after_results

/-! ## The weight matrices: narrowed, which is the identity here -/

/-- The first encoder's first weight matrix. -/
theorem prep_v0 : (V1 m ρ c main_v0 : S1024x1024.Idx → EReal) = m ((c : Thread nD τ).loc main_arg2) := by
  show StableHlo.after hostOps0 (W0 m ρ c) (Proc.devRef .tc main_v0) = _
  after_results
  rfl

/-- The first encoder's second weight matrix. -/
theorem prep_v1 : (V1 m ρ c main_v1 : S1024x40.Idx → EReal) = m ((c : Thread nD τ).loc main_arg8) := by
  show StableHlo.after hostOps0 (W0 m ρ c) (Proc.devRef .tc main_v1) = _
  after_results
  rfl

/-- The third encoder's second weight matrix. -/
theorem prep_v12 : (V1 m ρ c main_v12 : S2048x40.Idx → EReal) = m ((c : Thread nD τ).loc main_arg16) := by
  show StableHlo.after hostOps0 (W0 m ρ c) (Proc.devRef .tc main_v12) = _
  after_results
  rfl

/-! ## The parameter vectors of the first encoder, as rows -/

/-- The row in `main_v2` is the row of the vector `main_arg3`. -/
theorem prep_v2 : vecOfRow (V1 m ρ c main_v2 : S1x1024.Idx → EReal) = m ((c : Thread nD τ).loc main_arg3) := by
  show vecOfRow (StableHlo.after hostOps0 (W0 m ρ c) (Proc.devRef .tc main_v2)) = _
  after_results
  exact vecOfRow_reshape _ shapeCasts_S1024_S1x1024

/-- The row in `main_v3` is the row of the vector `main_arg4`. -/
theorem prep_v3 : vecOfRow (V1 m ρ c main_v3 : S1x1024.Idx → EReal) = m ((c : Thread nD τ).loc main_arg4) := by
  show vecOfRow (StableHlo.after hostOps0 (W0 m ρ c) (Proc.devRef .tc main_v3)) = _
  after_results
  exact vecOfRow_reshape _ shapeCasts_S1024_S1x1024

/-- The row in `main_v4` is the row of the vector `main_arg5`. -/
theorem prep_v4 : vecOfRow (V1 m ρ c main_v4 : S1x1024.Idx → EReal) = m ((c : Thread nD τ).loc main_arg5) := by
  show vecOfRow (StableHlo.after hostOps0 (W0 m ρ c) (Proc.devRef .tc main_v4)) = _
  after_results
  exact vecOfRow_reshape _ shapeCasts_S1024_S1x1024

/-- The row in `main_v5` is the row of the vector `main_arg6`. -/
theorem prep_v5 : vecOfRow (V1 m ρ c main_v5 : S1x1024.Idx → EReal) = m ((c : Thread nD τ).loc main_arg6) := by
  show vecOfRow (StableHlo.after hostOps0 (W0 m ρ c) (Proc.devRef .tc main_v5)) = _
  after_results
  exact vecOfRow_reshape _ shapeCasts_S1024_S1x1024

/-- The row in `main_v6` is the row of the vector `main_arg7`. -/
theorem prep_v6 : vecOfRow (V1 m ρ c main_v6 : S1x1024.Idx → EReal) = m ((c : Thread nD τ).loc main_arg7) := by
  show vecOfRow (StableHlo.after hostOps0 (W0 m ρ c) (Proc.devRef .tc main_v6)) = _
  after_results
  exact vecOfRow_reshape _ shapeCasts_S1024_S1x1024

/-- The row in `main_v7` is the row of the vector `main_arg9`. -/
theorem prep_v7 : vecOfRow (V1 m ρ c main_v7 : S1x40.Idx → EReal) = m ((c : Thread nD τ).loc main_arg9) := by
  show vecOfRow (StableHlo.after hostOps0 (W0 m ρ c) (Proc.devRef .tc main_v7)) = _
  after_results
  exact vecOfRow_reshape _ shapeCasts_S40_S1x40

/-! ## The parameter vectors of the third encoder, as rows -/

/-- The row in `main_v13` is the row of the vector `main_arg11`. -/
theorem prep_v13 : vecOfRow (V1 m ρ c main_v13 : S1x2048.Idx → EReal) = m ((c : Thread nD τ).loc main_arg11) := by
  show vecOfRow (StableHlo.after hostOps0 (W0 m ρ c) (Proc.devRef .tc main_v13)) = _
  after_results
  exact vecOfRow_reshape _ shapeCasts_S2048_S1x2048

/-- The row in `main_v14` is the row of the vector `main_arg12`. -/
theorem prep_v14 : vecOfRow (V1 m ρ c main_v14 : S1x2048.Idx → EReal) = m ((c : Thread nD τ).loc main_arg12) := by
  show vecOfRow (StableHlo.after hostOps0 (W0 m ρ c) (Proc.devRef .tc main_v14)) = _
  after_results
  exact vecOfRow_reshape _ shapeCasts_S2048_S1x2048

/-- The row in `main_v15` is the row of the vector `main_arg13`. -/
theorem prep_v15 : vecOfRow (V1 m ρ c main_v15 : S1x2048.Idx → EReal) = m ((c : Thread nD τ).loc main_arg13) := by
  show vecOfRow (StableHlo.after hostOps0 (W0 m ρ c) (Proc.devRef .tc main_v15)) = _
  after_results
  exact vecOfRow_reshape _ shapeCasts_S2048_S1x2048

/-- The row in `main_v16` is the row of the vector `main_arg14`. -/
theorem prep_v16 : vecOfRow (V1 m ρ c main_v16 : S1x2048.Idx → EReal) = m ((c : Thread nD τ).loc main_arg14) := by
  show vecOfRow (StableHlo.after hostOps0 (W0 m ρ c) (Proc.devRef .tc main_v16)) = _
  after_results
  exact vecOfRow_reshape _ shapeCasts_S2048_S1x2048

/-- The row in `main_v17` is the row of the vector `main_arg15`. -/
theorem prep_v17 : vecOfRow (V1 m ρ c main_v17 : S1x2048.Idx → EReal) = m ((c : Thread nD τ).loc main_arg15) := by
  show vecOfRow (StableHlo.after hostOps0 (W0 m ρ c) (Proc.devRef .tc main_v17)) = _
  after_results
  exact vecOfRow_reshape _ shapeCasts_S2048_S1x2048

/-- The row in `main_v18` is the row of the vector `main_arg17`. -/
theorem prep_v18 : vecOfRow (V1 m ρ c main_v18 : S1x40.Idx → EReal) = m ((c : Thread nD τ).loc main_arg17) := by
  show vecOfRow (StableHlo.after hostOps0 (W0 m ρ c) (Proc.devRef .tc main_v18)) = _
  after_results
  exact vecOfRow_reshape _ shapeCasts_S40_S1x40

/-! ## The two halves of the third encoder's tall weight matrix -/

/-- The upper half, narrowed. -/
theorem prep_v9 : (V1 m ρ c main_v9 : S1024x2048.Idx → EReal) = upperRows (m ((c : Thread nD τ).loc main_arg10)) := by
  show StableHlo.after hostOps0 (W0 m ρ c) (Proc.devRef .tc main_v9) = _
  after_results
  exact slice_upperRows _ slices_S2048x2048_S1024x2048_0_0

/-- The lower half, narrowed. -/
theorem prep_v11 : (V1 m ρ c main_v11 : S1024x2048.Idx → EReal) = lowerRows (m ((c : Thread nD τ).loc main_arg10)) := by
  show StableHlo.after hostOps0 (W0 m ρ c) (Proc.devRef .tc main_v11) = _
  after_results
  exact slice_lowerRows _ slices_S2048x2048_S1024x2048_1024_0

end Cert.KernelIdeal.Prep

end
-- ==== Proof.EncoderForms.lean ====
/-
  The pieces of an encoder's tile body read at one entry, at the exact instance.

  A tile body computes, on its block of rows, a dense layer, a normalisation by running statistics with a rectifier,
  a second dense layer, and softplus plus one.  Each piece is an entrywise or a row-wise expression, so entry (p, q) of
  the piece is the same expression of the entries (p, ·) of its operands:

  * a 1 x n row repeated down M rows reads at (p, q) as the row's entry (0, q) (`rowBroadcast_apply`);
  * a product into a zero accumulator plus a repeated bias row is  ∑ k, x (p, k) · w (k, q) + b q  (`denseBody_apply`);
  * two such products summed, plus the bias row, is the layer on two inputs side by side (`dense2Body_apply`);
  * the normalisation, scale, shift and rectifier is `normRelu` of the layer before it (`normReluBody_apply`);
  * the numerically stable softplus, plus one, is `softplusOne` (`softplusBody_apply`): its guard compares a value
    with itself for inequality, which never holds on the extended reals, so the guarded branch is never taken.
-/
import proofs.«106370_j5145370821142_2_alg».proof.Proof.Spec
import Idealize.ShloMosaic.PureOps.Ideal.Laws

noncomputable section

namespace Cert.EncoderForms

open Idealize.ShloMosaic Idealize.ShloMosaic.ValueIdx Cert.Evidence Cert.PallasLinear

/-- A 1 x n row repeated down M rows: entry (p, q) is the row's entry (0, q). -/
theorem rowBroadcast_apply {α : Type} {M n : ℕ} (v : (⟨2, ![1, n]⟩ : Shape).Idx → α)
    (hb : (⟨2, ![1, n]⟩ : Shape).Broadcasts ⟨2, ![M, n]⟩) (p : Fin M) (q : Fin n) :
    broadcastTo ⟨2, ![M, n]⟩ v hb (ix2 p q) = v (ix2 (0 : Fin 1) q) := by
  refine broadcastTo_apply v hb (ix2 p q) (ix2 (0 : Fin 1) q) fun a => ?_
  match a with
  | ⟨0, _⟩ => show (0 : ℕ) = if (1 : ℕ) = 1 then 0 else _; rw [if_pos rfl]
  | ⟨1, _⟩ =>
    show q.val = if n = 1 then 0 else q.val
    split
    · have := q.isLt; omega
    · rfl

/-- A product into a zero accumulator plus a bias row repeated down the rows, at entry (p, q): the contraction of
    row p of the left operand with column q of the right one, plus entry q of the vector the row is the row of. -/
theorem denseBody_apply {M K N : ℕ} {φx φw : FTy}
    (wf : DotDims.WF ⟨2, ![M, K]⟩ ⟨2, ![K, N]⟩ ⟨2, ![M, N]⟩ [1] [0] [0] [1] [] [])
    (x : FVec Ideal ⟨2, ![M, K]⟩ φx) (w : FVec Ideal ⟨2, ![K, N]⟩ φw) (br : FVec Ideal ⟨2, ![1, N]⟩ .f32)
    (b : (⟨1, ![N]⟩ : Shape).Idx → EReal) (hbr : ∀ k : Fin N, br (ix2 (0 : Fin 1) k) = b (ix1 k))
    (hc1 : (⟨2, ![K, N]⟩ : Shape).ShapeCasts ⟨2, ![K, N]⟩) (hc : (⟨2, ![1, N]⟩ : Shape).ShapeCasts ⟨2, ![1, N]⟩)
    (hb : (⟨2, ![1, N]⟩ : Shape).Broadcasts ⟨2, ![M, N]⟩) (p : Fin M) (q : Fin N) :
    addf (matmul (Cert.MatmulAt.plainDims wf) none x (shapeCast ⟨2, ![K, N]⟩ w hc1)
          (constant (F := Ideal) ⟨2, ![M, N]⟩ .f32 0x00000000#32))
        (broadcastTo ⟨2, ![M, N]⟩ (shapeCast ⟨2, ![1, N]⟩ br hc) hb) (ix2 p q)
      = (∑ k : Fin K, x (ix2 p k) * w (ix2 k q)) + b (ix1 q) := by
  show matmul _ _ _ _ _ (ix2 p q) + broadcastTo _ _ _ (ix2 p q) = _
  rw [Cert.MatmulAt.matmul_zero_plain_apply wf none _ _ p q, shapeCast_self, Cert.Rank2.rowBias_vec_apply br hc hb p q, hbr q]

/-- Two products into zero accumulators summed, plus a bias row repeated down the rows, at entry (p, q): the dense
    layer on two inputs laid side by side against the two halves of its weight matrix. -/
theorem dense2Body_apply {M K N : ℕ} {φx φw : FTy}
    (wf : DotDims.WF ⟨2, ![M, K]⟩ ⟨2, ![K, N]⟩ ⟨2, ![M, N]⟩ [1] [0] [0] [1] [] [])
    (x xg : FVec Ideal ⟨2, ![M, K]⟩ φx) (wa wb : FVec Ideal ⟨2, ![K, N]⟩ φw) (br : FVec Ideal ⟨2, ![1, N]⟩ .f32)
    (b : (⟨1, ![N]⟩ : Shape).Idx → EReal) (hbr : ∀ k : Fin N, br (ix2 (0 : Fin 1) k) = b (ix1 k))
    (hc1 : (⟨2, ![K, N]⟩ : Shape).ShapeCasts ⟨2, ![K, N]⟩) (hc : (⟨2, ![1, N]⟩ : Shape).ShapeCasts ⟨2, ![1, N]⟩)
    (hb : (⟨2, ![1, N]⟩ : Shape).Broadcasts ⟨2, ![M, N]⟩) (p : Fin M) (q : Fin N) :
    addf (addf (matmul (Cert.MatmulAt.plainDims wf) none x (shapeCast ⟨2, ![K, N]⟩ wa hc1)
            (constant (F := Ideal) ⟨2, ![M, N]⟩ .f32 0x00000000#32))
          (matmul (Cert.MatmulAt.plainDims wf) none xg (shapeCast ⟨2, ![K, N]⟩ wb hc1)
            (constant (F := Ideal) ⟨2, ![M, N]⟩ .f32 0x00000000#32)))
        (broadcastTo ⟨2, ![M, N]⟩ (shapeCast ⟨2, ![1, N]⟩ br hc) hb) (ix2 p q)
      = ((∑ k : Fin K, x (ix2 p k) * wa (ix2 k q)) + ∑ k : Fin K, xg (ix2 p k) * wb (ix2 k q)) + b (ix1 q) := by
  show (matmul _ _ _ _ _ (ix2 p q) + matmul _ _ _ _ _ (ix2 p q)) + broadcastTo _ _ _ (ix2 p q) = _
  rw [Cert.MatmulAt.matmul_zero_plain_apply wf none _ _ p q, Cert.MatmulAt.matmul_zero_plain_apply wf none _ _ p q,
    shapeCast_self, shapeCast_self, Cert.Rank2.rowBias_vec_apply br hc hb p q, hbr q]

/-- Entry (p, k) of the normalised, rectified layer reads entry (p, k) of the layer before and nothing else of it. -/
theorem normRelu_entry {M H : ℕ} (h h' : (⟨2, ![M, H]⟩ : Shape).Idx → EReal) (rm rv g beta : (⟨1, ![H]⟩ : Shape).Idx → EReal)
    (p : Fin M) (k : Fin H) (e : h (ix2 p k) = h' (ix2 p k)) :
    normRelu h rm rv g beta (ix2 p k) = normRelu h' rm rv g beta (ix2 p k) := by
  rw [normRelu_apply, normRelu_apply, e]

/-- The normalisation by running statistics, the scale, the shift and the rectifier of a tile body, narrowed to the
    matrix unit's format (the identity here), at entry (p, k): `normRelu` of the layer before. -/
theorem normReluBody_apply {M H : ℕ} (h : FVec Ideal ⟨2, ![M, H]⟩ .f32) (rmr rvr gr betar : FVec Ideal ⟨2, ![1, H]⟩ .f32)
    (rm rv g beta : (⟨1, ![H]⟩ : Shape).Idx → EReal)
    (hrm : ∀ k : Fin H, rmr (ix2 (0 : Fin 1) k) = rm (ix1 k)) (hrv : ∀ k : Fin H, rvr (ix2 (0 : Fin 1) k) = rv (ix1 k))
    (hg : ∀ k : Fin H, gr (ix2 (0 : Fin 1) k) = g (ix1 k)) (hbeta : ∀ k : Fin H, betar (ix2 (0 : Fin 1) k) = beta (ix1 k))
    (hlt : FTy.bf16.bits < FTy.f32.bits)
    (hc : (⟨2, ![1, H]⟩ : Shape).ShapeCasts ⟨2, ![1, H]⟩) (hb : (⟨2, ![1, H]⟩ : Shape).Broadcasts ⟨2, ![M, H]⟩)
    (p : Fin M) (k : Fin H) :
    truncf .bf16 (maximumf (addf (mulf (mulf (subf h (broadcastTo ⟨2, ![M, H]⟩ (shapeCast ⟨2, ![1, H]⟩ rmr hc) hb))
            (broadcastTo ⟨2, ![M, H]⟩ (rsqrt (addf (shapeCast ⟨2, ![1, H]⟩ rvr hc)
              (broadcast ⟨2, ![1, H]⟩ (Scalar.ofBits (F := Ideal) .f32 0x3727C5AC#32)))) hb))
          (broadcastTo ⟨2, ![M, H]⟩ (shapeCast ⟨2, ![1, H]⟩ gr hc) hb))
        (broadcastTo ⟨2, ![M, H]⟩ (shapeCast ⟨2, ![1, H]⟩ betar hc) hb))
      (broadcast ⟨2, ![M, H]⟩ (Scalar.ofBits (F := Ideal) .f32 0x00000000#32))) hlt (ix2 p k)
      = normRelu h rm rv g beta (ix2 p k) := by
  rw [normRelu_apply, ← hrm k, ← hrv k, ← hg k, ← hbeta k]
  show max ((((h (ix2 p k) - broadcastTo _ _ hb (ix2 p k)) * broadcastTo _ _ hb (ix2 p k)) * broadcastTo _ _ hb (ix2 p k))
      + broadcastTo _ _ hb (ix2 p k)) zeroW = _
  rw [Cert.Rank2.rowBias_vec_apply rmr hc hb p k, Cert.Rank2.rowBias_vec_apply gr hc hb p k,
    Cert.Rank2.rowBias_vec_apply betar hc hb p k, rowBroadcast_apply _ hb p k, shapeCast_self]
  rfl

/-- The stable softplus of a tile body, plus one, at an entry: max(o, 0) + log(1 + exp(-|o - 0|)) + 1.  The body guards
    it by the test "o - 0 differs from itself", which is false of every extended real. -/
theorem softplusBody_apply {s : Shape} (o : FVec Ideal s .f32) (i : s.Idx) :
    addf (select (cmpf .one (subf o (broadcast s (Scalar.ofBits (F := Ideal) .f32 0x00000000#32)))
              (subf o (broadcast s (Scalar.ofBits (F := Ideal) .f32 0x00000000#32))))
            (addf o (broadcast s (Scalar.ofBits (F := Ideal) .f32 0x00000000#32)))
            (addf (maximumf o (broadcast s (Scalar.ofBits (F := Ideal) .f32 0x00000000#32)))
              (log1p (exp (subf (broadcast s (Scalar.ofBits (F := Ideal) .f32 0x00000000#32))
                (absf (subf o (broadcast s (Scalar.ofBits (F := Ideal) .f32 0x00000000#32)))))))))
        (broadcast s (Scalar.ofBits (F := Ideal) .f32 0x3F800000#32)) i
      = softplusOne (o i) := by
  show Scalar.select (Ideal.cmp .one (o i - zeroW) (o i - zeroW)) (o i + zeroW)
      (max (o i) zeroW + Ideal.log1p (Ideal.exp (zeroW - max (o i - zeroW) (-(o i - zeroW))))) + oneW = _
  have hc : Ideal.cmp .one (o i - zeroW) (o i - zeroW) = 0#1 := by simp [Ideal.cmp]
  have hz : ∀ a : EReal, zeroW - a = -a := fun a => by
    rw [show zeroW = 0 from Ideal.ofBits_zero_f32, zero_sub]
  rw [hc, hz]
  rfl

end Cert.EncoderForms

end
-- ==== Proof.EncoderTile.lean ====
/-
  The encoder kernel's tile, at the exact instance: entry (p, q) of what the body stores is entry (p, q) of the encoder
  `alpha` applied to the body's block of rows.

  The body receives the parameter vectors as 1 x H rows; the statement carries the rows and the vectors they are rows of.
  Reading the stored value at (p, q) from the outside in: softplus plus one of the second dense layer at (p, q); the
  second layer contracts row p of the hidden block, whose entry (p, k) is the normalised, rectified first layer at (p, k).
-/
import proofs.«106370_j5145370821142_2_alg».proof.Proof.EncoderForms
import proofs.«106370_j5145370821142_2_alg».proof.Proof.Gen.KernelIdeal.Skeleton

noncomputable section

namespace Cert.KernelIdeal.Tile

open Cert.KernelIdeal Cert.KernelIdeal.Gen Cert.Evidence Cert.PallasLinear Idealize.ShloMosaic Idealize.ShloMosaic.ValueIdx
open Cert.EncoderForms

/-- Entry (p, q) of the block the encoder kernel's body stores is the encoder of its block of rows at (p, q). -/
theorem encoder_tile (x : Vec Ideal S512x1024 .f32) (w1 : Vec Ideal S1024x1024 .bf16) (b1r rmr rvr gr betar : Vec Ideal S1x1024 .f32)
    (w2 : Vec Ideal S1024x40 .bf16) (b2r : Vec Ideal S1x40 .f32)
    (b1 g beta rm rv : (⟨1, ![1024]⟩ : Shape).Idx → EReal) (b2 : (⟨1, ![40]⟩ : Shape).Idx → EReal)
    (hb1 : ∀ k : Fin 1024, b1r (ix2 (0 : Fin 1) k) = b1 (ix1 k)) (hrm : ∀ k : Fin 1024, rmr (ix2 (0 : Fin 1) k) = rm (ix1 k))
    (hrv : ∀ k : Fin 1024, rvr (ix2 (0 : Fin 1) k) = rv (ix1 k)) (hg : ∀ k : Fin 1024, gr (ix2 (0 : Fin 1) k) = g (ix1 k))
    (hbeta : ∀ k : Fin 1024, betar (ix2 (0 : Fin 1) k) = beta (ix1 k)) (hb2 : ∀ k : Fin 40, b2r (ix2 (0 : Fin 1) k) = b2 (ix1 k))
    (p : Fin 512) (q : Fin 40) :
    k0_pay1 (k0_pay2 x w1 b1r rmr rvr gr betar w2) (k0_pay3 b2r) (ix2 p q) = alpha x w1 b1 g beta rm rv w2 b2 (ix2 p q) := by
  unfold k0_pay1 k0_pay2 k0_pay3
  refine (softplusBody_apply _ (ix2 p q)).trans ?_
  show softplusOne _ = softplusOne _
  refine congrArg softplusOne ?_
  refine (denseBody_apply dot_S512x1024_S1024x40_S512x40_1_0_0_1_n_n_wf _ w2 b2r b2 hb2 _ _ _ p q).trans ?_
  rw [affine_apply]
  refine congrArg (· + b2 (ix1 q)) (Finset.sum_congr rfl fun k _ => ?_)
  refine congrArg (· * w2 (ix2 k q)) ?_
  refine (normReluBody_apply _ rmr rvr gr betar rm rv g beta hrm hrv hg hbeta _ _ _ p k).trans
    (normRelu_entry _ _ rm rv g beta p k ?_)
  exact denseBody_apply dot_S512x1024_S1024x1024_S512x1024_1_0_0_1_n_n_wf _ w1 b1r b1 hb1 _ _ _ p k

/-- The second call of the same kernel: its payloads are, definition by definition, the first call's. -/
theorem encoder_tile' (x : Vec Ideal S512x1024 .f32) (w1 : Vec Ideal S1024x1024 .bf16) (b1r rmr rvr gr betar : Vec Ideal S1x1024 .f32)
    (w2 : Vec Ideal S1024x40 .bf16) (b2r : Vec Ideal S1x40 .f32)
    (b1 g beta rm rv : (⟨1, ![1024]⟩ : Shape).Idx → EReal) (b2 : (⟨1, ![40]⟩ : Shape).Idx → EReal)
    (hb1 : ∀ k : Fin 1024, b1r (ix2 (0 : Fin 1) k) = b1 (ix1 k)) (hrm : ∀ k : Fin 1024, rmr (ix2 (0 : Fin 1) k) = rm (ix1 k))
    (hrv : ∀ k : Fin 1024, rvr (ix2 (0 : Fin 1) k) = rv (ix1 k)) (hg : ∀ k : Fin 1024, gr (ix2 (0 : Fin 1) k) = g (ix1 k))
    (hbeta : ∀ k : Fin 1024, betar (ix2 (0 : Fin 1) k) = beta (ix1 k)) (hb2 : ∀ k : Fin 40, b2r (ix2 (0 : Fin 1) k) = b2 (ix1 k))
    (p : Fin 512) (q : Fin 40) :
    k1_pay1 (k1_pay2 x w1 b1r rmr rvr gr betar w2) (k1_pay3 b2r) (ix2 p q) = alpha x w1 b1 g beta rm rv w2 b2 (ix2 p q) :=
  encoder_tile x w1 b1r rmr rvr gr betar w2 b2r b1 g beta rm rv b2 hb1 hrm hrv hg hbeta hb2 p q

end Cert.KernelIdeal.Tile

end
-- ==== Proof.EncoderRegionA.lean ====
/-
  The first encoder region: its output array after the run.

  The region tiles the 32768 rows of its input into 64 blocks of 512 rows; the weights and the parameter rows are
  resident (their block is the whole array at every point).  Point t writes back rows 512 t … 512 t + 511 of the
  encoder of the WHOLE input — an entry of the encoder reads only its own row of the input — and the 64 blocks tile
  the result, so the array the region leaves is the encoder of the arrays it found.
-/
import proofs.«106370_j5145370821142_2_alg».proof.Proof.Gen.KernelIdeal.Frame
import proofs.«106370_j5145370821142_2_alg».proof.Proof.Spec
import proofs.«106370_j5145370821142_2_alg».proof.Proof.RowVectors
import proofs.«106370_j5145370821142_2_alg».proof.Proof.EncoderTile
import Idealize.ShloMosaic.Lib.Pipeline.Value

set_option maxRecDepth 16384

noncomputable section

namespace Cert.KernelIdeal.Regions

open Cert.KernelIdeal Cert.KernelIdeal.Gen Cert.Evidence Cert.PallasLinear
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-- The first encoder's result as one function of the arrays the region finds. -/
abbrev G0 (c : Dev nD) : S32768x40.Idx → EReal :=
  alpha (V c main_arg0) (V c main_v0) (vecOfRow (V c main_v2)) (vecOfRow (V c main_v3)) (vecOfRow (V c main_v4))
    (vecOfRow (V c main_v5)) (vecOfRow (V c main_v6)) (V c main_v1) (vecOfRow (V c main_v7))

theorem idx_facts0 : ∀ t : Fin cfg0.N, win0_0.index t (0 : Fin 2) = t.val ∧ win0_0.index t (1 : Fin 2) = 0
    ∧ win0_9.index t (0 : Fin 2) = t.val ∧ win0_9.index t (1 : Fin 2) = 0 :=
  (by decide +kernel : ∀ t : Fin grid0.N, _)

theorem res_facts0 : ∀ (t : Fin cfg0.N) (a : Fin 2), win0_1.index t a = 0 ∧ win0_2.index t a = 0 ∧ win0_3.index t a = 0
    ∧ win0_4.index t a = 0 ∧ win0_5.index t a = 0 ∧ win0_6.index t a = 0 ∧ win0_7.index t a = 0 ∧ win0_8.index t a = 0 :=
  (by decide +kernel : ∀ (t : Fin grid0.N) (a : Fin 2), _)

theorem flushed0 (c : Dev nD) (t : Fin cfg0.N) :
    (dat0 V c).flushed 9 t = ((cfg0.win 9).blk t).view.read (Elt Ideal) (G0 V c) := by
  show (cfg0.win 9).cut (grid0.coords t) ((dat0 V c).after 9 t) = _
  rw [after0_9]
  unfold out0_9
  rw [View.canon_unit_zero hz]
  simp only [View.ld_unit_zero (S := S512x1024) hz, View.ld_unit_zero (S := S1024x1024) hz, View.ld_unit_zero (S := S1x1024) hz,
    View.ld_unit_zero (S := S1024x40) hz, View.ld_unit_zero (S := S1x40) hz]
  funext j
  obtain ⟨p, q, rfl⟩ : ∃ (p : Fin 512) (q : Fin 40), j = ix2 p q := ⟨j 0, j 1, eq_ix2 j⟩
  show k0_pay1 (k0_pay2 (iblk0 V c 0 t) (iblk0 V c 1 t) (iblk0 V c 2 t) (iblk0 V c 5 t) (iblk0 V c 6 t) (iblk0 V c 3 t)
      (iblk0 V c 4 t) (iblk0 V c 7 t)) (k0_pay3 (iblk0 V c 8 t)) (ix2 p q)
    = G0 V c (((cfg0.win 9).blk t).view.emb (ix2 p q))
  have ht : t.val < 64 := lt_of_lt_of_eq t.isLt N_0
  obtain ⟨i00, i01, i90, i91⟩ := idx_facts0 t
  have e1 : iblk0 V c 1 t = V c main_v0 := funext fun y => congrArg (V c main_v0)
    (funext fun a => Fin.ext ((cfg0.win 1).rect_emb_val_of_index_zero t a (res_facts0 t a).1 y))
  have e2 : iblk0 V c 2 t = V c main_v2 := funext fun y => congrArg (V c main_v2)
    (funext fun a => Fin.ext ((cfg0.win 2).rect_emb_val_of_index_zero t a (res_facts0 t a).2.1 y))
  have e3 : iblk0 V c 3 t = V c main_v3 := funext fun y => congrArg (V c main_v3)
    (funext fun a => Fin.ext ((cfg0.win 3).rect_emb_val_of_index_zero t a (res_facts0 t a).2.2.1 y))
  have e4 : iblk0 V c 4 t = V c main_v4 := funext fun y => congrArg (V c main_v4)
    (funext fun a => Fin.ext ((cfg0.win 4).rect_emb_val_of_index_zero t a (res_facts0 t a).2.2.2.1 y))
  have e5 : iblk0 V c 5 t = V c main_v5 := funext fun y => congrArg (V c main_v5)
    (funext fun a => Fin.ext ((cfg0.win 5).rect_emb_val_of_index_zero t a (res_facts0 t a).2.2.2.2.1 y))
  have e6 : iblk0 V c 6 t = V c main_v6 := funext fun y => congrArg (V c main_v6)
    (funext fun a => Fin.ext ((cfg0.win 6).rect_emb_val_of_index_zero t a (res_facts0 t a).2.2.2.2.2.1 y))
  have e7 : iblk0 V c 7 t = V c main_v1 := funext fun y => congrArg (V c main_v1)
    (funext fun a => Fin.ext ((cfg0.win 7).rect_emb_val_of_index_zero t a (res_facts0 t a).2.2.2.2.2.2.1 y))
  have e8 : iblk0 V c 8 t = V c main_v7 := funext fun y => congrArg (V c main_v7)
    (funext fun a => Fin.ext ((cfg0.win 8).rect_emb_val_of_index_zero t a (res_facts0 t a).2.2.2.2.2.2.2 y))
  refine (Tile.encoder_tile (iblk0 V c 0 t) (iblk0 V c 1 t) (iblk0 V c 2 t) (iblk0 V c 5 t) (iblk0 V c 6 t) (iblk0 V c 3 t)
    (iblk0 V c 4 t) (iblk0 V c 7 t) (iblk0 V c 8 t)
    (vecOfRow (V c main_v2)) (vecOfRow (V c main_v3)) (vecOfRow (V c main_v4)) (vecOfRow (V c main_v5)) (vecOfRow (V c main_v6))
    (vecOfRow (V c main_v7))
    (fun k => congrFun e2 (ix2 (0 : Fin 1) k)) (fun k => congrFun e5 (ix2 (0 : Fin 1) k)) (fun k => congrFun e6 (ix2 (0 : Fin 1) k))
    (fun k => congrFun e3 (ix2 (0 : Fin 1) k)) (fun k => congrFun e4 (ix2 (0 : Fin 1) k)) (fun k => congrFun e8 (ix2 (0 : Fin 1) k)) p q).trans ?_
  rw [e1, e7]
  have hrow : ∀ k : Fin 1024, ((cfg0.win 0).blk t).view.emb (ix2 p k)
      = ix2 (⟨t.val * 512 + p.val, by omega⟩ : Fin 32768) k := fun k => funext fun a => Fin.ext (by
    match a with
    | ⟨0, _⟩ => exact ((cfg0.win 0).rect_emb_val t (ix2 p k) 0).trans (by rw [show (cfg0.win 0).index t 0 = t.val from i00]; rfl)
    | ⟨1, _⟩ => exact ((cfg0.win 0).rect_emb_val t (ix2 p k) 1).trans (by rw [show (cfg0.win 0).index t 1 = 0 from i01]; show 0 * 1024 + k.val = k.val; omega))
  have hout : ((cfg0.win 9).blk t).view.emb (ix2 p q) = ix2 (⟨t.val * 512 + p.val, by omega⟩ : Fin 32768) q :=
    funext fun a => Fin.ext (by
    match a with
    | ⟨0, _⟩ => exact ((cfg0.win 9).rect_emb_val t (ix2 p q) 0).trans (by rw [show (cfg0.win 9).index t 0 = t.val from i90]; rfl)
    | ⟨1, _⟩ => exact ((cfg0.win 9).rect_emb_val t (ix2 p q) 1).trans (by rw [show (cfg0.win 9).index t 1 = 0 from i91]; show 0 * 40 + q.val = q.val; omega))
  rw [hout]
  exact alpha_row _ _ _ _ _ _ _ _ _ _ p _ q fun k => congrArg (V c main_arg0) (hrow k)

/-- An index of the result array lies in point t's block iff each coordinate lies in the block's range. -/
theorem mem_blk0 (t : Fin cfg0.N) (i : S32768x40.Idx) :
    i ∈ ((cfg0.win 9).blk t).view.set ↔ ∀ a : Fin 2, win0_9.index t a * S512x40.size a ≤ (i a).val
      ∧ (i a).val < win0_9.index t a * S512x40.size a + S512x40.size a := by
  show i ∈ ((View.whole main_v19).slice (win0_9.rect t)).set ↔ _
  rw [View.set_slice_whole, Rect.mem_set_unit]
  exact Iff.rfl

/-- Row r of the result lies in the block of the point r / 512: the blocks tile the rows. -/
theorem cover0 (i : S32768x40.Idx) :
    ∃ t : Fin cfg0.N, (cfg0.win 9).flush t = true ∧ i ∈ ((cfg0.win 9).blk t).view.set := by
  have hi0 : (i 0).val < 32768 := (i 0).isLt
  have hi1 : (i 1).val < 40 := (i 1).isLt
  have hN : cfg0.N = 64 := N_0
  refine ⟨⟨(i 0).val / 512, by rw [hN]; omega⟩, flush0_9 _, ?_⟩
  rw [mem_blk0]
  intro a
  obtain ⟨-, -, e0, e1⟩ := idx_facts0 ⟨(i 0).val / 512, by rw [hN]; omega⟩
  match a with
  | ⟨0, _⟩ =>
    show win0_9.index _ (0 : Fin 2) * 512 ≤ (i 0).val ∧ (i 0).val < win0_9.index _ (0 : Fin 2) * 512 + 512
    rw [e0]
    show (i 0).val / 512 * 512 ≤ (i 0).val ∧ (i 0).val < (i 0).val / 512 * 512 + 512
    omega
  | ⟨1, _⟩ =>
    show win0_9.index _ (1 : Fin 2) * 40 ≤ (i 1).val ∧ (i 1).val < win0_9.index _ (1 : Fin 2) * 40 + 40
    rw [e1]
    omega

/-- The array the first region leaves is the encoder of the arrays it found. -/
theorem region0 (c : Dev nD) : (dat0 V c).arrAt 9 cfg0.N = G0 V c :=
  (dat0 V c).arrAt_eq_of_cover 9 (G0 V c) (fun t _ => flushed0 V c t) cover0

end Cert.KernelIdeal.Regions

end
-- ==== Proof.EncoderRegionB.lean ====
/-
  The second encoder region (the same kernel on the second input): its output array after the run.

  The region tiles the 32768 rows of its input into 64 blocks of 512 rows; the weights and the parameter rows are
  resident (their block is the whole array at every point).  Point t writes back rows 512 t … 512 t + 511 of the
  encoder of the WHOLE input — an entry of the encoder reads only its own row of the input — and the 64 blocks tile
  the result, so the array the region leaves is the encoder of the arrays it found.
-/
import proofs.«106370_j5145370821142_2_alg».proof.Proof.Gen.KernelIdeal.Frame
import proofs.«106370_j5145370821142_2_alg».proof.Proof.Spec
import proofs.«106370_j5145370821142_2_alg».proof.Proof.RowVectors
import proofs.«106370_j5145370821142_2_alg».proof.Proof.EncoderTile
import proofs.«106370_j5145370821142_2_alg».proof.Proof.EncoderRegionA
import Idealize.ShloMosaic.Lib.Pipeline.Value

set_option maxRecDepth 16384

noncomputable section

namespace Cert.KernelIdeal.Regions

open Cert.KernelIdeal Cert.KernelIdeal.Gen Cert.Evidence Cert.PallasLinear
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The second encoder's result as one function of the arrays the region finds. -/
abbrev G1 (c : Dev nD) : S32768x40.Idx → EReal :=
  alpha (V c main_arg1) (V c main_v0) (vecOfRow (V c main_v2)) (vecOfRow (V c main_v3)) (vecOfRow (V c main_v4))
    (vecOfRow (V c main_v5)) (vecOfRow (V c main_v6)) (V c main_v1) (vecOfRow (V c main_v7))

theorem idx_facts1 : ∀ t : Fin cfg1.N, win1_0.index t (0 : Fin 2) = t.val ∧ win1_0.index t (1 : Fin 2) = 0
    ∧ win1_9.index t (0 : Fin 2) = t.val ∧ win1_9.index t (1 : Fin 2) = 0 :=
  (by decide +kernel : ∀ t : Fin grid1.N, _)

theorem res_facts1 : ∀ (t : Fin cfg1.N) (a : Fin 2), win1_1.index t a = 0 ∧ win1_2.index t a = 0 ∧ win1_3.index t a = 0
    ∧ win1_4.index t a = 0 ∧ win1_5.index t a = 0 ∧ win1_6.index t a = 0 ∧ win1_7.index t a = 0 ∧ win1_8.index t a = 0 :=
  (by decide +kernel : ∀ (t : Fin grid1.N) (a : Fin 2), _)

theorem flushed1 (c : Dev nD) (t : Fin cfg1.N) :
    (dat1 V c).flushed 9 t = ((cfg1.win 9).blk t).view.read (Elt Ideal) (G1 V c) := by
  show (cfg1.win 9).cut (grid1.coords t) ((dat1 V c).after 9 t) = _
  rw [after1_9]
  unfold out1_9
  rw [View.canon_unit_zero hz]
  simp only [View.ld_unit_zero (S := S512x1024) hz, View.ld_unit_zero (S := S1024x1024) hz, View.ld_unit_zero (S := S1x1024) hz,
    View.ld_unit_zero (S := S1024x40) hz, View.ld_unit_zero (S := S1x40) hz]
  funext j
  obtain ⟨p, q, rfl⟩ : ∃ (p : Fin 512) (q : Fin 40), j = ix2 p q := ⟨j 0, j 1, eq_ix2 j⟩
  show k1_pay1 (k1_pay2 (iblk1 V c 0 t) (iblk1 V c 1 t) (iblk1 V c 2 t) (iblk1 V c 5 t) (iblk1 V c 6 t) (iblk1 V c 3 t)
      (iblk1 V c 4 t) (iblk1 V c 7 t)) (k1_pay3 (iblk1 V c 8 t)) (ix2 p q)
    = G1 V c (((cfg1.win 9).blk t).view.emb (ix2 p q))
  have ht : t.val < 64 := lt_of_lt_of_eq t.isLt N_1
  obtain ⟨i00, i01, i90, i91⟩ := idx_facts1 t
  have e1 : iblk1 V c 1 t = V c main_v0 := funext fun y => congrArg (V c main_v0)
    (funext fun a => Fin.ext ((cfg1.win 1).rect_emb_val_of_index_zero t a (res_facts1 t a).1 y))
  have e2 : iblk1 V c 2 t = V c main_v2 := funext fun y => congrArg (V c main_v2)
    (funext fun a => Fin.ext ((cfg1.win 2).rect_emb_val_of_index_zero t a (res_facts1 t a).2.1 y))
  have e3 : iblk1 V c 3 t = V c main_v3 := funext fun y => congrArg (V c main_v3)
    (funext fun a => Fin.ext ((cfg1.win 3).rect_emb_val_of_index_zero t a (res_facts1 t a).2.2.1 y))
  have e4 : iblk1 V c 4 t = V c main_v4 := funext fun y => congrArg (V c main_v4)
    (funext fun a => Fin.ext ((cfg1.win 4).rect_emb_val_of_index_zero t a (res_facts1 t a).2.2.2.1 y))
  have e5 : iblk1 V c 5 t = V c main_v5 := funext fun y => congrArg (V c main_v5)
    (funext fun a => Fin.ext ((cfg1.win 5).rect_emb_val_of_index_zero t a (res_facts1 t a).2.2.2.2.1 y))
  have e6 : iblk1 V c 6 t = V c main_v6 := funext fun y => congrArg (V c main_v6)
    (funext fun a => Fin.ext ((cfg1.win 6).rect_emb_val_of_index_zero t a (res_facts1 t a).2.2.2.2.2.1 y))
  have e7 : iblk1 V c 7 t = V c main_v1 := funext fun y => congrArg (V c main_v1)
    (funext fun a => Fin.ext ((cfg1.win 7).rect_emb_val_of_index_zero t a (res_facts1 t a).2.2.2.2.2.2.1 y))
  have e8 : iblk1 V c 8 t = V c main_v7 := funext fun y => congrArg (V c main_v7)
    (funext fun a => Fin.ext ((cfg1.win 8).rect_emb_val_of_index_zero t a (res_facts1 t a).2.2.2.2.2.2.2 y))
  refine (Tile.encoder_tile' (iblk1 V c 0 t) (iblk1 V c 1 t) (iblk1 V c 2 t) (iblk1 V c 5 t) (iblk1 V c 6 t) (iblk1 V c 3 t)
    (iblk1 V c 4 t) (iblk1 V c 7 t) (iblk1 V c 8 t)
    (vecOfRow (V c main_v2)) (vecOfRow (V c main_v3)) (vecOfRow (V c main_v4)) (vecOfRow (V c main_v5)) (vecOfRow (V c main_v6))
    (vecOfRow (V c main_v7))
    (fun k => congrFun e2 (ix2 (0 : Fin 1) k)) (fun k => congrFun e5 (ix2 (0 : Fin 1) k)) (fun k => congrFun e6 (ix2 (0 : Fin 1) k))
    (fun k => congrFun e3 (ix2 (0 : Fin 1) k)) (fun k => congrFun e4 (ix2 (0 : Fin 1) k)) (fun k => congrFun e8 (ix2 (0 : Fin 1) k)) p q).trans ?_
  rw [e1, e7]
  have hrow : ∀ k : Fin 1024, ((cfg1.win 0).blk t).view.emb (ix2 p k)
      = ix2 (⟨t.val * 512 + p.val, by omega⟩ : Fin 32768) k := fun k => funext fun a => Fin.ext (by
    match a with
    | ⟨0, _⟩ => exact ((cfg1.win 0).rect_emb_val t (ix2 p k) 0).trans (by rw [show (cfg1.win 0).index t 0 = t.val from i00]; rfl)
    | ⟨1, _⟩ => exact ((cfg1.win 0).rect_emb_val t (ix2 p k) 1).trans (by rw [show (cfg1.win 0).index t 1 = 0 from i01]; show 0 * 1024 + k.val = k.val; omega))
  have hout : ((cfg1.win 9).blk t).view.emb (ix2 p q) = ix2 (⟨t.val * 512 + p.val, by omega⟩ : Fin 32768) q :=
    funext fun a => Fin.ext (by
    match a with
    | ⟨0, _⟩ => exact ((cfg1.win 9).rect_emb_val t (ix2 p q) 0).trans (by rw [show (cfg1.win 9).index t 0 = t.val from i90]; rfl)
    | ⟨1, _⟩ => exact ((cfg1.win 9).rect_emb_val t (ix2 p q) 1).trans (by rw [show (cfg1.win 9).index t 1 = 0 from i91]; show 0 * 40 + q.val = q.val; omega))
  rw [hout]
  exact alpha_row _ _ _ _ _ _ _ _ _ _ p _ q fun k => congrArg (V c main_arg1) (hrow k)

/-- An index of the result array lies in point t's block iff each coordinate lies in the block's range. -/
theorem mem_blk1 (t : Fin cfg1.N) (i : S32768x40.Idx) :
    i ∈ ((cfg1.win 9).blk t).view.set ↔ ∀ a : Fin 2, win1_9.index t a * S512x40.size a ≤ (i a).val
      ∧ (i a).val < win1_9.index t a * S512x40.size a + S512x40.size a := by
  show i ∈ ((View.whole main_v20).slice (win1_9.rect t)).set ↔ _
  rw [View.set_slice_whole, Rect.mem_set_unit]
  exact Iff.rfl

/-- Row r of the result lies in the block of the point r / 512: the blocks tile the rows. -/
theorem cover1 (i : S32768x40.Idx) :
    ∃ t : Fin cfg1.N, (cfg1.win 9).flush t = true ∧ i ∈ ((cfg1.win 9).blk t).view.set := by
  have hi0 : (i 0).val < 32768 := (i 0).isLt
  have hi1 : (i 1).val < 40 := (i 1).isLt
  have hN : cfg1.N = 64 := N_1
  refine ⟨⟨(i 0).val / 512, by rw [hN]; omega⟩, flush1_9 _, ?_⟩
  rw [mem_blk1]
  intro a
  obtain ⟨-, -, e0, e1⟩ := idx_facts1 ⟨(i 0).val / 512, by rw [hN]; omega⟩
  match a with
  | ⟨0, _⟩ =>
    show win1_9.index _ (0 : Fin 2) * 512 ≤ (i 0).val ∧ (i 0).val < win1_9.index _ (0 : Fin 2) * 512 + 512
    rw [e0]
    show (i 0).val / 512 * 512 ≤ (i 0).val ∧ (i 0).val < (i 0).val / 512 * 512 + 512
    omega
  | ⟨1, _⟩ =>
    show win1_9.index _ (1 : Fin 2) * 40 ≤ (i 1).val ∧ (i 1).val < win1_9.index _ (1 : Fin 2) * 40 + 40
    rw [e1]
    omega

/-- The array the second region leaves is the encoder of the arrays it found. -/
theorem region1 (c : Dev nD) : (dat1 V c).arrAt 9 cfg1.N = G1 V c :=
  (dat1 V c).arrAt_eq_of_cover 9 (G1 V c) (fun t _ => flushed1 V c t) cover1

end Cert.KernelIdeal.Regions

end
-- ==== Proof.PairTile.lean ====
/-
  The third encoder kernel's tile, at the exact instance: entry (p, q) of what the body stores is softplus plus one of
  the second dense layer of the normalised, rectified first layer, the first layer being the sum of the contractions of
  the two input blocks against the two halves of the tall weight matrix, plus the bias.

  The body receives the parameter vectors as 1 x H rows; the statement carries the rows and the vectors they are rows of.
-/
import proofs.«106370_j5145370821142_2_alg».proof.Proof.EncoderForms
import proofs.«106370_j5145370821142_2_alg».proof.Proof.Gen.KernelIdeal.Skeleton

noncomputable section

namespace Cert.KernelIdeal.Tile

open Cert.KernelIdeal Cert.KernelIdeal.Gen Cert.Evidence Cert.PallasLinear Idealize.ShloMosaic Idealize.ShloMosaic.ValueIdx
open Cert.EncoderForms

/-- Entry (p, q) of the block the third encoder kernel's body stores, from its two blocks of rows. -/
theorem pair_tile (x xg : Vec Ideal S256x1024 .f32) (wa wb : Vec Ideal S1024x2048 .bf16) (bp1r rmr rvr gr betar : Vec Ideal S1x2048 .f32)
    (wp2 : Vec Ideal S2048x40 .bf16) (bp2r : Vec Ideal S1x40 .f32)
    (bp1 g beta rm rv : (⟨1, ![2048]⟩ : Shape).Idx → EReal) (bp2 : (⟨1, ![40]⟩ : Shape).Idx → EReal)
    (hb1 : ∀ k : Fin 2048, bp1r (ix2 (0 : Fin 1) k) = bp1 (ix1 k)) (hrm : ∀ k : Fin 2048, rmr (ix2 (0 : Fin 1) k) = rm (ix1 k))
    (hrv : ∀ k : Fin 2048, rvr (ix2 (0 : Fin 1) k) = rv (ix1 k)) (hg : ∀ k : Fin 2048, gr (ix2 (0 : Fin 1) k) = g (ix1 k))
    (hbeta : ∀ k : Fin 2048, betar (ix2 (0 : Fin 1) k) = beta (ix1 k)) (hb2 : ∀ k : Fin 40, bp2r (ix2 (0 : Fin 1) k) = bp2 (ix1 k))
    (p : Fin 256) (q : Fin 40) :
    k2_pay1 (k2_pay2 x xg wa wb bp1r rmr rvr gr betar) wp2 bp2r (ix2 p q)
      = softplusOne (affine (normRelu (affine2 x wa xg wb bp1) rm rv g beta) wp2 bp2 (ix2 p q)) := by
  unfold k2_pay1
  refine (softplusBody_apply _ (ix2 p q)).trans (congrArg softplusOne ?_)
  refine (denseBody_apply dot_S256x2048_S2048x40_S256x40_1_0_0_1_n_n_wf _ wp2 bp2r bp2 hb2 _ _ _ p q).trans ?_
  rw [affine_apply]
  refine congrArg (· + bp2 (ix1 q)) (Finset.sum_congr rfl fun k _ => ?_)
  refine congrArg (· * wp2 (ix2 k q)) ?_
  unfold k2_pay2
  refine (normReluBody_apply _ rmr rvr gr betar rm rv g beta hrm hrv hg hbeta _ _ _ p k).trans
    (normRelu_entry _ _ rm rv g beta p k ?_)
  exact dense2Body_apply dot_S256x1024_S1024x2048_S256x2048_1_0_0_1_n_n_wf _ _ wa wb bp1r bp1 hb1 _ _ _ p k

end Cert.KernelIdeal.Tile

end
-- ==== Proof.PairRegion.lean ====
/-
  The third encoder's region: its output array after the run.

  The region tiles the 32768 rows of its two inputs into 128 blocks of 256 rows; the two halves of the first weight
  matrix, the second weight matrix and the parameter rows are resident.  An entry of the encoder reads only its own row
  of each input, so point t writes back rows 256 t … 256 t + 255 of the encoder of the WHOLE inputs, and the 128 blocks
  tile the result.
-/
import proofs.«106370_j5145370821142_2_alg».proof.Proof.Gen.KernelIdeal.Frame
import proofs.«106370_j5145370821142_2_alg».proof.Proof.Spec
import proofs.«106370_j5145370821142_2_alg».proof.Proof.RowVectors
import proofs.«106370_j5145370821142_2_alg».proof.Proof.PairTile
import proofs.«106370_j5145370821142_2_alg».proof.Proof.EncoderRegionA
import Idealize.ShloMosaic.Lib.Pipeline.Value

set_option maxRecDepth 16384

noncomputable section

namespace Cert.KernelIdeal.Regions

open Cert.KernelIdeal Cert.KernelIdeal.Gen Cert.Evidence Cert.PallasLinear
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The encoder on two inputs with the first layer's weights given as two matrices. -/
def pairEnc {M K H N : ℕ} (x : (⟨2, ![M, K]⟩ : Shape).Idx → EReal) (wa : (⟨2, ![K, H]⟩ : Shape).Idx → EReal)
    (xg : (⟨2, ![M, K]⟩ : Shape).Idx → EReal) (wb : (⟨2, ![K, H]⟩ : Shape).Idx → EReal)
    (bp1 g beta rm rv : (⟨1, ![H]⟩ : Shape).Idx → EReal) (wp2 : (⟨2, ![H, N]⟩ : Shape).Idx → EReal)
    (bp2 : (⟨1, ![N]⟩ : Shape).Idx → EReal) : (⟨2, ![M, N]⟩ : Shape).Idx → EReal :=
  fun i => softplusOne (affine (normRelu (affine2 x wa xg wb bp1) rm rv g beta) wp2 bp2 i)

/-- With the two matrices the halves of one tall matrix it is the third encoder. -/
theorem alphaPair_eq_pairEnc {M H N : ℕ} (x xg : (⟨2, ![M, 1024]⟩ : Shape).Idx → EReal) (wp1 : (⟨2, ![2048, H]⟩ : Shape).Idx → EReal)
    (bp1 gp betap rmp rvp : (⟨1, ![H]⟩ : Shape).Idx → EReal) (wp2 : (⟨2, ![H, N]⟩ : Shape).Idx → EReal)
    (bp2 : (⟨1, ![N]⟩ : Shape).Idx → EReal) :
    alphaPair x xg wp1 bp1 gp betap rmp rvp wp2 bp2 = pairEnc x (upperRows wp1) xg (lowerRows wp1) bp1 gp betap rmp rvp wp2 bp2 := rfl

/-- Entry (p, q) reads row p of each input only. -/
theorem pairEnc_row {M M' K H N : ℕ} (x xg : (⟨2, ![M, K]⟩ : Shape).Idx → EReal) (x' xg' : (⟨2, ![M', K]⟩ : Shape).Idx → EReal)
    (wa wb : (⟨2, ![K, H]⟩ : Shape).Idx → EReal) (bp1 g beta rm rv : (⟨1, ![H]⟩ : Shape).Idx → EReal)
    (wp2 : (⟨2, ![H, N]⟩ : Shape).Idx → EReal) (bp2 : (⟨1, ![N]⟩ : Shape).Idx → EReal) (p : Fin M) (p' : Fin M') (q : Fin N)
    (hx : ∀ k : Fin K, x (ix2 p k) = x' (ix2 p' k)) (hxg : ∀ k : Fin K, xg (ix2 p k) = xg' (ix2 p' k)) :
    pairEnc x wa xg wb bp1 g beta rm rv wp2 bp2 (ix2 p q) = pairEnc x' wa xg' wb bp1 g beta rm rv wp2 bp2 (ix2 p' q) := by
  unfold pairEnc
  refine congrArg softplusOne (affine_row _ _ wp2 bp2 p p' q fun k => ?_)
  rw [normRelu_apply, normRelu_apply, affine2_apply, affine2_apply]
  simp only [hx, hxg]

/-- The third encoder's result as one function of the arrays the region finds. -/
abbrev G2 (c : Dev nD) : S32768x40.Idx → EReal :=
  pairEnc (V c main_arg0) (V c main_v9) (V c main_arg1) (V c main_v11) (vecOfRow (V c main_v13)) (vecOfRow (V c main_v14))
    (vecOfRow (V c main_v15)) (vecOfRow (V c main_v16)) (vecOfRow (V c main_v17)) (V c main_v12) (vecOfRow (V c main_v18))

theorem idx_facts2 : ∀ t : Fin cfg2.N, win2_0.index t (0 : Fin 2) = t.val ∧ win2_0.index t (1 : Fin 2) = 0
    ∧ win2_11.index t (0 : Fin 2) = t.val ∧ win2_11.index t (1 : Fin 2) = 0
    ∧ win2_1.index t (0 : Fin 2) = t.val ∧ win2_1.index t (1 : Fin 2) = 0 :=
  (by decide +kernel : ∀ t : Fin grid2.N, _)

theorem res_facts2 : ∀ (t : Fin cfg2.N) (a : Fin 2), win2_2.index t a = 0 ∧ win2_3.index t a = 0 ∧ win2_4.index t a = 0
    ∧ win2_5.index t a = 0 ∧ win2_6.index t a = 0 ∧ win2_7.index t a = 0 ∧ win2_8.index t a = 0 ∧ win2_9.index t a = 0
    ∧ win2_10.index t a = 0 :=
  (by decide +kernel : ∀ (t : Fin grid2.N) (a : Fin 2), _)

/-- What point t writes back is block t of the encoder of the whole arrays. -/
theorem flushed2 (c : Dev nD) (t : Fin cfg2.N) :
    (dat2 V c).flushed 11 t = ((cfg2.win 11).blk t).view.read (Elt Ideal) (G2 V c) := by
  show (cfg2.win 11).cut (grid2.coords t) ((dat2 V c).after 11 t) = _
  rw [after2_11]
  unfold out2_11
  rw [View.canon_unit_zero hz]
  simp only [View.ld_unit_zero (S := S256x1024) hz, View.ld_unit_zero (S := S1024x2048) hz, View.ld_unit_zero (S := S1x2048) hz,
    View.ld_unit_zero (S := S2048x40) hz, View.ld_unit_zero (S := S1x40) hz]
  funext j
  obtain ⟨p, q, rfl⟩ : ∃ (p : Fin 256) (q : Fin 40), j = ix2 p q := ⟨j 0, j 1, eq_ix2 j⟩
  show k2_pay1 (k2_pay2 (iblk2 V c 0 t) (iblk2 V c 1 t) (iblk2 V c 2 t) (iblk2 V c 3 t) (iblk2 V c 4 t) (iblk2 V c 7 t)
      (iblk2 V c 8 t) (iblk2 V c 5 t) (iblk2 V c 6 t)) (iblk2 V c 9 t) (iblk2 V c 10 t) (ix2 p q)
    = G2 V c (((cfg2.win 11).blk t).view.emb (ix2 p q))
  have ht : t.val < 128 := lt_of_lt_of_eq t.isLt N_2
  obtain ⟨i00, i01, i110, i111, i10, i11⟩ := idx_facts2 t
  have e2 : iblk2 V c 2 t = V c main_v9 := funext fun y => congrArg (V c main_v9)
    (funext fun a => Fin.ext ((cfg2.win 2).rect_emb_val_of_index_zero t a (res_facts2 t a).1 y))
  have e3 : iblk2 V c 3 t = V c main_v11 := funext fun y => congrArg (V c main_v11)
    (funext fun a => Fin.ext ((cfg2.win 3).rect_emb_val_of_index_zero t a (res_facts2 t a).2.1 y))
  have e4 : iblk2 V c 4 t = V c main_v13 := funext fun y => congrArg (V c main_v13)
    (funext fun a => Fin.ext ((cfg2.win 4).rect_emb_val_of_index_zero t a (res_facts2 t a).2.2.1 y))
  have e5 : iblk2 V c 5 t = V c main_v14 := funext fun y => congrArg (V c main_v14)
    (funext fun a => Fin.ext ((cfg2.win 5).rect_emb_val_of_index_zero t a (res_facts2 t a).2.2.2.1 y))
  have e6 : iblk2 V c 6 t = V c main_v15 := funext fun y => congrArg (V c main_v15)
    (funext fun a => Fin.ext ((cfg2.win 6).rect_emb_val_of_index_zero t a (res_facts2 t a).2.2.2.2.1 y))
  have e7 : iblk2 V c 7 t = V c main_v16 := funext fun y => congrArg (V c main_v16)
    (funext fun a => Fin.ext ((cfg2.win 7).rect_emb_val_of_index_zero t a (res_facts2 t a).2.2.2.2.2.1 y))
  have e8 : iblk2 V c 8 t = V c main_v17 := funext fun y => congrArg (V c main_v17)
    (funext fun a => Fin.ext ((cfg2.win 8).rect_emb_val_of_index_zero t a (res_facts2 t a).2.2.2.2.2.2.1 y))
  have e9 : iblk2 V c 9 t = V c main_v12 := funext fun y => congrArg (V c main_v12)
    (funext fun a => Fin.ext ((cfg2.win 9).rect_emb_val_of_index_zero t a (res_facts2 t a).2.2.2.2.2.2.2.1 y))
  have e10 : iblk2 V c 10 t = V c main_v18 := funext fun y => congrArg (V c main_v18)
    (funext fun a => Fin.ext ((cfg2.win 10).rect_emb_val_of_index_zero t a (res_facts2 t a).2.2.2.2.2.2.2.2 y))
  refine (Tile.pair_tile (iblk2 V c 0 t) (iblk2 V c 1 t) (iblk2 V c 2 t) (iblk2 V c 3 t) (iblk2 V c 4 t) (iblk2 V c 7 t)
    (iblk2 V c 8 t) (iblk2 V c 5 t) (iblk2 V c 6 t) (iblk2 V c 9 t) (iblk2 V c 10 t)
    (vecOfRow (V c main_v13)) (vecOfRow (V c main_v14)) (vecOfRow (V c main_v15)) (vecOfRow (V c main_v16)) (vecOfRow (V c main_v17))
    (vecOfRow (V c main_v18))
    (fun k => congrFun e4 (ix2 (0 : Fin 1) k)) (fun k => congrFun e7 (ix2 (0 : Fin 1) k)) (fun k => congrFun e8 (ix2 (0 : Fin 1) k))
    (fun k => congrFun e5 (ix2 (0 : Fin 1) k)) (fun k => congrFun e6 (ix2 (0 : Fin 1) k)) (fun k => congrFun e10 (ix2 (0 : Fin 1) k)) p q).trans ?_
  rw [e2, e3, e9]
  have hrow0 : ∀ k : Fin 1024, ((cfg2.win 0).blk t).view.emb (ix2 p k)
      = ix2 (⟨t.val * 256 + p.val, by omega⟩ : Fin 32768) k := fun k => funext fun a => Fin.ext (by
    match a with
    | ⟨0, _⟩ => exact ((cfg2.win 0).rect_emb_val t (ix2 p k) 0).trans (by rw [show (cfg2.win 0).index t 0 = t.val from i00]; rfl)
    | ⟨1, _⟩ => exact ((cfg2.win 0).rect_emb_val t (ix2 p k) 1).trans (by rw [show (cfg2.win 0).index t 1 = 0 from i01]; show 0 * 1024 + k.val = k.val; omega))
  have hrow1 : ∀ k : Fin 1024, ((cfg2.win 1).blk t).view.emb (ix2 p k)
      = ix2 (⟨t.val * 256 + p.val, by omega⟩ : Fin 32768) k := fun k => funext fun a => Fin.ext (by
    match a with
    | ⟨0, _⟩ => exact ((cfg2.win 1).rect_emb_val t (ix2 p k) 0).trans (by rw [show (cfg2.win 1).index t 0 = t.val from i10]; rfl)
    | ⟨1, _⟩ => exact ((cfg2.win 1).rect_emb_val t (ix2 p k) 1).trans (by rw [show (cfg2.win 1).index t 1 = 0 from i11]; show 0 * 1024 + k.val = k.val; omega))
  have hrow11 : ∀ k : Fin 40, ((cfg2.win 11).blk t).view.emb (ix2 p k)
      = ix2 (⟨t.val * 256 + p.val, by omega⟩ : Fin 32768) k := fun k => funext fun a => Fin.ext (by
    match a with
    | ⟨0, _⟩ => exact ((cfg2.win 11).rect_emb_val t (ix2 p k) 0).trans (by rw [show (cfg2.win 11).index t 0 = t.val from i110]; rfl)
    | ⟨1, _⟩ => exact ((cfg2.win 11).rect_emb_val t (ix2 p k) 1).trans (by rw [show (cfg2.win 11).index t 1 = 0 from i111]; show 0 * 40 + k.val = k.val; omega))
  rw [hrow11 q]
  exact pairEnc_row _ _ _ _ _ _ _ _ _ _ _ _ _ p _ q (fun k => congrArg (V c main_arg0) (hrow0 k)) (fun k => congrArg (V c main_arg1) (hrow1 k))

/-- An index of the result array lies in point t's block iff each coordinate lies in the block's range. -/
theorem mem_blk2 (t : Fin cfg2.N) (i : S32768x40.Idx) :
    i ∈ ((cfg2.win 11).blk t).view.set ↔ ∀ a : Fin 2, win2_11.index t a * S256x40.size a ≤ (i a).val
      ∧ (i a).val < win2_11.index t a * S256x40.size a + S256x40.size a := by
  show i ∈ ((View.whole main_v21).slice (win2_11.rect t)).set ↔ _
  rw [View.set_slice_whole, Rect.mem_set_unit]
  exact Iff.rfl

/-- Row r of the result lies in the block of the point r / 256: the blocks tile the rows. -/
theorem cover2 (i : S32768x40.Idx) :
    ∃ t : Fin cfg2.N, (cfg2.win 11).flush t = true ∧ i ∈ ((cfg2.win 11).blk t).view.set := by
  have hi0 : (i 0).val < 32768 := (i 0).isLt
  have hi1 : (i 1).val < 40 := (i 1).isLt
  have hN : cfg2.N = 128 := N_2
  refine ⟨⟨(i 0).val / 256, by rw [hN]; omega⟩, flush2_11 _, ?_⟩
  rw [mem_blk2]
  intro a
  obtain ⟨-, -, e0, e1, -⟩ := idx_facts2 ⟨(i 0).val / 256, by rw [hN]; omega⟩
  match a with
  | ⟨0, _⟩ =>
    show win2_11.index _ (0 : Fin 2) * 256 ≤ (i 0).val ∧ (i 0).val < win2_11.index _ (0 : Fin 2) * 256 + 256
    rw [e0]
    show (i 0).val / 256 * 256 ≤ (i 0).val ∧ (i 0).val < (i 0).val / 256 * 256 + 256
    omega
  | ⟨1, _⟩ =>
    show win2_11.index _ (1 : Fin 2) * 40 ≤ (i 1).val ∧ (i 1).val < win2_11.index _ (1 : Fin 2) * 40 + 40
    rw [e1]
    omega

/-- The array the third encoder's region leaves is the encoder of the arrays it found. -/
theorem region2 (c : Dev nD) : (dat2 V c).arrAt 11 cfg2.N = G2 V c :=
  (dat2 V c).arrAt_eq_of_cover 11 (G2 V c) (fun t _ => flushed2 V c t) cover2

end Cert.KernelIdeal.Regions

end
-- ==== Proof.LibKeepdims.lean ====
/-
  A vector kept as a column, read at an index: the two layout steps a row reduction with a kept axis goes through.
  A length-`a` vector cast to an `a × 1` column holds entry `i` at `(i, 0)` (the row-major position is unchanged),
  and an `a × 1` column broadcast to `a × b` holds, all along row `i`, the column's entry `(i, 0)`.
  (The transposed form, a `1 × a` row broadcast down the columns, and the transpose itself are in the library.)
-/
import Idealize.ShloMosaic.Lib.Pipeline.Value
import Idealize.ShloMosaic.Lib.ValueIdx

namespace Cert.Keepdims

open Idealize.ShloMosaic Idealize.ShloMosaic.ValueIdx

variable {α : Type}

/-- A length-`a` vector cast to an `a × 1` column reads, at `(i, u)`, the vector at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column broadcast to `a × b` reads, at `(i, j)`, the column at `(i, 0)`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]

end Cert.Keepdims
-- ==== Proof.LibColumnCasts.lean ====
/-
  Shape casts between a vector and the column that holds it, read at an index given by coordinates.

  A vector of `a` entries and an `a` by 1 column list the same entries in the same row-major order, so a cast either
  way reads entry `i` of the one at row `i` of the other; likewise a scalar and a 1 by 1 array hold one entry.  These
  are the "keepdims" forms a row sum meets when its result is kept as a column: the vector-to-column cast after the
  sum, the column-to-vector cast when the column is handed back as a vector, and the scalar-to-array cast of a total.
  Also here: the sum over a vector's indices as the sum over its coordinates, and a lane sum over the second axis of a
  matrix at the ideal values, as the plain sum over the columns of one row.
-/
import Idealize.ShloMosaic.Lib.Pipeline.Value
import Idealize.ShloMosaic.Lib.ValueIdx
import Idealize.ShloMosaic.PureOps.Ideal.Laws

namespace Cert.ColumnCasts

open Idealize.ShloMosaic Idealize.ShloMosaic.ValueIdx
open scoped BigOperators

variable {α : Type}

/-- An `[a]` vector cast to an `[a, 1]` column reads, at `(i, u)`, the vector at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column cast to an `[a]` vector reads, at `i`, the column at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A scalar (rank 0) cast to a `[1, 1]` array reads, at its one index, the scalar: a rank-0 shape has one index. -/
theorem shapeCast_scalar_11_apply (x : (⟨0, ![]⟩ : Shape).Idx → α) (h : (⟨0, ![]⟩ : Shape).ShapeCasts ⟨2, ![1, 1]⟩)
    (j : (⟨2, ![1, 1]⟩ : Shape).Idx) : shapeCast ⟨2, ![1, 1]⟩ x h j = x ix0 :=
  congrArg x (funext fun d => d.elim0)

/-- The indices of a vector of `n` entries are its coordinates. -/
def vectorIdxEquiv {n : ℕ} : (⟨1, ![n]⟩ : Shape).Idx ≃ Fin n where
  toFun i := i 0
  invFun := ix1
  left_inv i := (eq_ix1 i).symm
  right_inv _ := rfl

/-- A sum over the indices of a vector is the sum over its coordinates. -/
theorem sum_vectorIdx {M : Type} [AddCommMonoid M] {n : ℕ} (f : (⟨1, ![n]⟩ : Shape).Idx → M) :
    ∑ i, f i = ∑ o : Fin n, f (ix1 o) :=
  (Equiv.sum_comp (vectorIdxEquiv (n := n)).symm f).symm

/-- At the ideal values the lane sum of an `[a, b]` matrix over its second axis is, at row `p`, the sum over the
    columns `k` of the entry `(p, k)`.  The accumulator is the zero word, which is the neutral element of the sum. -/
theorem rowSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (p : Fin a) :
    multiReduction .add [1] ⟨1, ![a]⟩ src 0x00000000#32 h hφ hacc (ix1 p) = ∑ k : Fin b, src (ix2 p k) :=
  (Ideal.multiReduction_add_single src 0x00000000#32 h hφ hacc (ix1 p)).trans
    (Finset.sum_congr rfl fun k _ => congrArg src (funext fun d => Fin.ext (by
      match d with
      | ⟨0, _⟩ => rfl
      | ⟨1, _⟩ => rfl)))

end Cert.ColumnCasts
-- ==== Proof.VectorForms.lean ====
/-
  Vector-unit forms read at an index, at the ideal values.

  A constant word spread over a shape, and a lane sum over the second axis of a matrix kept as a one-column matrix:
  what each holds at an index given by coordinates.
-/
import proofs.«106370_j5145370821142_2_alg».proof.Proof.LibColumnCasts
import Idealize.ShloMosaic.PureOps.Ideal

noncomputable section

namespace Cert.VectorForms

open Idealize.ShloMosaic Idealize.ShloMosaic.ValueIdx

/-- A constant word spread over a shape reads, at every index, the extended real the word spells. -/
theorem broadcast_word_apply (t : Shape) (b : BitVec 32) (i : t.Idx) :
    broadcast t (Scalar.ofBits (F := Ideal) .f32 b) i = Ideal.ofBits .f32 b := rfl

/-- The lane sum of an `[a, b]` matrix over its second axis, kept as an `[a, 1]` column, reads at `(p, u)` the
    sum over the columns `k` of the entry `(p, k)`. -/
theorem keptRowSum_apply {a b : ℕ} (src : FVec Ideal ⟨2, ![a, b]⟩ .f32)
    (h : (⟨2, ![a, b]⟩ : Shape).Reduces [1] ⟨1, ![a]⟩) (hφ : FTy.f32 = FTy.f32 ∨ FTy.f32 = FTy.bf16)
    (hacc : (0x00000000#32 : BitVec 32) = 0x00000000#32) (hc : (⟨1, ![a]⟩ : Shape).ShapeCasts ⟨2, ![a, 1]⟩)
    (p : Fin a) (u : Fin 1) :
    shapeCast ⟨2, ![a, 1]⟩ (multiReduction .add [1] ⟨1, ![a]⟩ src 0x00000000#32 h hφ hacc) hc (ix2 p u)
      = ∑ k : Fin b, src (ix2 p k) :=
  (Cert.ColumnCasts.shapeCast_a_a1_apply _ hc p u).trans (Cert.ColumnCasts.rowSum_apply src h hφ hacc p)

end Cert.VectorForms

end
-- ==== Proof.CombineTile.lean ====
/-
  The tile of the belief combination: what the body of the fourth kernel stores, entry by entry.

  The body combines the first two loaded blocks and then combines the result with the third.  A combination takes the
  row sums of its two operands (a lane sum over the second axis, kept as a column and spread back over the tile), the
  belief masses and the uncertainties as quotients by those sums, the agreement of the two rows from three more row
  sums, and then the combined parameters.  Each value the body computes is read here at an index (p, q) of the tile or
  (p, 0) of a column, and is the corresponding term of the specification, with the same operations in the same order.
-/
import proofs.«106370_j5145370821142_2_alg».proof.Proof.Spec
import proofs.«106370_j5145370821142_2_alg».proof.Proof.LibKeepdims
import proofs.«106370_j5145370821142_2_alg».proof.Proof.VectorForms
import proofs.«106370_j5145370821142_2_alg».proof.Proof.Gen.KernelIdeal.Skeleton

noncomputable section

namespace Cert.KernelIdeal.Tile

open Cert.KernelIdeal Cert.KernelIdeal.Gen Cert.Evidence Cert.VectorForms Idealize.ShloMosaic Idealize.ShloMosaic.ValueIdx

/-! ## The two layout steps of a kept row sum, on the tile's shapes -/

/-- The row sums of a tile, kept as a column: the lane sum over the second axis, cast to `[1024, 1]`. -/
def colSum (a : FVec Ideal S1024x40 .f32) : FVec Ideal S1024x1 .f32 :=
  shapeCast S1024x1 (multiReduction .add [1] S1024 a 0x00000000#32 reduces_S1024x40_S1024 (.inl rfl) rfl)
    shapeCasts_S1024_S1024x1

/-- The kept row sum reads, at `(p, u)`, the sum of row `p`. -/
theorem colSum_apply (a : FVec Ideal S1024x40 .f32) (p : Fin 1024) (u : Fin 1) :
    colSum a (ix2 p u) = ∑ k : Fin 40, a (ix2 p k) :=
  keptRowSum_apply a _ _ _ _ p u

/-- A column spread over the tile reads, all along row `p`, the column's entry `(p, 0)`. -/
theorem bc_apply (v : FVec Ideal S1024x1 .f32) (p : Fin 1024) (q : Fin 40) :
    broadcastTo S1024x40 v broadcasts_S1024x1_S1024x40 (ix2 p q) = v (ix2 p (0 : Fin 1)) :=
  Cert.Keepdims.broadcastTo_a1_ab_apply v _ p q

/-! ## The first combination, on the two loaded blocks -/

theorem pay2_eq (v0 : Vec Ideal S1024x40 .f32) : k3_pay2 v0 = v0 := by
  unfold k3_pay2
  exact shapeCast_self _ _

theorem pay3_eq (v2 : Vec Ideal S1024x40 .f32) : k3_pay3 v2 = v2 := by
  unfold k3_pay3
  exact shapeCast_self _ _

theorem pay4_eq (v4 : Vec Ideal S1024x40 .f32) : k3_pay4 v4 = v4 := by
  unfold k3_pay4
  exact shapeCast_self _ _

theorem pay5_eq (v0 : Vec Ideal S1024x40 .f32) : k3_pay5 v0 = colSum (k3_pay2 v0) := rfl

theorem pay6_eq (v2 : Vec Ideal S1024x40 .f32) : k3_pay6 v2 = colSum (k3_pay3 v2) := rfl

theorem pay5_apply (v0 : Vec Ideal S1024x40 .f32) (p : Fin 1024) (u : Fin 1) :
    k3_pay5 v0 (ix2 p u) = rowSum v0 p := by
  rw [pay5_eq, pay2_eq, colSum_apply]
  rfl

theorem pay6_apply (v2 : Vec Ideal S1024x40 .f32) (p : Fin 1024) (u : Fin 1) :
    k3_pay6 v2 (ix2 p u) = rowSum v2 p := by
  rw [pay6_eq, pay3_eq, colSum_apply]
  rfl

theorem pay7_apply (v0 : Vec Ideal S1024x40 .f32) (p : Fin 1024) (q : Fin 40) :
    k3_pay7 v0 (ix2 p q) = belief v0 p q := by
  unfold k3_pay7
  simp only [divf_apply, subf_apply, broadcast_word_apply, bc_apply, pay5_apply, pay2_eq]
  rfl

theorem pay8_apply (v2 : Vec Ideal S1024x40 .f32) (p : Fin 1024) (q : Fin 40) :
    k3_pay8 v2 (ix2 p q) = belief v2 p q := by
  unfold k3_pay8
  simp only [divf_apply, subf_apply, broadcast_word_apply, bc_apply, pay6_apply, pay3_eq]
  rfl

theorem pay9_apply (v0 : Vec Ideal S1024x40 .f32) (p : Fin 1024) (u : Fin 1) :
    k3_pay9 v0 (ix2 p u) = unc v0 p := by
  unfold k3_pay9
  simp only [divf_apply, broadcast_word_apply, pay5_apply]
  rfl

theorem pay10_apply (v2 : Vec Ideal S1024x40 .f32) (p : Fin 1024) (u : Fin 1) :
    k3_pay10 v2 (ix2 p u) = unc v2 p := by
  unfold k3_pay10
  simp only [divf_apply, broadcast_word_apply, pay6_apply]
  rfl

theorem pay11_eq (v0 v2 : Vec Ideal S1024x40 .f32) :
    k3_pay11 v0 v2
      = subf (broadcast S1024x1 (Scalar.ofBits (F := Ideal) .f32 0x3F800000#32))
          (subf (mulf (colSum (k3_pay7 v0)) (colSum (k3_pay8 v2))) (colSum (mulf (k3_pay7 v0) (k3_pay8 v2)))) := rfl

theorem pay11_apply (v0 v2 : Vec Ideal S1024x40 .f32) (p : Fin 1024) (u : Fin 1) :
    k3_pay11 v0 v2 (ix2 p u) = agree v0 v2 p := by
  rw [pay11_eq]
  simp only [subf_apply, mulf_apply, broadcast_word_apply, colSum_apply, pay7_apply, pay8_apply]
  rfl

theorem pay12_apply (v0 v2 : Vec Ideal S1024x40 .f32) (p : Fin 1024) (q : Fin 40) :
    k3_pay12 v0 v2 (ix2 p q)
      = Ideal.div ((belief v0 p q * belief v2 p q + belief v0 p q * unc v2 p) + belief v2 p q * unc v0 p)
          (agree v0 v2 p) := by
  unfold k3_pay12
  simp only [divf_apply, addf_apply, mulf_apply, bc_apply, pay7_apply, pay8_apply, pay9_apply, pay10_apply,
    pay11_apply]

theorem pay13_apply (v0 v2 : Vec Ideal S1024x40 .f32) (p : Fin 1024) (u : Fin 1) :
    k3_pay13 v0 v2 (ix2 p u) = unc v0 p * unc v2 p := by
  unfold k3_pay13
  simp only [mulf_apply, pay9_apply, pay10_apply]

/-- The first combination's result, from the three values the first stretch hands on. -/
theorem pay14_apply (v32 : FVec Ideal S1024x1 .f32) (v41 : FVec Ideal S1024x40 .f32) (v42 : FVec Ideal S1024x1 .f32)
    (p : Fin 1024) (q : Fin 40) :
    k3_pay14 v32 v41 v42 (ix2 p q)
      = v41 (ix2 p q) * Ideal.div fortyW (Ideal.div (v42 (ix2 p (0 : Fin 1))) (v32 (ix2 p (0 : Fin 1)))) + oneW := by
  unfold k3_pay14
  simp only [addf_apply, mulf_apply, divf_apply, bc_apply, broadcast_word_apply]

/-- The first stretch computes the combination of the first two blocks. -/
theorem first_eq (x0 x1 : Vec Ideal S1024x40 .f32) :
    k3_pay14 (k3_pay11 x0 x1) (k3_pay12 x0 x1) (k3_pay13 x0 x1) = combine x0 x1 := by
  funext j
  obtain ⟨p, q, rfl⟩ : ∃ (p : Fin 1024) (q : Fin 40), j = ix2 p q := ⟨j 0, j 1, eq_ix2 j⟩
  rw [pay14_apply, pay11_apply, pay12_apply, pay13_apply, combine_apply]

/-! ## The second combination, on the first's result and the third block -/

section second

variable (v5 : FVec Ideal S1024x40 .f32) (v32 : FVec Ideal S1024x1 .f32) (v41 : FVec Ideal S1024x40 .f32)
  (v42 : FVec Ideal S1024x1 .f32)

theorem pay15_apply (p : Fin 1024) (u : Fin 1) :
    k3_pay15 v32 v41 v42 (ix2 p u) = rowSum (k3_pay14 v32 v41 v42) p :=
  colSum_apply (k3_pay14 v32 v41 v42) p u

theorem pay16_apply (p : Fin 1024) (u : Fin 1) : k3_pay16 v5 (ix2 p u) = rowSum v5 p :=
  colSum_apply v5 p u

theorem pay17_apply (p : Fin 1024) (q : Fin 40) :
    k3_pay17 v32 v41 v42 (ix2 p q) = belief (k3_pay14 v32 v41 v42) p q := by
  unfold k3_pay17
  simp only [divf_apply, subf_apply, broadcast_word_apply, bc_apply, pay15_apply]
  rfl

theorem pay18_apply (p : Fin 1024) (q : Fin 40) : k3_pay18 v5 (ix2 p q) = belief v5 p q := by
  unfold k3_pay18
  simp only [divf_apply, subf_apply, broadcast_word_apply, bc_apply, pay16_apply]
  rfl

theorem pay19_apply (p : Fin 1024) (u : Fin 1) :
    k3_pay19 v32 v41 v42 (ix2 p u) = unc (k3_pay14 v32 v41 v42) p := by
  unfold k3_pay19
  simp only [divf_apply, broadcast_word_apply, pay15_apply]
  rfl

theorem pay20_apply (p : Fin 1024) (u : Fin 1) : k3_pay20 v5 (ix2 p u) = unc v5 p := by
  unfold k3_pay20
  simp only [divf_apply, broadcast_word_apply, pay16_apply]
  rfl

theorem pay21_eq :
    k3_pay21 v5 v32 v41 v42
      = subf (broadcast S1024x1 (Scalar.ofBits (F := Ideal) .f32 0x3F800000#32))
          (subf (mulf (colSum (k3_pay17 v32 v41 v42)) (colSum (k3_pay18 v5)))
            (colSum (mulf (k3_pay17 v32 v41 v42) (k3_pay18 v5)))) := rfl

theorem pay21_apply (p : Fin 1024) (u : Fin 1) :
    k3_pay21 v5 v32 v41 v42 (ix2 p u) = agree (k3_pay14 v32 v41 v42) v5 p := by
  rw [pay21_eq]
  simp only [subf_apply, mulf_apply, broadcast_word_apply, colSum_apply, pay17_apply, pay18_apply]
  rfl

theorem pay22_apply (p : Fin 1024) (q : Fin 40) :
    k3_pay22 v5 v32 v41 v42 (ix2 p q)
      = Ideal.div ((belief (k3_pay14 v32 v41 v42) p q * belief v5 p q
            + belief (k3_pay14 v32 v41 v42) p q * unc v5 p) + belief v5 p q * unc (k3_pay14 v32 v41 v42) p)
          (agree (k3_pay14 v32 v41 v42) v5 p) := by
  unfold k3_pay22
  simp only [divf_apply, addf_apply, mulf_apply, bc_apply, pay17_apply, pay18_apply, pay19_apply, pay20_apply,
    pay21_apply]

theorem pay23_apply (p : Fin 1024) (u : Fin 1) :
    k3_pay23 v5 v32 v41 v42 (ix2 p u)
      = Ideal.div fortyW (Ideal.div (unc (k3_pay14 v32 v41 v42) p * unc v5 p) (agree (k3_pay14 v32 v41 v42) v5 p)) := by
  unfold k3_pay23
  simp only [divf_apply, mulf_apply, broadcast_word_apply, pay19_apply, pay20_apply, pay21_apply]

end second

/-- The last step: the quotient block times the spread column, plus one. -/
theorem pay1_apply (v85 : FVec Ideal S1024x40 .f32) (v89 : FVec Ideal S1024x1 .f32) (p : Fin 1024) (q : Fin 40) :
    k3_pay1 v85 v89 (ix2 p q) = v85 (ix2 p q) * v89 (ix2 p (0 : Fin 1)) + oneW := by
  unfold k3_pay1
  simp only [addf_apply, mulf_apply, bc_apply, broadcast_word_apply]

/-- The second stretch computes the combination of the first's result and the third block. -/
theorem second_apply (v5 : FVec Ideal S1024x40 .f32) (v32 : FVec Ideal S1024x1 .f32) (v41 : FVec Ideal S1024x40 .f32)
    (v42 : FVec Ideal S1024x1 .f32) (p : Fin 1024) (q : Fin 40) :
    k3_pay1 (k3_pay22 v5 v32 v41 v42) (k3_pay23 v5 v32 v41 v42) (ix2 p q)
      = combine (k3_pay14 v32 v41 v42) v5 (ix2 p q) := by
  rw [pay1_apply, pay22_apply, pay23_apply, combine_apply]

/-- The tile of the fourth kernel: entry `(p, q)` of what the body stores is the combination of the combination of the
    first two loaded blocks with the third. -/
theorem combine_tile (x0 x1 x2 : Vec Ideal S1024x40 .f32) (p : Fin 1024) (q : Fin 40) :
    k3_pay1 (k3_pay22 (k3_pay4 x2) (k3_pay11 x0 x1) (k3_pay12 x0 x1) (k3_pay13 x0 x1)) (k3_pay23 (k3_pay4 x2) (k3_pay11 x0 x1) (k3_pay12 x0 x1) (k3_pay13 x0 x1)) (ix2 p q)
      = combine (combine x0 x1) x2 (ix2 p q) := by
  rw [second_apply, first_eq, pay4_eq]

end Cert.KernelIdeal.Tile

end
-- ==== Proof.CombineRegion.lean ====
/-
  The combination region: its output array after the run.

  The region tiles the 32768 rows of its three operands and of its result into 32 blocks of 1024 rows, all with the
  same block index.  Row r of the combined parameters is a function of rows r of the operands alone, so the block point
  t writes back is rows 1024 t … 1024 t + 1023 of the combination of the WHOLE arrays, and the 32 blocks tile the
  result.
-/
import proofs.«106370_j5145370821142_2_alg».proof.Proof.Gen.KernelIdeal.Frame
import proofs.«106370_j5145370821142_2_alg».proof.Proof.Spec
import proofs.«106370_j5145370821142_2_alg».proof.Proof.RowVectors
import proofs.«106370_j5145370821142_2_alg».proof.Proof.CombineTile
import proofs.«106370_j5145370821142_2_alg».proof.Proof.EncoderRegionA
import Idealize.ShloMosaic.Lib.Pipeline.Value

set_option maxRecDepth 16384

noncomputable section

namespace Cert.KernelIdeal.Regions

open Cert.KernelIdeal Cert.KernelIdeal.Gen Cert.Evidence Cert.PallasLinear
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The combined parameters as one function of the three arrays the region finds. -/
abbrev G3 (c : Dev nD) : S32768x40.Idx → EReal := combine (combine (V c main_v19) (V c main_v20)) (V c main_v21)

theorem idx_facts3 : ∀ t : Fin cfg3.N, win3_0.index t (0 : Fin 2) = t.val ∧ win3_0.index t (1 : Fin 2) = 0
    ∧ win3_3.index t (0 : Fin 2) = t.val ∧ win3_3.index t (1 : Fin 2) = 0
    ∧ win3_1.index t (0 : Fin 2) = t.val ∧ win3_1.index t (1 : Fin 2) = 0
    ∧ win3_2.index t (0 : Fin 2) = t.val ∧ win3_2.index t (1 : Fin 2) = 0 :=
  (by decide +kernel : ∀ t : Fin grid3.N, _)

/-- What point t writes back is block t of the combination of the whole arrays. -/
theorem flushed3 (c : Dev nD) (t : Fin cfg3.N) :
    (dat3 V c).flushed 3 t = ((cfg3.win 3).blk t).view.read (Elt Ideal) (G3 V c) := by
  show (cfg3.win 3).cut (grid3.coords t) ((dat3 V c).after 3 t) = _
  rw [after3_3]
  unfold out3_3
  rw [View.canon_unit_zero hz]
  simp only [View.ld_unit_zero (S := S1024x40) hz]
  funext j
  obtain ⟨p, q, rfl⟩ : ∃ (p : Fin 1024) (q : Fin 40), j = ix2 p q := ⟨j 0, j 1, eq_ix2 j⟩
  show k3_pay1 (k3_pay22 (k3_pay4 (iblk3 V c 2 t)) (k3_pay11 (iblk3 V c 0 t) (iblk3 V c 1 t)) (k3_pay12 (iblk3 V c 0 t) (iblk3 V c 1 t))
        (k3_pay13 (iblk3 V c 0 t) (iblk3 V c 1 t)))
      (k3_pay23 (k3_pay4 (iblk3 V c 2 t)) (k3_pay11 (iblk3 V c 0 t) (iblk3 V c 1 t)) (k3_pay12 (iblk3 V c 0 t) (iblk3 V c 1 t))
        (k3_pay13 (iblk3 V c 0 t) (iblk3 V c 1 t))) (ix2 p q)
    = G3 V c (((cfg3.win 3).blk t).view.emb (ix2 p q))
  have ht : t.val < 32 := lt_of_lt_of_eq t.isLt N_3
  obtain ⟨i00, i01, i30, i31, i10, i11, i20, i21⟩ := idx_facts3 t
  refine (Tile.combine_tile (iblk3 V c 0 t) (iblk3 V c 1 t) (iblk3 V c 2 t) p q).trans ?_
  have hrow0 : ∀ k : Fin 40, ((cfg3.win 0).blk t).view.emb (ix2 p k)
      = ix2 (⟨t.val * 1024 + p.val, by omega⟩ : Fin 32768) k := fun k => funext fun a => Fin.ext (by
    match a with
    | ⟨0, _⟩ => exact ((cfg3.win 0).rect_emb_val t (ix2 p k) 0).trans (by rw [show (cfg3.win 0).index t 0 = t.val from i00]; rfl)
    | ⟨1, _⟩ => exact ((cfg3.win 0).rect_emb_val t (ix2 p k) 1).trans (by rw [show (cfg3.win 0).index t 1 = 0 from i01]; show 0 * 40 + k.val = k.val; omega))
  have hrow1 : ∀ k : Fin 40, ((cfg3.win 1).blk t).view.emb (ix2 p k)
      = ix2 (⟨t.val * 1024 + p.val, by omega⟩ : Fin 32768) k := fun k => funext fun a => Fin.ext (by
    match a with
    | ⟨0, _⟩ => exact ((cfg3.win 1).rect_emb_val t (ix2 p k) 0).trans (by rw [show (cfg3.win 1).index t 0 = t.val from i10]; rfl)
    | ⟨1, _⟩ => exact ((cfg3.win 1).rect_emb_val t (ix2 p k) 1).trans (by rw [show (cfg3.win 1).index t 1 = 0 from i11]; show 0 * 40 + k.val = k.val; omega))
  have hrow2 : ∀ k : Fin 40, ((cfg3.win 2).blk t).view.emb (ix2 p k)
      = ix2 (⟨t.val * 1024 + p.val, by omega⟩ : Fin 32768) k := fun k => funext fun a => Fin.ext (by
    match a with
    | ⟨0, _⟩ => exact ((cfg3.win 2).rect_emb_val t (ix2 p k) 0).trans (by rw [show (cfg3.win 2).index t 0 = t.val from i20]; rfl)
    | ⟨1, _⟩ => exact ((cfg3.win 2).rect_emb_val t (ix2 p k) 1).trans (by rw [show (cfg3.win 2).index t 1 = 0 from i21]; show 0 * 40 + k.val = k.val; omega))
  have hrow3 : ∀ k : Fin 40, ((cfg3.win 3).blk t).view.emb (ix2 p k)
      = ix2 (⟨t.val * 1024 + p.val, by omega⟩ : Fin 32768) k := fun k => funext fun a => Fin.ext (by
    match a with
    | ⟨0, _⟩ => exact ((cfg3.win 3).rect_emb_val t (ix2 p k) 0).trans (by rw [show (cfg3.win 3).index t 0 = t.val from i30]; rfl)
    | ⟨1, _⟩ => exact ((cfg3.win 3).rect_emb_val t (ix2 p k) 1).trans (by rw [show (cfg3.win 3).index t 1 = 0 from i31]; show 0 * 40 + k.val = k.val; omega))
  rw [hrow3 q]
  exact combine_row _ _ _ _ p _ q
    (fun k => combine_row _ _ _ _ p _ k (fun k' => congrArg (V c main_v19) (hrow0 k')) (fun k' => congrArg (V c main_v20) (hrow1 k')))
    (fun k => congrArg (V c main_v21) (hrow2 k))

/-- An index of the result array lies in point t's block iff each coordinate lies in the block's range. -/
theorem mem_blk3 (t : Fin cfg3.N) (i : S32768x40.Idx) :
    i ∈ ((cfg3.win 3).blk t).view.set ↔ ∀ a : Fin 2, win3_3.index t a * S1024x40.size a ≤ (i a).val
      ∧ (i a).val < win3_3.index t a * S1024x40.size a + S1024x40.size a := by
  show i ∈ ((View.whole main_v22).slice (win3_3.rect t)).set ↔ _
  rw [View.set_slice_whole, Rect.mem_set_unit]
  exact Iff.rfl

/-- Row r of the result lies in the block of the point r / 1024: the blocks tile the rows. -/
theorem cover3 (i : S32768x40.Idx) :
    ∃ t : Fin cfg3.N, (cfg3.win 3).flush t = true ∧ i ∈ ((cfg3.win 3).blk t).view.set := by
  have hi0 : (i 0).val < 32768 := (i 0).isLt
  have hi1 : (i 1).val < 40 := (i 1).isLt
  have hN : cfg3.N = 32 := N_3
  refine ⟨⟨(i 0).val / 1024, by rw [hN]; omega⟩, flush3_3 _, ?_⟩
  rw [mem_blk3]
  intro a
  obtain ⟨-, -, e0, e1, -⟩ := idx_facts3 ⟨(i 0).val / 1024, by rw [hN]; omega⟩
  match a with
  | ⟨0, _⟩ =>
    show win3_3.index _ (0 : Fin 2) * 1024 ≤ (i 0).val ∧ (i 0).val < win3_3.index _ (0 : Fin 2) * 1024 + 1024
    rw [e0]
    show (i 0).val / 1024 * 1024 ≤ (i 0).val ∧ (i 0).val < (i 0).val / 1024 * 1024 + 1024
    omega
  | ⟨1, _⟩ =>
    show win3_3.index _ (1 : Fin 2) * 40 ≤ (i 1).val ∧ (i 1).val < win3_3.index _ (1 : Fin 2) * 40 + 40
    rw [e1]
    omega

/-- The array the combination region leaves is the combination of the arrays it found. -/
theorem region3 (c : Dev nD) : (dat3 V c).arrAt 3 cfg3.N = G3 V c :=
  (dat3 V c).arrAt_eq_of_cover 3 (G3 V c) (fun t _ => flushed3 V c t) cover3

end Cert.KernelIdeal.Regions

end
-- ==== Proof.KernelValue.lean ====
/-
  The idealized kernel's four results as functions of the launch memory.

  The first two regions each leave an encoder of one input, the third the encoder of the two inputs side by side, the
  fourth the belief combination of the three; every buffer a region reads is followed back through the earlier
  segments to the host stretch that wrote it or to the launch memory.  Each result is therefore one explicit function
  of the argument arrays, and the run ends with the four result buffers at those functions and the arguments unchanged.
-/
import proofs.«106370_j5145370821142_2_alg».proof.Proof.KernelRun
import proofs.«106370_j5145370821142_2_alg».proof.Proof.Fold
import proofs.«106370_j5145370821142_2_alg».proof.Proof.HostPrep
import proofs.«106370_j5145370821142_2_alg».proof.Proof.EncoderRegionA
import proofs.«106370_j5145370821142_2_alg».proof.Proof.EncoderRegionB
import proofs.«106370_j5145370821142_2_alg».proof.Proof.PairRegion
import proofs.«106370_j5145370821142_2_alg».proof.Proof.CombineRegion

set_option maxRecDepth 16384

noncomputable section

namespace Cert.KernelIdeal.Arrays

open Cert.KernelIdeal Cert.KernelIdeal.Gen Cert.Evidence Cert.KernelIdeal.Fold Cert.KernelIdeal.Regions Cert.KernelIdeal.Prep
open Idealize.ShloMosaic Idealize.ShloMosaic.TcCoe Idealize.ShloMosaic.ValueIdx Idealize.SL.Sem

variable (m : (ℓ : Loc nD τ sig) → Buf (Elt Ideal) ℓ) (ρ : Dev nD → PrngReg) (c : Dev nD)

/-- The encoder of the first input. -/
def enc1 : S32768x40.Idx → EReal :=
  alpha (m ((c : Thread nD τ).loc main_arg0)) (m ((c : Thread nD τ).loc main_arg2)) (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8)) (m ((c : Thread nD τ).loc main_arg9))

/-- The encoder of the second input, with the same parameters. -/
def enc2 : S32768x40.Idx → EReal :=
  alpha (m ((c : Thread nD τ).loc main_arg1)) (m ((c : Thread nD τ).loc main_arg2)) (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8)) (m ((c : Thread nD τ).loc main_arg9))

/-- The encoder of the two inputs side by side. -/
def enc3 : S32768x40.Idx → EReal :=
  alphaPair (m ((c : Thread nD τ).loc main_arg0)) (m ((c : Thread nD τ).loc main_arg1)) (m ((c : Thread nD τ).loc main_arg10)) (m ((c : Thread nD τ).loc main_arg11)) (m ((c : Thread nD τ).loc main_arg12))
    (m ((c : Thread nD τ).loc main_arg13)) (m ((c : Thread nD τ).loc main_arg14)) (m ((c : Thread nD τ).loc main_arg15)) (m ((c : Thread nD τ).loc main_arg16)) (m ((c : Thread nD τ).loc main_arg17))

/-- The three belief assignments combined. -/
def comb : S32768x40.Idx → EReal := combine (combine (enc1 m c) (enc2 m c)) (enc3 m c)

/-- After the first region its output buffer holds the first encoder. -/
theorem w2_v19 : W2 m ρ c (Proc.devRef .tc main_v19) = enc1 m c := by
  refine (W2_arr m ρ c 9).trans ((region0 (V1 m ρ) c).trans ?_)
  unfold enc1
  rw [← prep_arg0 m ρ c, ← prep_v0 m ρ c, ← prep_v2 m ρ c, ← prep_v3 m ρ c, ← prep_v4 m ρ c, ← prep_v5 m ρ c, ← prep_v6 m ρ c,
    ← prep_v1 m ρ c, ← prep_v7 m ρ c]

/-- After the second region its output buffer holds the second encoder. -/
theorem w3_v20 : W3 m ρ c (Proc.devRef .tc main_v20) = enc2 m c := by
  refine (W3_arr m ρ c 9).trans ((region1 (V2 m ρ) c).trans ?_)
  have h0 : V2 m ρ c main_arg1 = V1 m ρ c main_arg1 := W2_of_ne m ρ c main_arg1 (by decide)
  have h1 : V2 m ρ c main_v0 = V1 m ρ c main_v0 := W2_in m ρ c 1 rfl
  have h2 : V2 m ρ c main_v2 = V1 m ρ c main_v2 := W2_in m ρ c 2 rfl
  have h3 : V2 m ρ c main_v3 = V1 m ρ c main_v3 := W2_in m ρ c 3 rfl
  have h4 : V2 m ρ c main_v4 = V1 m ρ c main_v4 := W2_in m ρ c 4 rfl
  have h5 : V2 m ρ c main_v5 = V1 m ρ c main_v5 := W2_in m ρ c 5 rfl
  have h6 : V2 m ρ c main_v6 = V1 m ρ c main_v6 := W2_in m ρ c 6 rfl
  have h7 : V2 m ρ c main_v1 = V1 m ρ c main_v1 := W2_in m ρ c 7 rfl
  have h8 : V2 m ρ c main_v7 = V1 m ρ c main_v7 := W2_in m ρ c 8 rfl
  show alpha (V2 m ρ c main_arg1) (V2 m ρ c main_v0) (vecOfRow (V2 m ρ c main_v2)) (vecOfRow (V2 m ρ c main_v3))
    (vecOfRow (V2 m ρ c main_v4)) (vecOfRow (V2 m ρ c main_v5)) (vecOfRow (V2 m ρ c main_v6)) (V2 m ρ c main_v1)
    (vecOfRow (V2 m ρ c main_v7)) = _
  rw [h0, h1, h2, h3, h4, h5, h6, h7, h8]
  unfold enc2
  rw [← prep_arg1 m ρ c, ← prep_v0 m ρ c, ← prep_v2 m ρ c, ← prep_v3 m ρ c, ← prep_v4 m ρ c, ← prep_v5 m ρ c, ← prep_v6 m ρ c,
    ← prep_v1 m ρ c, ← prep_v7 m ρ c]

/-- After the third region its output buffer holds the third encoder. -/
theorem w4_v21 : W4 m ρ c (Proc.devRef .tc main_v21) = enc3 m c := by
  refine (W4_arr m ρ c 11).trans ((region2 (V3 m ρ) c).trans ?_)
  have h0 : V3 m ρ c main_arg0 = V1 m ρ c main_arg0 := (W3_of_ne m ρ c main_arg0 (by decide)).trans (W2_in m ρ c 0 rfl)
  have h1 : V3 m ρ c main_arg1 = V1 m ρ c main_arg1 := (W3_in m ρ c 0 rfl).trans (W2_of_ne m ρ c main_arg1 (by decide))
  have h2 : V3 m ρ c main_v9 = V1 m ρ c main_v9 := (W3_of_ne m ρ c main_v9 (by decide)).trans (W2_of_ne m ρ c main_v9 (by decide))
  have h3 : V3 m ρ c main_v11 = V1 m ρ c main_v11 := (W3_of_ne m ρ c main_v11 (by decide)).trans (W2_of_ne m ρ c main_v11 (by decide))
  have h4 : V3 m ρ c main_v13 = V1 m ρ c main_v13 := (W3_of_ne m ρ c main_v13 (by decide)).trans (W2_of_ne m ρ c main_v13 (by decide))
  have h5 : V3 m ρ c main_v14 = V1 m ρ c main_v14 := (W3_of_ne m ρ c main_v14 (by decide)).trans (W2_of_ne m ρ c main_v14 (by decide))
  have h6 : V3 m ρ c main_v15 = V1 m ρ c main_v15 := (W3_of_ne m ρ c main_v15 (by decide)).trans (W2_of_ne m ρ c main_v15 (by decide))
  have h7 : V3 m ρ c main_v16 = V1 m ρ c main_v16 := (W3_of_ne m ρ c main_v16 (by decide)).trans (W2_of_ne m ρ c main_v16 (by decide))
  have h8 : V3 m ρ c main_v17 = V1 m ρ c main_v17 := (W3_of_ne m ρ c main_v17 (by decide)).trans (W2_of_ne m ρ c main_v17 (by decide))
  have h9 : V3 m ρ c main_v12 = V1 m ρ c main_v12 := (W3_of_ne m ρ c main_v12 (by decide)).trans (W2_of_ne m ρ c main_v12 (by decide))
  have h10 : V3 m ρ c main_v18 = V1 m ρ c main_v18 := (W3_of_ne m ρ c main_v18 (by decide)).trans (W2_of_ne m ρ c main_v18 (by decide))
  show pairEnc (V3 m ρ c main_arg0) (V3 m ρ c main_v9) (V3 m ρ c main_arg1) (V3 m ρ c main_v11) (vecOfRow (V3 m ρ c main_v13))
    (vecOfRow (V3 m ρ c main_v14)) (vecOfRow (V3 m ρ c main_v15)) (vecOfRow (V3 m ρ c main_v16)) (vecOfRow (V3 m ρ c main_v17))
    (V3 m ρ c main_v12) (vecOfRow (V3 m ρ c main_v18)) = _
  rw [h0, h1, h2, h3, h4, h5, h6, h7, h8, h9, h10]
  unfold enc3
  rw [alphaPair_eq_pairEnc, ← prep_arg0 m ρ c, ← prep_arg1 m ρ c, ← prep_v9 m ρ c, ← prep_v11 m ρ c, ← prep_v13 m ρ c,
    ← prep_v14 m ρ c, ← prep_v15 m ρ c, ← prep_v16 m ρ c, ← prep_v17 m ρ c, ← prep_v12 m ρ c, ← prep_v18 m ρ c]

/-- The first encoder's buffer is not written after its region. -/
theorem w4_v19 : W4 m ρ c (Proc.devRef .tc main_v19) = enc1 m c :=
  (W4_of_ne m ρ c main_v19 (by decide)).trans ((W3_of_ne m ρ c main_v19 (by decide)).trans (w2_v19 m ρ c))

/-- The second encoder's buffer is not written after its region. -/
theorem w4_v20 : W4 m ρ c (Proc.devRef .tc main_v20) = enc2 m c :=
  (W4_of_ne m ρ c main_v20 (by decide)).trans (w3_v20 m ρ c)

/-- The four result buffers after the last region. -/
theorem out_v19 : W5 m ρ c (Proc.devRef .tc main_v19) = enc1 m c := (W5_in m ρ c 0 rfl).trans (w4_v19 m ρ c)
theorem out_v20 : W5 m ρ c (Proc.devRef .tc main_v20) = enc2 m c := (W5_in m ρ c 1 rfl).trans (w4_v20 m ρ c)
theorem out_v21 : W5 m ρ c (Proc.devRef .tc main_v21) = enc3 m c := (W5_in m ρ c 2 rfl).trans (w4_v21 m ρ c)
theorem out_v22 : W5 m ρ c (Proc.devRef .tc main_v22) = comb m c := by
  refine (W5_arr m ρ c 3).trans ((region3 (V4 m ρ) c).trans ?_)
  show combine (combine (V4 m ρ c main_v19) (V4 m ρ c main_v20)) (V4 m ρ c main_v21) = _
  rw [show V4 m ρ c main_v19 = enc1 m c from w4_v19 m ρ c, show V4 m ρ c main_v20 = enc2 m c from w4_v20 m ρ c,
    show V4 m ρ c main_v21 = enc3 m c from w4_v21 m ρ c]
  rfl

/-- The run, read: every weakly fair execution ends with the four result buffers at their functions of the launch
    memory and the arguments as launched. -/
theorem run : θ_run defs (onTc (τ := τ) (main (F := Ideal))) ⟨m, fun _ => 0, ρ⟩ fun r => ∀ c : Dev nD,
      r.2.mem ((c.tc : Thread nD τ).loc main_v19) = enc1 m c
      ∧ r.2.mem ((c.tc : Thread nD τ).loc main_v20) = enc2 m c
      ∧ r.2.mem ((c.tc : Thread nD τ).loc main_v21) = enc3 m c
      ∧ r.2.mem ((c.tc : Thread nD τ).loc main_v22) = comb m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17) :=
  (θ_run defs _ _).mono (fun r h c => ⟨(h c _ (mem_uc main_v19 (by decide))).trans (out_v19 m ρ c),
      (h c _ (mem_uc main_v20 (by decide))).trans (out_v20 m ρ c),
      (h c _ (mem_uc main_v21 (by decide))).trans (out_v21 m ρ c),
      (h c _ (mem_uc main_v22 (by decide))).trans (out_v22 m ρ c),
      (h c _ (mem_uc main_arg0 (by decide))).trans (W5_main_arg0 m ρ c),
      (h c _ (mem_uc main_arg1 (by decide))).trans (W5_main_arg1 m ρ c),
      (h c _ (mem_uc main_arg2 (by decide))).trans (W5_main_arg2 m ρ c),
      (h c _ (mem_uc main_arg3 (by decide))).trans (W5_main_arg3 m ρ c),
      (h c _ (mem_uc main_arg4 (by decide))).trans (W5_main_arg4 m ρ c),
      (h c _ (mem_uc main_arg5 (by decide))).trans (W5_main_arg5 m ρ c),
      (h c _ (mem_uc main_arg6 (by decide))).trans (W5_main_arg6 m ρ c),
      (h c _ (mem_uc main_arg7 (by decide))).trans (W5_main_arg7 m ρ c),
      (h c _ (mem_uc main_arg8 (by decide))).trans (W5_main_arg8 m ρ c),
      (h c _ (mem_uc main_arg9 (by decide))).trans (W5_main_arg9 m ρ c),
      (h c _ (mem_uc main_arg10 (by decide))).trans (W5_main_arg10 m ρ c),
      (h c _ (mem_uc main_arg11 (by decide))).trans (W5_main_arg11 m ρ c),
      (h c _ (mem_uc main_arg12 (by decide))).trans (W5_main_arg12 m ρ c),
      (h c _ (mem_uc main_arg13 (by decide))).trans (W5_main_arg13 m ρ c),
      (h c _ (mem_uc main_arg14 (by decide))).trans (W5_main_arg14 m ρ c),
      (h c _ (mem_uc main_arg15 (by decide))).trans (W5_main_arg15 m ρ c),
      (h c _ (mem_uc main_arg16 (by decide))).trans (W5_main_arg16 m ρ c),
      (h c _ (mem_uc main_arg17 (by decide))).trans (W5_main_arg17 m ρ c)⟩)
    (Cert.KernelIdeal.Run.run_all m ρ)

end Cert.KernelIdeal.Arrays

end
-- ==== Proof.HostForms.lean ====
/-
  Host operations on arrays, read at an entry, for any sizes, at the exact values.

  * a scalar word spread over an array of any shape holds the word's value at every index (`splat_apply`);
  * a length-M vector laid out as an M x 1 column reads, at (p, u), the vector's entry p (`column_apply`), and an
    M x 1 column repeated along N columns reads, at (p, q), the column's entry (p, 0) (`columnSpread_apply`);
    the two steps together read the vector's entry p (`columnOf_apply`);
  * comparing a value with itself for "not equal" answers no (`cmp_une_self`), so the host's stable softplus, which
    guards against an undefined operand by such a comparison, takes its main branch: with one added it reads, entry by
    entry, max(o, 0) + log(1 + exp(-|o - 0|)) + 1 (`softplusPlusOne_apply`);
  * the host's sum of an M x N matrix over its second axis, started from the zero word, is at p the sum over the
    columns k of the entry (p, k) (`rowSum_apply`).
-/
import Idealize.ShloMosaic.Lib.Pipeline.Value
import Idealize.ShloMosaic.Lib.ValueIdx
import Idealize.ShloMosaic.PureOps.Ideal.Laws

noncomputable section

namespace Cert.HostForms

open Idealize.ShloMosaic Idealize.ShloMosaic.ValueIdx
open scoped BigOperators

variable {α : Type}

/-- A scalar word spread over an array: every entry is the word's value. -/
theorem splat_apply {t : Shape} (w : BitVec FTy.f32.bits)
    (h : (⟨0, ![]⟩ : Shape).BroadcastsInDim t (![] : Fin 0 → Fin t.rank)) (j : t.Idx) :
    broadcastInDim t ![] h (constant (F := Ideal) ⟨0, ![]⟩ .f32 w) j = Ideal.ofBits .f32 w :=
  broadcastInDim_apply ![] h _ j ix0 fun a => a.elim0

/-- A vector as an M x 1 column: entry (p, u) is the vector's entry p. -/
theorem column_apply {M : ℕ} (v : (⟨1, ![M]⟩ : Shape).Idx → α)
    (h : (⟨1, ![M]⟩ : Shape).BroadcastsInDim ⟨2, ![M, 1]⟩ (![0] : Fin 1 → Fin 2)) (p : Fin M) (u : Fin 1) :
    broadcastInDim ⟨2, ![M, 1]⟩ ![0] h v (ix2 p u) = v (ix1 p) := by
  refine broadcastInDim_apply ![0] h v (ix2 p u) (ix1 p) fun a => ?_
  match a with
  | ⟨0, _⟩ =>
    show p.val = if M = 1 then 0 else p.val
    split
    · have := p.isLt; omega
    · rfl

/-- An M x 1 column repeated along N columns: entry (p, q) is the column's entry (p, 0). -/
theorem columnSpread_apply {M N : ℕ} (c : (⟨2, ![M, 1]⟩ : Shape).Idx → α)
    (h : (⟨2, ![M, 1]⟩ : Shape).BroadcastsInDim ⟨2, ![M, N]⟩ (![0, 1] : Fin 2 → Fin 2)) (p : Fin M) (q : Fin N) :
    broadcastInDim ⟨2, ![M, N]⟩ ![0, 1] h c (ix2 p q) = c (ix2 p (0 : Fin 1)) := by
  refine broadcastInDim_apply ![0, 1] h c (ix2 p q) (ix2 p (0 : Fin 1)) fun a => ?_
  match a with
  | ⟨0, _⟩ =>
    show p.val = if M = 1 then 0 else p.val
    split
    · have := p.isLt; omega
    · rfl
  | ⟨1, _⟩ => show (0 : ℕ) = if (1 : ℕ) = 1 then 0 else _; rw [if_pos rfl]

/-- A vector made a column and repeated along N columns: entry (p, q) is the vector's entry p. -/
theorem columnOf_apply {M N : ℕ} (v : (⟨1, ![M]⟩ : Shape).Idx → α)
    (h₁ : (⟨1, ![M]⟩ : Shape).BroadcastsInDim ⟨2, ![M, 1]⟩ (![0] : Fin 1 → Fin 2))
    (h₂ : (⟨2, ![M, 1]⟩ : Shape).BroadcastsInDim ⟨2, ![M, N]⟩ (![0, 1] : Fin 2 → Fin 2)) (p : Fin M) (q : Fin N) :
    broadcastInDim ⟨2, ![M, N]⟩ ![0, 1] h₂ (broadcastInDim ⟨2, ![M, 1]⟩ ![0] h₁ v) (ix2 p q) = v (ix1 p) :=
  (columnSpread_apply _ h₂ p q).trans (column_apply v h₁ p 0)

/-- The host's sum over the second axis, from the zero word: at p, the sum over k of the entry (p, k). -/
theorem rowSum_apply {M N : ℕ} (a : FVec Ideal ⟨2, ![M, N]⟩ .f32)
    (h' : (⟨2, ![M, N]⟩ : Shape).ReducesTo [1] ⟨1, ![M]⟩) (h : (⟨2, ![M, N]⟩ : Shape).Reduces [1] ⟨1, ![M]⟩)
    (hu : 0 < (⟨0, ![]⟩ : Shape).numel) (p : Fin M) :
    Host.reduceAdd a (constant (F := Ideal) ⟨0, ![]⟩ .f32 0x00000000#32) h' hu (ix1 p) = ∑ k : Fin N, a (ix2 p k) := by
  simp only [Host.reduceAdd, Ideal.hostReduceAdd_def]
  rw [Ideal.hostReduceAdd_single h' h]
  show Ideal.ofBits .f32 0x00000000#32 + _ = _
  rw [Ideal.ofBits_zero_f32, zero_add]
  refine Finset.sum_congr rfl fun k _ => congrArg a (funext fun d => Fin.ext ?_)
  match d with
  | ⟨0, _⟩ => rfl
  | ⟨1, _⟩ => rfl

/-- No extended real differs from itself. -/
theorem cmp_une_self (d : EReal) : Ideal.cmp .une d d = 0#1 := by
  unfold Ideal.cmp
  simp

/-- The host's stable softplus, plus one, at an index: the comparison of o - 0 with itself picks the main branch,
    max(o, 0) + log1p(exp(-|o - 0|)), to which one is added. -/
theorem softplusPlusOne_apply {t : Shape} (o : FVec Ideal t .f32)
    (s : (⟨0, ![]⟩ : Shape).BroadcastsInDim t (![] : Fin 0 → Fin t.rank)) (j : t.Idx) :
    addf
        (select
          (cmpf .une (subf o (broadcastInDim t ![] s (constant (F := Ideal) ⟨0, ![]⟩ .f32 0x00000000#32)))
            (subf o (broadcastInDim t ![] s (constant (F := Ideal) ⟨0, ![]⟩ .f32 0x00000000#32))))
          (addf o (broadcastInDim t ![] s (constant (F := Ideal) ⟨0, ![]⟩ .f32 0x00000000#32)))
          (addf (maximumf o (broadcastInDim t ![] s (constant (F := Ideal) ⟨0, ![]⟩ .f32 0x00000000#32)))
            (Host.log1p (Host.exp (Host.negf (Host.absf
              (subf o (broadcastInDim t ![] s (constant (F := Ideal) ⟨0, ![]⟩ .f32 0x00000000#32)))))))))
        (broadcastInDim t ![] s (constant (F := Ideal) ⟨0, ![]⟩ .f32 0x3F800000#32)) j
      = (max (o j) (Ideal.ofBits .f32 0x00000000#32)
            + Ideal.log1p (Ideal.exp (-(max (o j - Ideal.ofBits .f32 0x00000000#32)
                (-(o j - Ideal.ofBits .f32 0x00000000#32))))))
          + Ideal.ofBits .f32 0x3F800000#32 := by
  simp only [addf, select, cmpf, subf, maximumf, Host.log1p, Host.exp, Host.negf, Host.absf, splat_apply]
  rw [Ideal.cmpf_def, cmp_une_self, select_zero]
  rfl

end Cert.HostForms

end
-- ==== Proof.RefEncoderStages.lean ====
/-
  The stages of an encoder, as the host spells them, are the specification's functions — for any sizes.

  * Normalisation by running statistics, scale, shift and rectifier: the four vectors are each made a 1 x H row and
    repeated down the rows, the variance offset and the zero are scalar words spread over their arrays, the rest is
    entrywise; entry (p, k) is max(((h(p, k) - rm k) * rsqrt(rv k + eps)) * g k + beta k, 0) (`normRelu_host`).
  * The stable softplus plus one, entry by entry (`softplusOne_host`).
  * A dense layer on two inputs laid side by side: the contraction over the 2048 joined columns splits into the
    contraction of the first input with the upper 1024 rows of the weights plus that of the second with the lower 1024
    rows (`affine_concat`).
-/
import proofs.«106370_j5145370821142_2_alg».proof.Proof.Spec
import proofs.«106370_j5145370821142_2_alg».proof.Proof.HostForms

noncomputable section

namespace Cert.RefValue

open Idealize.ShloMosaic Idealize.ShloMosaic.ValueIdx Cert.HostForms Cert.PallasLinear Cert.Evidence
open scoped BigOperators

/-- The host's normalisation by running statistics, scale, shift and rectifier is `normRelu`: each of the four
    vectors is made a 1 x H row and repeated down the rows, the variance offset and the zero are scalar words spread
    over their arrays, and the rest is entrywise. -/
theorem normRelu_host {M H : ℕ} (h : FVec Ideal ⟨2, ![M, H]⟩ .f32) (rm rv g beta : FVec Ideal ⟨1, ![H]⟩ .f32)
    (b₁ : (⟨1, ![H]⟩ : Shape).BroadcastsInDim ⟨2, ![1, H]⟩ (![1] : Fin 1 → Fin 2))
    (b₂ : (⟨2, ![1, H]⟩ : Shape).BroadcastsInDim ⟨2, ![M, H]⟩ (![0, 1] : Fin 2 → Fin 2))
    (s₁ : (⟨0, ![]⟩ : Shape).BroadcastsInDim ⟨1, ![H]⟩ (![] : Fin 0 → Fin 1))
    (s₂ : (⟨0, ![]⟩ : Shape).BroadcastsInDim ⟨2, ![M, H]⟩ (![] : Fin 0 → Fin 2)) :
    maximumf
        (addf
          (mulf
            (mulf (subf h (broadcastInDim ⟨2, ![M, H]⟩ ![0, 1] b₂ (broadcastInDim ⟨2, ![1, H]⟩ ![1] b₁ rm)))
              (broadcastInDim ⟨2, ![M, H]⟩ ![0, 1] b₂ (broadcastInDim ⟨2, ![1, H]⟩ ![1] b₁
                (Host.rsqrt (addf rv
                  (broadcastInDim ⟨1, ![H]⟩ ![] s₁ (constant (F := Ideal) ⟨0, ![]⟩ .f32 0x3727C5AC#32)))))))
            (broadcastInDim ⟨2, ![M, H]⟩ ![0, 1] b₂ (broadcastInDim ⟨2, ![1, H]⟩ ![1] b₁ g)))
          (broadcastInDim ⟨2, ![M, H]⟩ ![0, 1] b₂ (broadcastInDim ⟨2, ![1, H]⟩ ![1] b₁ beta)))
        (broadcastInDim ⟨2, ![M, H]⟩ ![] s₂ (constant (F := Ideal) ⟨0, ![]⟩ .f32 0x00000000#32))
      = normRelu h rm rv g beta := by
  funext j
  obtain ⟨p, k, rfl⟩ : ∃ (p : Fin M) (k : Fin H), j = ix2 p k := ⟨j 0, j 1, eq_ix2 j⟩
  rw [normRelu_apply]
  simp only [maximumf, addf, mulf, subf, Ideal.maximumf_def, Ideal.addf_def, Ideal.mulf_def, Ideal.subf_def]
  rw [Cert.Rank2.rowBias_apply rm b₁ b₂ p k, Cert.Rank2.rowBias_apply g b₁ b₂ p k,
    Cert.Rank2.rowBias_apply beta b₁ b₂ p k, Cert.Rank2.rowBias_apply _ b₁ b₂ p k, splat_apply]
  simp only [Host.rsqrt, addf, Ideal.hostUnary_rsqrt_def, Ideal.addf_def]
  rw [splat_apply]

/-- The host's stable softplus plus one, entry by entry, is `softplusOne`. -/
theorem softplusOne_host {t : Shape} (o : FVec Ideal t .f32)
    (s : (⟨0, ![]⟩ : Shape).BroadcastsInDim t (![] : Fin 0 → Fin t.rank)) :
    addf
        (select
          (cmpf .une (subf o (broadcastInDim t ![] s (constant (F := Ideal) ⟨0, ![]⟩ .f32 0x00000000#32)))
            (subf o (broadcastInDim t ![] s (constant (F := Ideal) ⟨0, ![]⟩ .f32 0x00000000#32))))
          (addf o (broadcastInDim t ![] s (constant (F := Ideal) ⟨0, ![]⟩ .f32 0x00000000#32)))
          (addf (maximumf o (broadcastInDim t ![] s (constant (F := Ideal) ⟨0, ![]⟩ .f32 0x00000000#32)))
            (Host.log1p (Host.exp (Host.negf (Host.absf
              (subf o (broadcastInDim t ![] s (constant (F := Ideal) ⟨0, ![]⟩ .f32 0x00000000#32)))))))))
        (broadcastInDim t ![] s (constant (F := Ideal) ⟨0, ![]⟩ .f32 0x3F800000#32))
      = fun i => softplusOne (o i) :=
  funext fun j => softplusPlusOne_apply o s j

/-- A dense layer on two inputs laid side by side is the sum of the two contractions against the upper and the lower
    half of the weight matrix, plus the bias: the sum over the 2048 joined columns splits into its two halves. -/
theorem affine_concat {M H : ℕ} (x xg : (⟨2, ![M, 1024]⟩ : Shape).Idx → EReal) (w : (⟨2, ![2048, H]⟩ : Shape).Idx → EReal)
    (b : (⟨1, ![H]⟩ : Shape).Idx → EReal)
    (hc : Shape.Concatenates [(⟨2, ![M, 1024]⟩ : Shape), ⟨2, ![M, 1024]⟩] ⟨2, ![M, 2048]⟩ 1) :
    affine (concatenate ⟨2, ![M, 2048]⟩ 1 [⟨⟨2, ![M, 1024]⟩, x⟩, ⟨⟨2, ![M, 1024]⟩, xg⟩] hc) w b
      = affine2 x (upperRows w) xg (lowerRows w) b := by
  funext j
  obtain ⟨p, q, rfl⟩ : ∃ (p : Fin M) (q : Fin H), j = ix2 p q := ⟨j 0, j 1, eq_ix2 j⟩
  rw [affine_apply, affine2_apply]
  congr 1
  refine (Fin.sum_univ_add (a := 1024) (b := 1024) fun k : Fin (1024 + 1024) =>
    concatenate ⟨2, ![M, 2048]⟩ 1 [⟨⟨2, ![M, 1024]⟩, x⟩, ⟨⟨2, ![M, 1024]⟩, xg⟩] hc (ix2 p k) * w (ix2 k q)).trans ?_
  congr 1
  · refine Finset.sum_congr rfl fun k _ => ?_
    rw [Cert.Rank2.concat_cols_left x xg hc p (Fin.castAdd 1024 k) k rfl]
    rfl
  · refine Finset.sum_congr rfl fun k _ => ?_
    rw [Cert.Rank2.concat_cols_right x xg hc p (Fin.natAdd 1024 k) k (Nat.add_comm _ _)]
    exact congrArg (fun a => xg (ix2 p k) * w (ix2 a q)) (Fin.ext (Nat.add_comm _ _))

end Cert.RefValue

end
-- ==== Proof.RefEncoders.lean ====
/-
  The reference's run, at its three encoder results, is the specification: the first two results are `alpha` of the
  first and of the second input with the shared parameters, the third is `alphaPair` of both inputs with the third
  encoder's parameters.

  Each result's term is the encoder written out operation by operation on the contents of the argument buffers. It is
  peeled from the outside in, each layer by its general form: the stable softplus plus one is `softplusOne` entry by
  entry (the value it uses five times is one variable of that form, so all its copies go at once); the second dense
  layer is `affine`; the normalisation, scale, shift and rectifier are `normRelu`; the first dense layer is `affine`,
  and for the third encoder, whose input is the two arrays laid side by side, `affine2` against the upper and lower
  halves of the weights.
-/
import proofs.«106370_j5145370821142_2_alg».proof.Proof.ReferenceRun
import proofs.«106370_j5145370821142_2_alg».proof.Proof.RefEncoderStages

noncomputable section

namespace Cert.RefValue

open Cert.ReferenceIdeal Cert.ReferenceIdeal.Gen Cert.ReferenceIdeal.ValueP Idealize.ShloMosaic Idealize.ShloMosaic.TcCoe
  Idealize.SL.Sem Idealize.ShloMosaic.StableHlo Cert.Evidence Cert.PallasLinear

/-- The first result of the reference's run is the encoder on the first input: peeled from the outside in, the stable
    softplus plus one, the second dense layer, the normalisation and rectifier, the first dense layer. -/
theorem res_alpha1 (m : (ℓ : Loc nD τ sig) → Buf (Elt Ideal) ℓ) (c : Dev nD) :
    res_main_v77 (F := Ideal) m c
      = alpha (m ((c.tc : Thread nD τ).loc main_arg0))
          (m ((c.tc : Thread nD τ).loc main_arg2))
          (m ((c.tc : Thread nD τ).loc main_arg3))
          (m ((c.tc : Thread nD τ).loc main_arg4))
          (m ((c.tc : Thread nD τ).loc main_arg5))
          (m ((c.tc : Thread nD τ).loc main_arg6))
          (m ((c.tc : Thread nD τ).loc main_arg7))
          (m ((c.tc : Thread nD τ).loc main_arg8))
          (m ((c.tc : Thread nD τ).loc main_arg9)) := by
  unfold res_main_v77
  refine (softplusOne_host _ _).trans ?_
  unfold alpha
  refine congrArg (fun (o : S32768x40.Idx → EReal) i => softplusOne (o i)) ?_
  refine (host_eq _ _ _ _ _ _).trans ?_
  refine congrArg (fun h => affine h _ _) ?_
  refine (normRelu_host _ _ _ _ _ _ _ _ _).trans ?_
  refine congrArg (fun h => normRelu h _ _ _ _) ?_
  exact host_eq _ _ _ _ _ _

/-- The second result is the same encoder on the second input. -/
theorem res_alpha2 (m : (ℓ : Loc nD τ sig) → Buf (Elt Ideal) ℓ) (c : Dev nD) :
    res_main_v79 (F := Ideal) m c
      = alpha (m ((c.tc : Thread nD τ).loc main_arg1))
          (m ((c.tc : Thread nD τ).loc main_arg2))
          (m ((c.tc : Thread nD τ).loc main_arg3))
          (m ((c.tc : Thread nD τ).loc main_arg4))
          (m ((c.tc : Thread nD τ).loc main_arg5))
          (m ((c.tc : Thread nD τ).loc main_arg6))
          (m ((c.tc : Thread nD τ).loc main_arg7))
          (m ((c.tc : Thread nD τ).loc main_arg8))
          (m ((c.tc : Thread nD τ).loc main_arg9)) := by
  unfold res_main_v79
  refine (softplusOne_host _ _).trans ?_
  unfold alpha
  refine congrArg (fun (o : S32768x40.Idx → EReal) i => softplusOne (o i)) ?_
  refine (host_eq _ _ _ _ _ _).trans ?_
  refine congrArg (fun h => affine h _ _) ?_
  refine (normRelu_host _ _ _ _ _ _ _ _ _).trans ?_
  refine congrArg (fun h => normRelu h _ _ _ _) ?_
  exact host_eq _ _ _ _ _ _

/-- The third result is the encoder on the two inputs laid side by side: its first dense layer contracts the joined
    array, which is the sum of the contractions against the upper and the lower half of the weights. -/
theorem res_alpha3 (m : (ℓ : Loc nD τ sig) → Buf (Elt Ideal) ℓ) (c : Dev nD) :
    res_main_v81 (F := Ideal) m c
      = alphaPair (m ((c.tc : Thread nD τ).loc main_arg0))
          (m ((c.tc : Thread nD τ).loc main_arg1))
          (m ((c.tc : Thread nD τ).loc main_arg10))
          (m ((c.tc : Thread nD τ).loc main_arg11))
          (m ((c.tc : Thread nD τ).loc main_arg12))
          (m ((c.tc : Thread nD τ).loc main_arg13))
          (m ((c.tc : Thread nD τ).loc main_arg14))
          (m ((c.tc : Thread nD τ).loc main_arg15))
          (m ((c.tc : Thread nD τ).loc main_arg16))
          (m ((c.tc : Thread nD τ).loc main_arg17)) := by
  unfold res_main_v81
  refine (softplusOne_host _ _).trans ?_
  unfold alphaPair
  refine congrArg (fun (o : S32768x40.Idx → EReal) i => softplusOne (o i)) ?_
  refine (host_eq _ _ _ _ _ _).trans ?_
  refine congrArg (fun h => affine h _ _) ?_
  refine (normRelu_host _ _ _ _ _ _ _ _ _).trans ?_
  refine congrArg (fun h => normRelu h _ _ _ _) ?_
  exact (host_eq _ _ _ _ _ _).trans (affine_concat _ _ _ _ _)

end Cert.RefValue

end
-- ==== Proof.RefCombineStages.lean ====
/-
  The combination of two arrays of Dirichlet parameters, as the host spells it, is the specification's `combine` — for
  any sizes.

  The host keeps each row sum as an M x 1 column (the sum over the second axis from the zero word, made a column),
  repeats a column along the N columns where an M x N array is needed, and spreads the words 1 and 40 over the arrays
  that need them; everything else is entrywise. Read at an entry, the column of row sums is `rowSum` (`sumCol_apply`),
  the belief masses are `belief` (`beliefH_apply`), the uncertainties `unc` (`uncH_apply`), one minus the conflict
  `agree` (`agreeH_apply`), and the whole operation sequence `combine` (`combineH_eq`).
-/
import proofs.«106370_j5145370821142_2_alg».proof.Proof.Spec
import proofs.«106370_j5145370821142_2_alg».proof.Proof.HostForms

noncomputable section

namespace Cert.RefValue

open Idealize.ShloMosaic Idealize.ShloMosaic.ValueIdx Cert.HostForms Cert.Evidence
open scoped BigOperators

section Combine

variable {M N : ℕ}
  (r' : (⟨2, ![M, N]⟩ : Shape).ReducesTo [1] ⟨1, ![M]⟩) (hu : 0 < (⟨0, ![]⟩ : Shape).numel)
  (c₁ : (⟨1, ![M]⟩ : Shape).BroadcastsInDim ⟨2, ![M, 1]⟩ (![0] : Fin 1 → Fin 2))
  (c₂ : (⟨2, ![M, 1]⟩ : Shape).BroadcastsInDim ⟨2, ![M, N]⟩ (![0, 1] : Fin 2 → Fin 2))
  (sMN : (⟨0, ![]⟩ : Shape).BroadcastsInDim ⟨2, ![M, N]⟩ (![] : Fin 0 → Fin 2))
  (sM1 : (⟨0, ![]⟩ : Shape).BroadcastsInDim ⟨2, ![M, 1]⟩ (![] : Fin 0 → Fin 2))
  (sM : (⟨0, ![]⟩ : Shape).BroadcastsInDim ⟨1, ![M]⟩ (![] : Fin 0 → Fin 1))

/-- The row sums of a matrix, kept as a column. -/
def sumCol (a : FVec Ideal ⟨2, ![M, N]⟩ .f32) : FVec Ideal ⟨2, ![M, 1]⟩ .f32 :=
  broadcastInDim ⟨2, ![M, 1]⟩ ![0] c₁ (Host.reduceAdd a (constant (F := Ideal) ⟨0, ![]⟩ .f32 0x00000000#32) r' hu)

/-- The belief masses as the host computes them: (a - 1) divided by the row sums repeated along the columns. -/
def beliefH (a : FVec Ideal ⟨2, ![M, N]⟩ .f32) : FVec Ideal ⟨2, ![M, N]⟩ .f32 :=
  Host.divf (subf a (broadcastInDim ⟨2, ![M, N]⟩ ![] sMN (constant (F := Ideal) ⟨0, ![]⟩ .f32 0x3F800000#32)))
    (broadcastInDim ⟨2, ![M, N]⟩ ![0, 1] c₂ (sumCol r' hu c₁ a))

/-- The uncertainties as the host computes them: a column of 40 divided by the column of row sums. -/
def uncH (a : FVec Ideal ⟨2, ![M, N]⟩ .f32) : FVec Ideal ⟨2, ![M, 1]⟩ .f32 :=
  Host.divf (broadcastInDim ⟨2, ![M, 1]⟩ ![] sM1 (constant (F := Ideal) ⟨0, ![]⟩ .f32 0x42200000#32)) (sumCol r' hu c₁ a)

/-- One minus the conflict as the host computes it, kept as a column. -/
def agreeH (a1 a2 : FVec Ideal ⟨2, ![M, N]⟩ .f32) : FVec Ideal ⟨2, ![M, 1]⟩ .f32 :=
  broadcastInDim ⟨2, ![M, 1]⟩ ![0] c₁
    (subf (broadcastInDim ⟨1, ![M]⟩ ![] sM (constant (F := Ideal) ⟨0, ![]⟩ .f32 0x3F800000#32))
      (subf
        (mulf
          (Host.reduceAdd (beliefH r' hu c₁ c₂ sMN a1) (constant (F := Ideal) ⟨0, ![]⟩ .f32 0x00000000#32) r' hu)
          (Host.reduceAdd (beliefH r' hu c₁ c₂ sMN a2) (constant (F := Ideal) ⟨0, ![]⟩ .f32 0x00000000#32) r' hu))
        (Host.reduceAdd (mulf (beliefH r' hu c₁ c₂ sMN a1) (beliefH r' hu c₁ c₂ sMN a2))
          (constant (F := Ideal) ⟨0, ![]⟩ .f32 0x00000000#32) r' hu)))

/-- The combination as the host computes it, operation by operation. -/
def combineH (a1 a2 : FVec Ideal ⟨2, ![M, N]⟩ .f32) : FVec Ideal ⟨2, ![M, N]⟩ .f32 :=
  addf
    (mulf
      (Host.divf
        (addf
          (addf (mulf (beliefH r' hu c₁ c₂ sMN a1) (beliefH r' hu c₁ c₂ sMN a2))
            (mulf (beliefH r' hu c₁ c₂ sMN a1) (broadcastInDim ⟨2, ![M, N]⟩ ![0, 1] c₂ (uncH r' hu c₁ sM1 a2))))
          (mulf (beliefH r' hu c₁ c₂ sMN a2) (broadcastInDim ⟨2, ![M, N]⟩ ![0, 1] c₂ (uncH r' hu c₁ sM1 a1))))
        (broadcastInDim ⟨2, ![M, N]⟩ ![0, 1] c₂ (agreeH r' hu c₁ c₂ sMN sM a1 a2)))
      (broadcastInDim ⟨2, ![M, N]⟩ ![0, 1] c₂
        (Host.divf (broadcastInDim ⟨2, ![M, 1]⟩ ![] sM1 (constant (F := Ideal) ⟨0, ![]⟩ .f32 0x42200000#32))
          (Host.divf (mulf (uncH r' hu c₁ sM1 a1) (uncH r' hu c₁ sM1 a2)) (agreeH r' hu c₁ c₂ sMN sM a1 a2)))))
    (broadcastInDim ⟨2, ![M, N]⟩ ![] sMN (constant (F := Ideal) ⟨0, ![]⟩ .f32 0x3F800000#32))

variable (r : (⟨2, ![M, N]⟩ : Shape).Reduces [1] ⟨1, ![M]⟩)
include r

theorem sumCol_apply (a : FVec Ideal ⟨2, ![M, N]⟩ .f32) (p : Fin M) (u : Fin 1) :
    sumCol r' hu c₁ a (ix2 p u) = rowSum a p := by
  unfold sumCol rowSum
  rw [column_apply, rowSum_apply a r' r hu p]

theorem beliefH_apply (a : FVec Ideal ⟨2, ![M, N]⟩ .f32) (p : Fin M) (q : Fin N) :
    beliefH r' hu c₁ c₂ sMN a (ix2 p q) = belief a p q := by
  unfold beliefH belief
  simp only [Host.divf, subf, Ideal.hostDivf_def, Ideal.subf_def]
  rw [columnSpread_apply, splat_apply, sumCol_apply r' hu c₁ r]

theorem uncH_apply (a : FVec Ideal ⟨2, ![M, N]⟩ .f32) (p : Fin M) (u : Fin 1) :
    uncH r' hu c₁ sM1 a (ix2 p u) = unc a p := by
  unfold uncH unc
  simp only [Host.divf, Ideal.hostDivf_def]
  rw [splat_apply, sumCol_apply r' hu c₁ r]

theorem agreeH_apply (a1 a2 : FVec Ideal ⟨2, ![M, N]⟩ .f32) (p : Fin M) (u : Fin 1) :
    agreeH r' hu c₁ c₂ sMN sM a1 a2 (ix2 p u) = agree a1 a2 p := by
  unfold agreeH agree
  rw [column_apply]
  simp only [subf, mulf, Ideal.subf_def, Ideal.mulf_def, rowSum_apply _ r' r hu, beliefH_apply r' hu c₁ c₂ sMN r]
  rw [splat_apply]

/-- The host's operation sequence computes the combination. -/
theorem combineH_eq (a1 a2 : FVec Ideal ⟨2, ![M, N]⟩ .f32) :
    combineH r' hu c₁ c₂ sMN sM1 sM a1 a2 = combine a1 a2 := by
  funext j
  obtain ⟨p, q, rfl⟩ : ∃ (p : Fin M) (q : Fin N), j = ix2 p q := ⟨j 0, j 1, eq_ix2 j⟩
  rw [combine_apply]
  unfold combineH
  simp only [addf, mulf, Host.divf, Ideal.addf_def, Ideal.mulf_def, Ideal.hostDivf_def]
  rw [columnSpread_apply, columnSpread_apply, columnSpread_apply, columnSpread_apply, splat_apply]
  simp only [mulf, Host.divf, Ideal.mulf_def, Ideal.hostDivf_def]
  rw [splat_apply]
  simp only [beliefH_apply r' hu c₁ c₂ sMN r, uncH_apply r' hu c₁ sM1 r, agreeH_apply r' hu c₁ c₂ sMN sM r]

end Combine

end Cert.RefValue

end
-- ==== Proof.RefCombineRun.lean ====
/-
  The reference's belief combination, read off its line of host operations.

  The last 108 operations of the reference's line are two runs of the same 54 operations: the first combines the first
  two encoder results (`main_v77`, `main_v79`) into `main_v123`, the second combines `main_v123` with the third
  encoder result (`main_v81`) into `main_v165`.  Each run is read over an arbitrary valuation of the buffers: it leaves
  the host's combination of the two arrays it starts from, and it writes none of the three encoder results.  The line is
  its first 133 operations followed by the two runs, and the fold over a concatenation is the fold over the second part
  of the fold over the first; so the fold of the whole line at `main_v165` is the combination of the combination of the
  line's values at `main_v77` and `main_v79` with its value at `main_v81`, and these three are the encoders' terms.
-/
import proofs.«106370_j5145370821142_2_alg».proof.Proof.ReferenceRun
import proofs.«106370_j5145370821142_2_alg».proof.Proof.RefCombineStages
import Idealize.ShloMosaic.Lib.StableHlo.Run
import Idealize.ShloMosaic.Lib.Pipeline.Frame

noncomputable section

namespace Cert.RefValue

open Cert.ReferenceIdeal Cert.ReferenceIdeal.Gen Cert.ReferenceIdeal.ValueP Cert.Evidence Idealize.ShloMosaic Idealize.ShloMosaic.TcCoe Idealize.SL.Sem Idealize.ShloMosaic.StableHlo

section Lines

variable {F : FTy → Type} [FloatOps F]

/-- The first combination's operations: the 54 operations from the zero word of the first row sum to `main_v123`. -/
abbrev stretch1 : List (HloOp τ sig (Elt F)) :=
  [
    nullary main_cst_5 (constant S_ .f32 0x00000000#32),
    binary main_v77 main_cst_5 main_v82 ((fun x v => Host.reduceAdd x v reducesTo_S32768x40_S32768_d1 h_S_) : (⟨S32768x40, .f32⟩ : BufTy).Contents (Elt F) → (⟨S_, .f32⟩ : BufTy).Contents (Elt F) → (⟨S32768, .f32⟩ : BufTy).Contents (Elt F)),
    unary main_v82 main_v83 (broadcastInDim S32768x1 ![0] bcast_S32768_S32768x1_0 : (⟨S32768, .f32⟩ : BufTy).Contents (Elt F) → (⟨S32768x1, .f32⟩ : BufTy).Contents (Elt F)),
    nullary main_cst_6 (constant S_ .f32 0x00000000#32),
    binary main_v79 main_cst_6 main_v84 ((fun x v => Host.reduceAdd x v reducesTo_S32768x40_S32768_d1 h_S_) : (⟨S32768x40, .f32⟩ : BufTy).Contents (Elt F) → (⟨S_, .f32⟩ : BufTy).Contents (Elt F) → (⟨S32768, .f32⟩ : BufTy).Contents (Elt F)),
    unary main_v84 main_v85 (broadcastInDim S32768x1 ![0] bcast_S32768_S32768x1_0 : (⟨S32768, .f32⟩ : BufTy).Contents (Elt F) → (⟨S32768x1, .f32⟩ : BufTy).Contents (Elt F)),
    nullary main_cst_7 (constant S_ .f32 0x3F800000#32),
    unary main_cst_7 main_v86 (broadcastInDim S32768x40 ![] bcast_S_S32768x40 : (⟨S_, .f32⟩ : BufTy).Contents (Elt F) → (⟨S32768x40, .f32⟩ : BufTy).Contents (Elt F)),
    binary main_v77 main_v86 main_v87 (subf : (⟨S32768x40, .f32⟩ : BufTy).Contents (Elt F) → (⟨S32768x40, .f32⟩ : BufTy).Contents (Elt F) → (⟨S32768x40, .f32⟩ : BufTy).Contents (Elt F)),
    unary main_v83 main_v88 (broadcastInDim S32768x40 ![0, 1] bcast_S32768x1_S32768x40_0_1 : (⟨S32768x1, .f32⟩ : BufTy).Contents (Elt F) → (⟨S32768x40, .f32⟩ : BufTy).Contents (Elt F)),
    binary main_v87 main_v88 main_v89 (Host.divf : (⟨S32768x40, .f32⟩ : BufTy).Contents (Elt F) → (⟨S32768x40, .f32⟩ : BufTy).Contents (Elt F) → (⟨S32768x40, .f32⟩ : BufTy).Contents (Elt F)),
    nullary main_cst_8 (constant S_ .f32 0x3F800000#32),
    unary main_cst_8 main_v90 (broadcastInDim S32768x40 ![] bcast_S_S32768x40 : (⟨S_, .f32⟩ : BufTy).Contents (Elt F) → (⟨S32768x40, .f32⟩ : BufTy).Contents (Elt F)),
    binary main_v79 main_v90 main_v91 (subf : (⟨S32768x40, .f32⟩ : BufTy).Contents (Elt F) → (⟨S32768x40, .f32⟩ : BufTy).Contents (Elt F) → (⟨S32768x40, .f32⟩ : BufTy).Contents (Elt F)),
    unary main_v85 main_v92 (broadcastInDim S32768x40 ![0, 1] bcast_S32768x1_S32768x40_0_1 : (⟨S32768x1, .f32⟩ : BufTy).Contents (Elt F) → (⟨S32768x40, .f32⟩ : BufTy).Contents (Elt F)),
    binary main_v91 main_v92 main_v93 (Host.divf : (⟨S32768x40, .f32⟩ : BufTy).Contents (Elt F) → (⟨S32768x40, .f32⟩ : BufTy).Contents (Elt F) → (⟨S32768x40, .f32⟩ : BufTy).Contents (Elt F)),
    nullary main_cst_9 (constant S_ .f32 0x42200000#32),
    unary main_cst_9 main_v94 (broadcastInDim S32768x1 ![] bcast_S_S32768x1 : (⟨S_, .f32⟩ : BufTy).Contents (Elt F) → (⟨S32768x1, .f32⟩ : BufTy).Contents (Elt F)),
    binary main_v94 main_v83 main_v95 (Host.divf : (⟨S32768x1, .f32⟩ : BufTy).Contents (Elt F) → (⟨S32768x1, .f32⟩ : BufTy).Contents (Elt F) → (⟨S32768x1, .f32⟩ : BufTy).Contents (Elt F)),
    nullary main_cst_10 (constant S_ .f32 0x42200000#32),
    unary main_cst_10 main_v96 (broadcastInDim S32768x1 ![] bcast_S_S32768x1 : (⟨S_, .f32⟩ : BufTy).Contents (Elt F) → (⟨S32768x1, .f32⟩ : BufTy).Contents (Elt F)),
    binary main_v96 main_v85 main_v97 (Host.divf : (⟨S32768x1, .f32⟩ : BufTy).Contents (Elt F) → (⟨S32768x1, .f32⟩ : BufTy).Contents (Elt F) → (⟨S32768x1, .f32⟩ : BufTy).Contents (Elt F)),
    nullary main_cst_11 (constant S_ .f32 0x00000000#32),
    binary main_v89 main_cst_11 main_v98 ((fun x v => Host.reduceAdd x v reducesTo_S32768x40_S32768_d1 h_S_) : (⟨S32768x40, .f32⟩ : BufTy).Contents (Elt F) → (⟨S_, .f32⟩ : BufTy).Contents (Elt F) → (⟨S32768, .f32⟩ : BufTy).Contents (Elt F)),
    nullary main_cst_12 (constant S_ .f32 0x00000000#32),
    binary main_v93 main_cst_12 main_v99 ((fun x v => Host.reduceAdd x v reducesTo_S32768x40_S32768_d1 h_S_) : (⟨S32768x40, .f32⟩ : BufTy).Contents (Elt F) → (⟨S_, .f32⟩ : BufTy).Contents (Elt F) → (⟨S32768, .f32⟩ : BufTy).Contents (Elt F)),
    binary main_v98 main_v99 main_v100 (mulf : (⟨S32768, .f32⟩ : BufTy).Contents (Elt F) → (⟨S32768, .f32⟩ : BufTy).Contents (Elt F) → (⟨S32768, .f32⟩ : BufTy).Contents (Elt F)),
    binary main_v89 main_v93 main_v101 (mulf : (⟨S32768x40, .f32⟩ : BufTy).Contents (Elt F) → (⟨S32768x40, .f32⟩ : BufTy).Contents (Elt F) → (⟨S32768x40, .f32⟩ : BufTy).Contents (Elt F)),
    nullary main_cst_13 (constant S_ .f32 0x00000000#32),
    binary main_v101 main_cst_13 main_v102 ((fun x v => Host.reduceAdd x v reducesTo_S32768x40_S32768_d1 h_S_) : (⟨S32768x40, .f32⟩ : BufTy).Contents (Elt F) → (⟨S_, .f32⟩ : BufTy).Contents (Elt F) → (⟨S32768, .f32⟩ : BufTy).Contents (Elt F)),
    binary main_v100 main_v102 main_v103 (subf : (⟨S32768, .f32⟩ : BufTy).Contents (Elt F) → (⟨S32768, .f32⟩ : BufTy).Contents (Elt F) → (⟨S32768, .f32⟩ : BufTy).Contents (Elt F)),
    nullary main_cst_14 (constant S_ .f32 0x3F800000#32),
    unary main_cst_14 main_v104 (broadcastInDim S32768 ![] bcast_S_S32768 : (⟨S_, .f32⟩ : BufTy).Contents (Elt F) → (⟨S32768, .f32⟩ : BufTy).Contents (Elt F)),
    binary main_v104 main_v103 main_v105 (subf : (⟨S32768, .f32⟩ : BufTy).Contents (Elt F) → (⟨S32768, .f32⟩ : BufTy).Contents (Elt F) → (⟨S32768, .f32⟩ : BufTy).Contents (Elt F)),
    unary main_v105 main_v106 (broadcastInDim S32768x1 ![0] bcast_S32768_S32768x1_0 : (⟨S32768, .f32⟩ : BufTy).Contents (Elt F) → (⟨S32768x1, .f32⟩ : BufTy).Contents (Elt F)),
    binary main_v89 main_v93 main_v107 (mulf : (⟨S32768x40, .f32⟩ : BufTy).Contents (Elt F) → (⟨S32768x40, .f32⟩ : BufTy).Contents (Elt F) → (⟨S32768x40, .f32⟩ : BufTy).Contents (Elt F)),
    unary main_v97 main_v108 (broadcastInDim S32768x40 ![0, 1] bcast_S32768x1_S32768x40_0_1 : (⟨S32768x1, .f32⟩ : BufTy).Contents (Elt F) → (⟨S32768x40, .f32⟩ : BufTy).Contents (Elt F)),
    binary main_v89 main_v108 main_v109 (mulf : (⟨S32768x40, .f32⟩ : BufTy).Contents (Elt F) → (⟨S32768x40, .f32⟩ : BufTy).Contents (Elt F) → (⟨S32768x40, .f32⟩ : BufTy).Contents (Elt F)),
    binary main_v107 main_v109 main_v110 (addf : (⟨S32768x40, .f32⟩ : BufTy).Contents (Elt F) → (⟨S32768x40, .f32⟩ : BufTy).Contents (Elt F) → (⟨S32768x40, .f32⟩ : BufTy).Contents (Elt F)),
    unary main_v95 main_v111 (broadcastInDim S32768x40 ![0, 1] bcast_S32768x1_S32768x40_0_1 : (⟨S32768x1, .f32⟩ : BufTy).Contents (Elt F) → (⟨S32768x40, .f32⟩ : BufTy).Contents (Elt F)),
    binary main_v93 main_v111 main_v112 (mulf : (⟨S32768x40, .f32⟩ : BufTy).Contents (Elt F) → (⟨S32768x40, .f32⟩ : BufTy).Contents (Elt F) → (⟨S32768x40, .f32⟩ : BufTy).Contents (Elt F)),
    binary main_v110 main_v112 main_v113 (addf : (⟨S32768x40, .f32⟩ : BufTy).Contents (Elt F) → (⟨S32768x40, .f32⟩ : BufTy).Contents (Elt F) → (⟨S32768x40, .f32⟩ : BufTy).Contents (Elt F)),
    unary main_v106 main_v114 (broadcastInDim S32768x40 ![0, 1] bcast_S32768x1_S32768x40_0_1 : (⟨S32768x1, .f32⟩ : BufTy).Contents (Elt F) → (⟨S32768x40, .f32⟩ : BufTy).Contents (Elt F)),
    binary main_v113 main_v114 main_v115 (Host.divf : (⟨S32768x40, .f32⟩ : BufTy).Contents (Elt F) → (⟨S32768x40, .f32⟩ : BufTy).Contents (Elt F) → (⟨S32768x40, .f32⟩ : BufTy).Contents (Elt F)),
    binary main_v95 main_v97 main_v116 (mulf : (⟨S32768x1, .f32⟩ : BufTy).Contents (Elt F) → (⟨S32768x1, .f32⟩ : BufTy).Contents (Elt F) → (⟨S32768x1, .f32⟩ : BufTy).Contents (Elt F)),
    binary main_v116 main_v106 main_v117 (Host.divf : (⟨S32768x1, .f32⟩ : BufTy).Contents (Elt F) → (⟨S32768x1, .f32⟩ : BufTy).Contents (Elt F) → (⟨S32768x1, .f32⟩ : BufTy).Contents (Elt F)),
    nullary main_cst_15 (constant S_ .f32 0x42200000#32),
    unary main_cst_15 main_v118 (broadcastInDim S32768x1 ![] bcast_S_S32768x1 : (⟨S_, .f32⟩ : BufTy).Contents (Elt F) → (⟨S32768x1, .f32⟩ : BufTy).Contents (Elt F)),
    binary main_v118 main_v117 main_v119 (Host.divf : (⟨S32768x1, .f32⟩ : BufTy).Contents (Elt F) → (⟨S32768x1, .f32⟩ : BufTy).Contents (Elt F) → (⟨S32768x1, .f32⟩ : BufTy).Contents (Elt F)),
    unary main_v119 main_v120 (broadcastInDim S32768x40 ![0, 1] bcast_S32768x1_S32768x40_0_1 : (⟨S32768x1, .f32⟩ : BufTy).Contents (Elt F) → (⟨S32768x40, .f32⟩ : BufTy).Contents (Elt F)),
    binary main_v115 main_v120 main_v121 (mulf : (⟨S32768x40, .f32⟩ : BufTy).Contents (Elt F) → (⟨S32768x40, .f32⟩ : BufTy).Contents (Elt F) → (⟨S32768x40, .f32⟩ : BufTy).Contents (Elt F)),
    nullary main_cst_16 (constant S_ .f32 0x3F800000#32),
    unary main_cst_16 main_v122 (broadcastInDim S32768x40 ![] bcast_S_S32768x40 : (⟨S_, .f32⟩ : BufTy).Contents (Elt F) → (⟨S32768x40, .f32⟩ : BufTy).Contents (Elt F)),
    binary main_v121 main_v122 main_v123 (addf : (⟨S32768x40, .f32⟩ : BufTy).Contents (Elt F) → (⟨S32768x40, .f32⟩ : BufTy).Contents (Elt F) → (⟨S32768x40, .f32⟩ : BufTy).Contents (Elt F)) ]

/-- The second combination's operations: the 54 operations from the next zero word to `main_v165`. -/
abbrev stretch2 : List (HloOp τ sig (Elt F)) :=
  [
    nullary main_cst_17 (constant S_ .f32 0x00000000#32),
    binary main_v123 main_cst_17 main_v124 ((fun x v => Host.reduceAdd x v reducesTo_S32768x40_S32768_d1 h_S_) : (⟨S32768x40, .f32⟩ : BufTy).Contents (Elt F) → (⟨S_, .f32⟩ : BufTy).Contents (Elt F) → (⟨S32768, .f32⟩ : BufTy).Contents (Elt F)),
    unary main_v124 main_v125 (broadcastInDim S32768x1 ![0] bcast_S32768_S32768x1_0 : (⟨S32768, .f32⟩ : BufTy).Contents (Elt F) → (⟨S32768x1, .f32⟩ : BufTy).Contents (Elt F)),
    nullary main_cst_18 (constant S_ .f32 0x00000000#32),
    binary main_v81 main_cst_18 main_v126 ((fun x v => Host.reduceAdd x v reducesTo_S32768x40_S32768_d1 h_S_) : (⟨S32768x40, .f32⟩ : BufTy).Contents (Elt F) → (⟨S_, .f32⟩ : BufTy).Contents (Elt F) → (⟨S32768, .f32⟩ : BufTy).Contents (Elt F)),
    unary main_v126 main_v127 (broadcastInDim S32768x1 ![0] bcast_S32768_S32768x1_0 : (⟨S32768, .f32⟩ : BufTy).Contents (Elt F) → (⟨S32768x1, .f32⟩ : BufTy).Contents (Elt F)),
    nullary main_cst_19 (constant S_ .f32 0x3F800000#32),
    unary main_cst_19 main_v128 (broadcastInDim S32768x40 ![] bcast_S_S32768x40 : (⟨S_, .f32⟩ : BufTy).Contents (Elt F) → (⟨S32768x40, .f32⟩ : BufTy).Contents (Elt F)),
    binary main_v123 main_v128 main_v129 (subf : (⟨S32768x40, .f32⟩ : BufTy).Contents (Elt F) → (⟨S32768x40, .f32⟩ : BufTy).Contents (Elt F) → (⟨S32768x40, .f32⟩ : BufTy).Contents (Elt F)),
    unary main_v125 main_v130 (broadcastInDim S32768x40 ![0, 1] bcast_S32768x1_S32768x40_0_1 : (⟨S32768x1, .f32⟩ : BufTy).Contents (Elt F) → (⟨S32768x40, .f32⟩ : BufTy).Contents (Elt F)),
    binary main_v129 main_v130 main_v131 (Host.divf : (⟨S32768x40, .f32⟩ : BufTy).Contents (Elt F) → (⟨S32768x40, .f32⟩ : BufTy).Contents (Elt F) → (⟨S32768x40, .f32⟩ : BufTy).Contents (Elt F)),
    nullary main_cst_20 (constant S_ .f32 0x3F800000#32),
    unary main_cst_20 main_v132 (broadcastInDim S32768x40 ![] bcast_S_S32768x40 : (⟨S_, .f32⟩ : BufTy).Contents (Elt F) → (⟨S32768x40, .f32⟩ : BufTy).Contents (Elt F)),
    binary main_v81 main_v132 main_v133 (subf : (⟨S32768x40, .f32⟩ : BufTy).Contents (Elt F) → (⟨S32768x40, .f32⟩ : BufTy).Contents (Elt F) → (⟨S32768x40, .f32⟩ : BufTy).Contents (Elt F)),
    unary main_v127 main_v134 (broadcastInDim S32768x40 ![0, 1] bcast_S32768x1_S32768x40_0_1 : (⟨S32768x1, .f32⟩ : BufTy).Contents (Elt F) → (⟨S32768x40, .f32⟩ : BufTy).Contents (Elt F)),
    binary main_v133 main_v134 main_v135 (Host.divf : (⟨S32768x40, .f32⟩ : BufTy).Contents (Elt F) → (⟨S32768x40, .f32⟩ : BufTy).Contents (Elt F) → (⟨S32768x40, .f32⟩ : BufTy).Contents (Elt F)),
    nullary main_cst_21 (constant S_ .f32 0x42200000#32),
    unary main_cst_21 main_v136 (broadcastInDim S32768x1 ![] bcast_S_S32768x1 : (⟨S_, .f32⟩ : BufTy).Contents (Elt F) → (⟨S32768x1, .f32⟩ : BufTy).Contents (Elt F)),
    binary main_v136 main_v125 main_v137 (Host.divf : (⟨S32768x1, .f32⟩ : BufTy).Contents (Elt F) → (⟨S32768x1, .f32⟩ : BufTy).Contents (Elt F) → (⟨S32768x1, .f32⟩ : BufTy).Contents (Elt F)),
    nullary main_cst_22 (constant S_ .f32 0x42200000#32),
    unary main_cst_22 main_v138 (broadcastInDim S32768x1 ![] bcast_S_S32768x1 : (⟨S_, .f32⟩ : BufTy).Contents (Elt F) → (⟨S32768x1, .f32⟩ : BufTy).Contents (Elt F)),
    binary main_v138 main_v127 main_v139 (Host.divf : (⟨S32768x1, .f32⟩ : BufTy).Contents (Elt F) → (⟨S32768x1, .f32⟩ : BufTy).Contents (Elt F) → (⟨S32768x1, .f32⟩ : BufTy).Contents (Elt F)),
    nullary main_cst_23 (constant S_ .f32 0x00000000#32),
    binary main_v131 main_cst_23 main_v140 ((fun x v => Host.reduceAdd x v reducesTo_S32768x40_S32768_d1 h_S_) : (⟨S32768x40, .f32⟩ : BufTy).Contents (Elt F) → (⟨S_, .f32⟩ : BufTy).Contents (Elt F) → (⟨S32768, .f32⟩ : BufTy).Contents (Elt F)),
    nullary main_cst_24 (constant S_ .f32 0x00000000#32),
    binary main_v135 main_cst_24 main_v141 ((fun x v => Host.reduceAdd x v reducesTo_S32768x40_S32768_d1 h_S_) : (⟨S32768x40, .f32⟩ : BufTy).Contents (Elt F) → (⟨S_, .f32⟩ : BufTy).Contents (Elt F) → (⟨S32768, .f32⟩ : BufTy).Contents (Elt F)),
    binary main_v140 main_v141 main_v142 (mulf : (⟨S32768, .f32⟩ : BufTy).Contents (Elt F) → (⟨S32768, .f32⟩ : BufTy).Contents (Elt F) → (⟨S32768, .f32⟩ : BufTy).Contents (Elt F)),
    binary main_v131 main_v135 main_v143 (mulf : (⟨S32768x40, .f32⟩ : BufTy).Contents (Elt F) → (⟨S32768x40, .f32⟩ : BufTy).Contents (Elt F) → (⟨S32768x40, .f32⟩ : BufTy).Contents (Elt F)),
    nullary main_cst_25 (constant S_ .f32 0x00000000#32),
    binary main_v143 main_cst_25 main_v144 ((fun x v => Host.reduceAdd x v reducesTo_S32768x40_S32768_d1 h_S_) : (⟨S32768x40, .f32⟩ : BufTy).Contents (Elt F) → (⟨S_, .f32⟩ : BufTy).Contents (Elt F) → (⟨S32768, .f32⟩ : BufTy).Contents (Elt F)),
    binary main_v142 main_v144 main_v145 (subf : (⟨S32768, .f32⟩ : BufTy).Contents (Elt F) → (⟨S32768, .f32⟩ : BufTy).Contents (Elt F) → (⟨S32768, .f32⟩ : BufTy).Contents (Elt F)),
    nullary main_cst_26 (constant S_ .f32 0x3F800000#32),
    unary main_cst_26 main_v146 (broadcastInDim S32768 ![] bcast_S_S32768 : (⟨S_, .f32⟩ : BufTy).Contents (Elt F) → (⟨S32768, .f32⟩ : BufTy).Contents (Elt F)),
    binary main_v146 main_v145 main_v147 (subf : (⟨S32768, .f32⟩ : BufTy).Contents (Elt F) → (⟨S32768, .f32⟩ : BufTy).Contents (Elt F) → (⟨S32768, .f32⟩ : BufTy).Contents (Elt F)),
    unary main_v147 main_v148 (broadcastInDim S32768x1 ![0] bcast_S32768_S32768x1_0 : (⟨S32768, .f32⟩ : BufTy).Contents (Elt F) → (⟨S32768x1, .f32⟩ : BufTy).Contents (Elt F)),
    binary main_v131 main_v135 main_v149 (mulf : (⟨S32768x40, .f32⟩ : BufTy).Contents (Elt F) → (⟨S32768x40, .f32⟩ : BufTy).Contents (Elt F) → (⟨S32768x40, .f32⟩ : BufTy).Contents (Elt F)),
    unary main_v139 main_v150 (broadcastInDim S32768x40 ![0, 1] bcast_S32768x1_S32768x40_0_1 : (⟨S32768x1, .f32⟩ : BufTy).Contents (Elt F) → (⟨S32768x40, .f32⟩ : BufTy).Contents (Elt F)),
    binary main_v131 main_v150 main_v151 (mulf : (⟨S32768x40, .f32⟩ : BufTy).Contents (Elt F) → (⟨S32768x40, .f32⟩ : BufTy).Contents (Elt F) → (⟨S32768x40, .f32⟩ : BufTy).Contents (Elt F)),
    binary main_v149 main_v151 main_v152 (addf : (⟨S32768x40, .f32⟩ : BufTy).Contents (Elt F) → (⟨S32768x40, .f32⟩ : BufTy).Contents (Elt F) → (⟨S32768x40, .f32⟩ : BufTy).Contents (Elt F)),
    unary main_v137 main_v153 (broadcastInDim S32768x40 ![0, 1] bcast_S32768x1_S32768x40_0_1 : (⟨S32768x1, .f32⟩ : BufTy).Contents (Elt F) → (⟨S32768x40, .f32⟩ : BufTy).Contents (Elt F)),
    binary main_v135 main_v153 main_v154 (mulf : (⟨S32768x40, .f32⟩ : BufTy).Contents (Elt F) → (⟨S32768x40, .f32⟩ : BufTy).Contents (Elt F) → (⟨S32768x40, .f32⟩ : BufTy).Contents (Elt F)),
    binary main_v152 main_v154 main_v155 (addf : (⟨S32768x40, .f32⟩ : BufTy).Contents (Elt F) → (⟨S32768x40, .f32⟩ : BufTy).Contents (Elt F) → (⟨S32768x40, .f32⟩ : BufTy).Contents (Elt F)),
    unary main_v148 main_v156 (broadcastInDim S32768x40 ![0, 1] bcast_S32768x1_S32768x40_0_1 : (⟨S32768x1, .f32⟩ : BufTy).Contents (Elt F) → (⟨S32768x40, .f32⟩ : BufTy).Contents (Elt F)),
    binary main_v155 main_v156 main_v157 (Host.divf : (⟨S32768x40, .f32⟩ : BufTy).Contents (Elt F) → (⟨S32768x40, .f32⟩ : BufTy).Contents (Elt F) → (⟨S32768x40, .f32⟩ : BufTy).Contents (Elt F)),
    binary main_v137 main_v139 main_v158 (mulf : (⟨S32768x1, .f32⟩ : BufTy).Contents (Elt F) → (⟨S32768x1, .f32⟩ : BufTy).Contents (Elt F) → (⟨S32768x1, .f32⟩ : BufTy).Contents (Elt F)),
    binary main_v158 main_v148 main_v159 (Host.divf : (⟨S32768x1, .f32⟩ : BufTy).Contents (Elt F) → (⟨S32768x1, .f32⟩ : BufTy).Contents (Elt F) → (⟨S32768x1, .f32⟩ : BufTy).Contents (Elt F)),
    nullary main_cst_27 (constant S_ .f32 0x42200000#32),
    unary main_cst_27 main_v160 (broadcastInDim S32768x1 ![] bcast_S_S32768x1 : (⟨S_, .f32⟩ : BufTy).Contents (Elt F) → (⟨S32768x1, .f32⟩ : BufTy).Contents (Elt F)),
    binary main_v160 main_v159 main_v161 (Host.divf : (⟨S32768x1, .f32⟩ : BufTy).Contents (Elt F) → (⟨S32768x1, .f32⟩ : BufTy).Contents (Elt F) → (⟨S32768x1, .f32⟩ : BufTy).Contents (Elt F)),
    unary main_v161 main_v162 (broadcastInDim S32768x40 ![0, 1] bcast_S32768x1_S32768x40_0_1 : (⟨S32768x1, .f32⟩ : BufTy).Contents (Elt F) → (⟨S32768x40, .f32⟩ : BufTy).Contents (Elt F)),
    binary main_v157 main_v162 main_v163 (mulf : (⟨S32768x40, .f32⟩ : BufTy).Contents (Elt F) → (⟨S32768x40, .f32⟩ : BufTy).Contents (Elt F) → (⟨S32768x40, .f32⟩ : BufTy).Contents (Elt F)),
    nullary main_cst_28 (constant S_ .f32 0x3F800000#32),
    unary main_cst_28 main_v164 (broadcastInDim S32768x40 ![] bcast_S_S32768x40 : (⟨S_, .f32⟩ : BufTy).Contents (Elt F) → (⟨S32768x40, .f32⟩ : BufTy).Contents (Elt F)),
    binary main_v163 main_v164 main_v165 (addf : (⟨S32768x40, .f32⟩ : BufTy).Contents (Elt F) → (⟨S32768x40, .f32⟩ : BufTy).Contents (Elt F) → (⟨S32768x40, .f32⟩ : BufTy).Contents (Elt F)) ]

end Lines

/-- The host's combination at the reference's sizes. -/
abbrev combineRef (a1 a2 : FVec Ideal S32768x40 .f32) : FVec Ideal S32768x40 .f32 :=
  combineH reducesTo_S32768x40_S32768_d1 h_S_ bcast_S32768_S32768x1_0 bcast_S32768x1_S32768x40_0_1 bcast_S_S32768x40
    bcast_S_S32768x1 bcast_S_S32768 a1 a2

section Reads

variable (Y : Valuation τ sig (Elt Ideal))

set_option maxRecDepth 8192 in
/-- The first stretch leaves at `main_v123` the host's combination of what it found at `main_v77` and `main_v79`. -/
theorem s1_v123 :
    after (stretch1 (F := Ideal)) Y (Proc.devRef .tc main_v123)
      = combineRef (Y (Proc.devRef .tc main_v77)) (Y (Proc.devRef .tc main_v79)) := by
  after_results_simp
  rfl

set_option maxRecDepth 8192 in
/-- The second stretch leaves at `main_v165` the host's combination of what it found at `main_v123` and `main_v81`. -/
theorem s2_v165 :
    after (stretch2 (F := Ideal)) Y (Proc.devRef .tc main_v165)
      = combineRef (Y (Proc.devRef .tc main_v123)) (Y (Proc.devRef .tc main_v81)) := by
  after_results_simp
  rfl

set_option maxRecDepth 8192 in
/-- Neither stretch writes any of the three encoder results. -/
theorem s1_v77 : after (stretch1 (F := Ideal)) Y (Proc.devRef .tc main_v77) = Y (Proc.devRef .tc main_v77) := by
  after_results_simp
set_option maxRecDepth 8192 in
theorem s1_v79 : after (stretch1 (F := Ideal)) Y (Proc.devRef .tc main_v79) = Y (Proc.devRef .tc main_v79) := by
  after_results_simp
set_option maxRecDepth 8192 in
theorem s1_v81 : after (stretch1 (F := Ideal)) Y (Proc.devRef .tc main_v81) = Y (Proc.devRef .tc main_v81) := by
  after_results_simp
set_option maxRecDepth 8192 in
theorem s2_v77 : after (stretch2 (F := Ideal)) Y (Proc.devRef .tc main_v77) = Y (Proc.devRef .tc main_v77) := by
  after_results_simp
set_option maxRecDepth 8192 in
theorem s2_v79 : after (stretch2 (F := Ideal)) Y (Proc.devRef .tc main_v79) = Y (Proc.devRef .tc main_v79) := by
  after_results_simp
set_option maxRecDepth 8192 in
theorem s2_v81 : after (stretch2 (F := Ideal)) Y (Proc.devRef .tc main_v81) = Y (Proc.devRef .tc main_v81) := by
  after_results_simp

end Reads

/-- The host's combination at the reference's sizes is the specification's. -/
theorem combineRef_eq (a1 a2 : FVec Ideal S32768x40 .f32) : combineRef a1 a2 = combine a1 a2 :=
  combineH_eq _ _ _ _ _ _ _ (by decide) a1 a2

/-- Any line that ends with the two stretches leaves at `main_v165` the combination of the combination of what it
    leaves at `main_v77` and `main_v79` with what it leaves at `main_v81`. -/
theorem tail_combine (hd : List (HloOp τ sig (Elt Ideal))) (V : Valuation τ sig (Elt Ideal)) :
    after (hd ++ (stretch1 ++ stretch2)) V (Proc.devRef .tc main_v165)
      = combine (M := 32768) (N := 40)
          (combine (M := 32768) (N := 40) (after (hd ++ (stretch1 ++ stretch2)) V (Proc.devRef .tc main_v77))
            (after (hd ++ (stretch1 ++ stretch2)) V (Proc.devRef .tc main_v79)))
          (after (hd ++ (stretch1 ++ stretch2)) V (Proc.devRef .tc main_v81)) := by
  simp only [StableHlo.after_append]
  generalize after hd V = Y
  rw [s2_v165, s1_v123, s2_v77, s2_v79, s2_v81, s1_v77, s1_v79, s1_v81, combineRef_eq, combineRef_eq]

/-- The reference's line is its first 133 operations followed by the two stretches. -/
theorem ops_cut : (ops : List (HloOp τ sig (Elt Ideal))) = ops.take 133 ++ (stretch1 ++ stretch2) :=
  (List.take_append_drop 133 ops).symm.trans
    (congrArg (ops.take 133 ++ ·) (show (ops : List (HloOp τ sig (Elt Ideal))).drop 133 = stretch1 ++ stretch2 from rfl))

/-- The fold of the reference's operations at its fourth result is the combination of the combination of the first two
    encoders' terms with the third's. -/
theorem after_main_v165 (m : (ℓ : Loc nD τ sig) → Buf (Elt Ideal) ℓ) (c : Dev nD) :
    after ops (launchContents m c) (Proc.devRef .tc main_v165)
      = combine (combine (res_main_v77 m c) (res_main_v79 m c)) (res_main_v81 m c) := by
  have h := tail_combine (ops.take 133) (launchContents m c)
  rw [← ops_cut] at h
  rw [h, after_main_v77, after_main_v79, after_main_v81]

end Cert.RefValue

end
-- ==== Proof.lean ====
/-
  The certificate's claim: the kernel program and its idealization run without a fault and keep their arguments; the
  idealization changes nothing (the ideal pass rewrote no operation); and at the exact instance the idealized kernel
  and the idealized reference, run from memories that agree on the arguments, end with equal results.

  The kernel is one stretch of host operations and four pipelined regions.  Three regions are encoders
  (dense layer, normalisation by running statistics, rectifier, dense layer, softplus plus one), each tiling the rows of
  its input; the fourth combines the three results row by row.  On the extended reals each region's output array is one
  function of the arrays it finds, because an entry of an encoder, or of the combination, reads only its own row of the
  tiled operands.  The reference computes the same three encoders and the same combination as whole-array host
  operations.  The two sides differ in layout only — rows kept as 1 x n arrays, sums kept as columns, the third
  encoder's first contraction split over the two halves of its weight matrix (a sum over 2048 terms as the sum of two
  sums over 1024, which needs no finiteness) — so the four results are the same functions of the arguments.
-/
import proofs.«106370_j5145370821142_2_alg».proof.Defs
import proofs.«106370_j5145370821142_2_alg».proof.Proof.Gen.Kernel
import proofs.«106370_j5145370821142_2_alg».proof.Proof.Gen.Kernel.Skeleton
import proofs.«106370_j5145370821142_2_alg».proof.Proof.Gen.Kernel.Launch
import proofs.«106370_j5145370821142_2_alg».proof.Proof.Gen.Kernel.Points
import proofs.«106370_j5145370821142_2_alg».proof.Proof.Gen.Kernel.Frame
import proofs.«106370_j5145370821142_2_alg».proof.Proof.Gen.KernelIdeal
import proofs.«106370_j5145370821142_2_alg».proof.Proof.Gen.KernelIdeal.Skeleton
import proofs.«106370_j5145370821142_2_alg».proof.Proof.Gen.KernelIdeal.Launch
import proofs.«106370_j5145370821142_2_alg».proof.Proof.Gen.KernelIdeal.Points
import proofs.«106370_j5145370821142_2_alg».proof.Proof.Gen.KernelIdeal.Frame
import proofs.«106370_j5145370821142_2_alg».proof.Proof.Gen.ReferenceIdeal
import proofs.«106370_j5145370821142_2_alg».proof.Proof.Gen.Pre_finite_inputs
import proofs.«106370_j5145370821142_2_alg».proof.Proof.KernelValue
import proofs.«106370_j5145370821142_2_alg».proof.Proof.ReferenceRun
import proofs.«106370_j5145370821142_2_alg».proof.Proof.RefEncoders
import proofs.«106370_j5145370821142_2_alg».proof.Proof.RefCombineRun
import Idealize.ShloMosaic.Adequacy
import Idealize.ShloMosaic.Init

set_option maxRecDepth 16384

noncomputable section

namespace Cert.Proof

open Idealize.ShloMosaic Idealize.SL.Sem Cert.Evidence Cert.KernelIdeal.Arrays Cert.RefValue

/-- The kernel as printed runs and keeps its arguments. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is a line of host operations: its run, with the results dropped. -/
theorem frame_ri : Cert.frame_ReferenceIdeal := fun m ρ _ =>
  (θ_run Cert.ReferenceIdeal.defs _ _).mono (fun _ h c => (h c).2.2.2.2) (Cert.ReferenceIdeal.ValueP.run (F := Ideal) m ρ)

/-- The ideal pass rewrote nothing. -/
theorem preserves : Cert.preserves_Kernel_KernelIdeal := trivial

/-- From memories that agree on the arguments both programs end with the three encoders and their combination. -/
theorem algebraic : Cert.algebraic_KernelIdeal_ReferenceIdeal := by
  intro m ρ m' ρ' _ hagree
  refine ⟨fun c => enc1 m c, fun c => enc2 m c, fun c => enc3 m c, fun c => comb m c, Cert.KernelIdeal.Arrays.run m ρ, ?_⟩
  refine (θ_run Cert.ReferenceIdeal.defs _ _).mono (fun _ h c => ?_) (Cert.ReferenceIdeal.ValueP.run (F := Ideal) m' ρ')
  obtain ⟨a0, a1, a2, a3, a4, a5, a6, a7, a8, a9, a10, a11, a12, a13, a14, a15, a16, a17⟩ := hagree c
  have e1 : Cert.ReferenceIdeal.ValueP.res_main_v77 m' c = enc1 m c := by
    rw [res_alpha1]; unfold enc1; rw [a0, a2, a3, a4, a5, a6, a7, a8, a9]
  have e2 : Cert.ReferenceIdeal.ValueP.res_main_v79 m' c = enc2 m c := by
    rw [res_alpha2]; unfold enc2; rw [a1, a2, a3, a4, a5, a6, a7, a8, a9]
  have e3 : Cert.ReferenceIdeal.ValueP.res_main_v81 m' c = enc3 m c := by
    rw [res_alpha3]; unfold enc3; rw [a0, a1, a10, a11, a12, a13, a14, a15, a16, a17]
  refine ⟨(h c).1.trans e1, (h c).2.1.trans e2, (h c).2.2.1.trans e3, (h c).2.2.2.1.trans ?_, (h c).2.2.2.2⟩
  rw [after_main_v165, e1, e2, e3]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
